-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S128x146 : Shape := ⟨2, ![128, 146]⟩
abbrev S146 : Shape := ⟨1, ![146]⟩
abbrev S146x146 : Shape := ⟨2, ![146, 146]⟩
abbrev S500000 : Shape := ⟨1, ![500000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x146 : S_.BroadcastsInDim S128x146 (![] : Fin 0 → Fin S128x146.rank)
  reducesTo_S128x146_S_d0_1 : S128x146.ReducesTo [0, 1] S_
  bcast_S_S146 : S_.BroadcastsInDim S146 (![] : Fin 0 → Fin S146.rank)
  reducesTo_S146_S_d0 : S146.ReducesTo [0] S_
  bcast_S_S146x146 : S_.BroadcastsInDim S146x146 (![] : Fin 0 → Fin S146x146.rank)
  reducesTo_S146x146_S_d0_1 : S146x146.ReducesTo [0, 1] S_

variable [Facts]

def fn_part3 {F : FTy → Type} [FloatOps F] (main_arg11 : FVec F S146 .f32) (main_v48 : IVec S_ 1) (main_v49 : FVec F S146 .f32) (main_v50 : FVec F S146 .f32) : IVec S_ 1 :=
  let main_v51 : IVec S146 1 := cmpf .olt main_v49 main_v50
  let main_c_19 : IVec S_ 1 := constantI S_ 1 1#1
  let main_v52 : IVec S_ 1 := (fun x v => Host.reduce IntOp.andi x v reducesTo_S146_S_d0 h_S_) main_v51 main_c_19
  let main_v53 : IVec S_ 1 := andi main_v48 main_v52
  let main_v54 : FVec F S146 .f32 := Host.absf main_arg11
  let main_cst_20 : FVec F S_ .f32 := constant S_ .f32 0x7F800000#32
  let main_v55 : FVec F S146 .f32 := broadcastInDim S146 ![] bcast_S_S146 main_cst_20
  let main_v56 : IVec S146 1 := cmpf .olt main_v54 main_v55
  let main_c_21 : IVec S_ 1 := constantI S_ 1 1#1
  let main_v57 : IVec S_ 1 := (fun x v => Host.reduce IntOp.andi x v reducesTo_S146_S_d0 h_S_) main_v56 main_c_21
  let main_v58 : IVec S_ 1 := andi main_v53 main_v57
  main_v58

def fn_part2 {F : FTy → Type} [FloatOps F] (main_arg7 : FVec F S146 .f32) (main_arg8 : FVec F S146x146 .f32) (main_arg9 : FVec F S146 .f32) (main_arg10 : FVec F S146 .f32) (main_arg11 : FVec F S146 .f32) (main_v33 : IVec S_ 1) : IVec S_ 1 :=
  let main_v34 : FVec F S146 .f32 := Host.absf main_arg7
  let main_cst_12 : FVec F S_ .f32 := constant S_ .f32 0x7F800000#32
  let main_v35 : FVec F S146 .f32 := broadcastInDim S146 ![] bcast_S_S146 main_cst_12
  let main_v36 : IVec S146 1 := cmpf .olt main_v34 main_v35
  let main_c_13 : IVec S_ 1 := constantI S_ 1 1#1
  let main_v37 : IVec S_ 1 := (fun x v => Host.reduce IntOp.andi x v reducesTo_S146_S_d0 h_S_) main_v36 main_c_13
  let main_v38 : IVec S_ 1 := andi main_v33 main_v37
  let main_v39 : FVec F S146x146 .f32 := Host.absf main_arg8
  let main_cst_14 : FVec F S_ .f32 := constant S_ .f32 0x7F800000#32
  let main_v40 : FVec F S146x146 .f32 := broadcastInDim S146x146 ![] bcast_S_S146x146 main_cst_14
  let main_v41 : IVec S146x146 1 := cmpf .olt main_v39 main_v40
  let main_c_15 : IVec S_ 1 := constantI S_ 1 1#1
  let main_v42 : IVec S_ 1 := (fun x v => Host.reduce IntOp.andi x v reducesTo_S146x146_S_d0_1 h_S_) main_v41 main_c_15
  let main_v43 : IVec S_ 1 := andi main_v38 main_v42
  let main_v44 : FVec F S146 .f32 := Host.absf main_arg9
  let main_cst_16 : FVec F S_ .f32 := constant S_ .f32 0x7F800000#32
  let main_v45 : FVec F S146 .f32 := broadcastInDim S146 ![] bcast_S_S146 main_cst_16
  let main_v46 : IVec S146 1 := cmpf .olt main_v44 main_v45
  let main_c_17 : IVec S_ 1 := constantI S_ 1 1#1
  let main_v47 : IVec S_ 1 := (fun x v => Host.reduce IntOp.andi x v reducesTo_S146_S_d0 h_S_) main_v46 main_c_17
  let main_v48 : IVec S_ 1 := andi main_v43 main_v47
  let main_v49 : FVec F S146 .f32 := Host.absf main_arg10
  let main_cst_18 : FVec F S_ .f32 := constant S_ .f32 0x7F800000#32
  let main_v50 : FVec F S146 .f32 := broadcastInDim S146 ![] bcast_S_S146 main_cst_18
  fn_part3 (F := F) main_arg11 main_v48 main_v49 main_v50

def fn_part1 {F : FTy → Type} [FloatOps F] (main_arg4 : FVec F S146x146 .f32) (main_arg5 : FVec F S146 .f32) (main_arg6 : FVec F S146 .f32) (main_arg7 : FVec F S146 .f32) (main_arg8 : FVec F S146x146 .f32) (main_arg9 : FVec F S146 .f32) (main_arg10 : FVec F S146 .f32) (main_arg11 : FVec F S146 .f32) (main_v13 : IVec S_ 1) (main_v16 : IVec S146 1) : IVec S_ 1 :=
  let main_c_5 : IVec S_ 1 := constantI S_ 1 1#1
  let main_v17 : IVec S_ 1 := (fun x v => Host.reduce IntOp.andi x v reducesTo_S146_S_d0 h_S_) main_v16 main_c_5
  let main_v18 : IVec S_ 1 := andi main_v13 main_v17
  let main_v19 : FVec F S146x146 .f32 := Host.absf main_arg4
  let main_cst_6 : FVec F S_ .f32 := constant S_ .f32 0x7F800000#32
  let main_v20 : FVec F S146x146 .f32 := broadcastInDim S146x146 ![] bcast_S_S146x146 main_cst_6
  let main_v21 : IVec S146x146 1 := cmpf .olt main_v19 main_v20
  let main_c_7 : IVec S_ 1 := constantI S_ 1 1#1
  let main_v22 : IVec S_ 1 := (fun x v => Host.reduce IntOp.andi x v reducesTo_S146x146_S_d0_1 h_S_) main_v21 main_c_7
  let main_v23 : IVec S_ 1 := andi main_v18 main_v22
  let main_v24 : FVec F S146 .f32 := Host.absf main_arg5
  let main_cst_8 : FVec F S_ .f32 := constant S_ .f32 0x7F800000#32
  let main_v25 : FVec F S146 .f32 := broadcastInDim S146 ![] bcast_S_S146 main_cst_8
  let main_v26 : IVec S146 1 := cmpf .olt main_v24 main_v25
  let main_c_9 : IVec S_ 1 := constantI S_ 1 1#1
  let main_v27 : IVec S_ 1 := (fun x v => Host.reduce IntOp.andi x v reducesTo_S146_S_d0 h_S_) main_v26 main_c_9
  let main_v28 : IVec S_ 1 := andi main_v23 main_v27
  let main_v29 : FVec F S146 .f32 := Host.absf main_arg6
  let main_cst_10 : FVec F S_ .f32 := constant S_ .f32 0x7F800000#32
  let main_v30 : FVec F S146 .f32 := broadcastInDim S146 ![] bcast_S_S146 main_cst_10
  let main_v31 : IVec S146 1 := cmpf .olt main_v29 main_v30
  let main_c_11 : IVec S_ 1 := constantI S_ 1 1#1
  let main_v32 : IVec S_ 1 := (fun x v => Host.reduce IntOp.andi x v reducesTo_S146_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S100000x1 .f32) (main_arg2 : FVec F S128x146 .f32) (main_arg3 : FVec F S146 .f32) (main_arg4 : FVec F S146x146 .f32) (main_arg5 : FVec F S146 .f32) (main_arg6 : FVec F S146 .f32) (main_arg7 : FVec F S146 .f32) (main_arg8 : FVec F S146x146 .f32) (main_arg9 : FVec F S146 .f32) (main_arg10 : FVec F S146 .f32) (main_arg11 : FVec F S146 .f32) (main_arg12 : IVec S500000 32) (main_arg13 : IVec S500000 32) (main_arg14 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x146 .f32 := Host.absf main_arg2
  let main_cst_2 : FVec F S_ .f32 := constant S_ .f32 0x7F800000#32
  let main_v10 : FVec F S128x146 .f32 := broadcastInDim S128x146 ![] bcast_S_S128x146 main_cst_2
  let main_v11 : IVec S128x146 1 := cmpf .olt main_v9 main_v10
  let main_c_3 : IVec S_ 1 := constantI S_ 1 1#1
  let main_v12 : IVec S_ 1 := (fun x v => Host.reduce IntOp.andi x v reducesTo_S128x146_S_d0_1 h_S_) main_v11 main_c_3
  let main_v13 : IVec S_ 1 := andi main_v8 main_v12
  let main_v14 : FVec F S146 .f32 := Host.absf main_arg3
  let main_cst_4 : FVec F S_ .f32 := constant S_ .f32 0x7F800000#32
  let main_v15 : FVec F S146 .f32 := broadcastInDim S146 ![] bcast_S_S146 main_cst_4
  let main_v16 : IVec S146 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S100000x1 : Shape := ⟨2, ![100000, 1]⟩
abbrev S128x146 : Shape := ⟨2, ![128, 146]⟩
abbrev S146 : Shape := ⟨1, ![146]⟩
abbrev S146x146 : Shape := ⟨2, ![146, 146]⟩
abbrev S500000 : Shape := ⟨1, ![500000]⟩
abbrev S100000 : Shape := ⟨1, ![100000]⟩
abbrev S1x146 : Shape := ⟨2, ![1, 146]⟩
abbrev S100000x146 : Shape := ⟨2, ![100000, 146]⟩
abbrev S5000x128 : Shape := ⟨2, ![5000, 128]⟩
abbrev S5000x146 : Shape := ⟨2, ![5000, 146]⟩
abbrev S_ : Shape := ⟨0, ![]⟩
abbrev S500000x1 : Shape := ⟨2, ![500000, 1]⟩
abbrev S5000x1 : Shape := ⟨2, ![5000, 1]⟩
abbrev S500000x146 : Shape := ⟨2, ![500000, 146]⟩
abbrev S1024 : Shape := ⟨1, ![1024]⟩
abbrev S1024x146 : Shape := ⟨2, ![1024, 146]⟩
abbrev S1024x1 : Shape := ⟨2, ![1024, 1]⟩

abbrev nBuf : Space → Nat
  | .hbm => 179
  | .vmem => 58
  | .smem => 0
  | _ => 0

abbrev hbmTy0_0 (i : Nat) : BufTy := match i % 128 with
  | 0 => ⟨S100000x128, .f32⟩
  | 1 => ⟨S100000x1, .f32⟩
  | 2 => ⟨S128x146, .f32⟩
  | 3 => ⟨S146, .f32⟩
  | 4 => ⟨S146x146, .f32⟩
  | 5 => ⟨S146, .f32⟩
  | 6 => ⟨S146, .f32⟩
  | 7 => ⟨S146, .f32⟩
  | 8 => ⟨S146x146, .f32⟩
  | 9 => ⟨S146, .f32⟩
  | 10 => ⟨S146, .f32⟩
  | 11 => ⟨S146, .f32⟩
  | 12 => ⟨S500000, .i32⟩
  | 13 => ⟨S500000, .i32⟩
  | 14 => ⟨S100000, .i32⟩
  | 15 => ⟨S1x146, .f32⟩
  | 16 => ⟨S100000x146, .f32⟩
  | 17 => ⟨S_, .f32⟩
  | 18 => ⟨S500000, .f32⟩
  | 19 => ⟨S_, .f32⟩
  | 20 => ⟨S100000, .f32⟩
  | 21 => ⟨S500000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S500000x1, .i32⟩
  | 29 => ⟨S100000, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x146, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x146, .f32⟩
  | 47 => ⟨S_, .f32⟩
  | 48 => ⟨S100000x146, .f32⟩
  | 49 => ⟨S500000x1, .i32⟩
  | 50 => ⟨S100000x146, .f32⟩
  | 51 => ⟨S_, .f32⟩
  | 52 => ⟨S100000, .f32⟩
  | 53 => ⟨S100000, .f32⟩
  | 54 => ⟨S100000x1, .f32⟩
  | 55 => ⟨S1x146, .f32⟩
  | 56 => ⟨S100000x146, .f32⟩
  | 57 => ⟨S_, .f32⟩
  | 58 => ⟨S146, .f32⟩
  | 59 => ⟨S_, .f32⟩
  | 60 => ⟨S146, .f32⟩
  | 61 => ⟨S146, .f32⟩
  | 62 => ⟨S_, .i32⟩
  | 63 => ⟨S_, .f32⟩
  | 64 => ⟨S146, .f32⟩
  | 65 => ⟨S1x146, .f32⟩
  | 66 => ⟨S_, .f32⟩
  | 67 => ⟨S1x146, .f32⟩
  | 68 => ⟨S1x146, .f32⟩
  | 69 => ⟨S100000x146, .f32⟩
  | 70 => ⟨S100000x146, .f32⟩
  | 71 => ⟨S100000x146, .f32⟩
  | 72 => ⟨S_, .f32⟩
  | 73 => ⟨S_, .f32⟩
  | 74 => ⟨S_, .f32⟩
  | 75 => ⟨S_, .f32⟩
  | 76 => ⟨S146, .f32⟩
  | 77 => ⟨S146, .f32⟩
  | 78 => ⟨S146, .f32⟩
  | 79 => ⟨S_, .f32⟩
  | 80 => ⟨S_, .i1⟩
  | 81 => ⟨S_, .f32⟩
  | 82 => ⟨S_, .f32⟩
  | 83 => ⟨S146, .f32⟩
  | 84 => ⟨S146, .f32⟩
  | 85 => ⟨S1x146, .f32⟩
  | 86 => ⟨S1x146, .f32⟩
  | 87 => ⟨S1x146, .f32⟩
  | 88 => ⟨S1x146, .f32⟩
  | 89 => ⟨S100000x146, .f32⟩
  | 90 => ⟨S_, .f32⟩
  | 91 => ⟨S500000, .f32⟩
  | 92 => ⟨S_, .f32⟩
  | 93 => ⟨S100000, .f32⟩
  | 94 => ⟨S500000x1, .i32⟩
  | 95 => ⟨S100000, .f32⟩
  | 96 => ⟨S_, .f32⟩
  | 97 => ⟨S100000, .f32⟩
  | 98 => ⟨S100000, .f32⟩
  | 99 => ⟨S_, .f32⟩
  | 100 => ⟨S100000, .f32⟩
  | 101 => ⟨S500000x1, .i32⟩
  | 102 => ⟨S100000, .f32⟩
  | 103 => ⟨S_, .f32⟩
  | 104 => ⟨S100000, .f32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x146, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x146, .f32⟩
  | 120 => ⟨S_, .f32⟩
  | 121 => ⟨S100000x146, .f32⟩
  | 122 => ⟨S500000x1, .i32⟩
  | 123 => ⟨S100000x146, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S1x146, .f32⟩
  | 1 => ⟨S100000x146, .f32⟩
  | 2 => ⟨S_, .f32⟩
  | 3 => ⟨S146, .f32⟩
  | 4 => ⟨S_, .f32⟩
  | 5 => ⟨S146, .f32⟩
  | 6 => ⟨S146, .f32⟩
  | 7 => ⟨S_, .i32⟩
  | 8 => ⟨S_, .f32⟩
  | 9 => ⟨S146, .f32⟩
  | 10 => ⟨S1x146, .f32⟩
  | 11 => ⟨S_, .f32⟩
  | 12 => ⟨S1x146, .f32⟩
  | 13 => ⟨S1x146, .f32⟩
  | 14 => ⟨S100000x146, .f32⟩
  | 15 => ⟨S100000x146, .f32⟩
  | 16 => ⟨S100000x146, .f32⟩
  | 17 => ⟨S_, .f32⟩
  | 18 => ⟨S_, .f32⟩
  | 19 => ⟨S_, .f32⟩
  | 20 => ⟨S_, .f32⟩
  | 21 => ⟨S146, .f32⟩
  | 22 => ⟨S146, .f32⟩
  | 23 => ⟨S146, .f32⟩
  | 24 => ⟨S_, .f32⟩
  | 25 => ⟨S_, .i1⟩
  | 26 => ⟨S_, .f32⟩
  | 27 => ⟨S_, .f32⟩
  | 28 => ⟨S146, .f32⟩
  | 29 => ⟨S146, .f32⟩
  | 30 => ⟨S1x146, .f32⟩
  | 31 => ⟨S1x146, .f32⟩
  | 32 => ⟨S1x146, .f32⟩
  | 33 => ⟨S1x146, .f32⟩
  | 34 => ⟨S100000x146, .f32⟩
  | 35 => ⟨S_, .f32⟩
  | 36 => ⟨S100000, .f32⟩
  | 37 => ⟨S_, .f32⟩
  | 38 => ⟨S1024, .f32⟩
  | 39 => ⟨S100000x1, .i32⟩
  | 40 => ⟨S1024, .f32⟩
  | 41 => ⟨S_, .f32⟩
  | 42 => ⟨S1024, .f32⟩
  | 43 => ⟨S1024, .f32⟩
  | 44 => ⟨S_, .f32⟩
  | 45 => ⟨S1024x146, .f32⟩
  | 46 => ⟨S100000x1, .i32⟩
  | 47 => ⟨S1024x146, .f32⟩
  | 48 => ⟨S1024x1, .f32⟩
  | 49 => ⟨S1024x146, .f32⟩
  | 50 => ⟨S1024x146, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x146, .f32⟩
  | .local _ .vmem, ⟨3, _⟩ => ⟨S1x146, .f32⟩
  | .local _ .vmem, ⟨4, _⟩ => ⟨S5000x146, .f32⟩
  | .local _ .vmem, ⟨5, _⟩ => ⟨S5000x146, .f32⟩
  | .local _ .vmem, ⟨6, _⟩ => ⟨S5000x146, .f32⟩
  | .local _ .vmem, ⟨7, _⟩ => ⟨S5000x146, .f32⟩
  | .local _ .vmem, ⟨8, _⟩ => ⟨S5000x1, .f32⟩
  | .local _ .vmem, ⟨9, _⟩ => ⟨S5000x1, .f32⟩
  | .local _ .vmem, ⟨10, _⟩ => ⟨S146x146, .f32⟩
  | .local _ .vmem, ⟨11, _⟩ => ⟨S5000x146, .f32⟩
  | .local _ .vmem, ⟨12, _⟩ => ⟨S5000x146, .f32⟩
  | .local _ .vmem, ⟨13, _⟩ => ⟨S5000x146, .f32⟩
  | .local _ .vmem, ⟨14, _⟩ => ⟨S5000x146, .f32⟩
  | .local _ .vmem, ⟨15, _⟩ => ⟨S5000x1, .f32⟩
  | .local _ .vmem, ⟨16, _⟩ => ⟨S5000x1, .f32⟩
  | .local _ .vmem, ⟨17, _⟩ => ⟨S1x146, .f32⟩
  | .local _ .vmem, ⟨18, _⟩ => ⟨S5000x1, .f32⟩
  | .local _ .vmem, ⟨19, _⟩ => ⟨S5000x1, .f32⟩
  | .local _ .vmem, ⟨20, _⟩ => ⟨S5000x146, .f32⟩
  | .local _ .vmem, ⟨21, _⟩ => ⟨S5000x146, .f32⟩
  | .local _ .vmem, ⟨22, _⟩ => ⟨S5000x146, .f32⟩
  | .local _ .vmem, ⟨23, _⟩ => ⟨S5000x146, .f32⟩
  | .local _ .vmem, ⟨24, _⟩ => ⟨S1x146, .f32⟩
  | .local _ .vmem, ⟨25, _⟩ => ⟨S1x146, .f32⟩
  | .local _ .vmem, ⟨26, _⟩ => ⟨S1x146, .f32⟩
  | .local _ .vmem, ⟨27, _⟩ => ⟨S1x146, .f32⟩
  | .local _ .vmem, ⟨28, _⟩ => ⟨S5000x146, .f32⟩
  | .local _ .vmem, ⟨29, _⟩ => ⟨S5000x146, .f32⟩
  | .local _ .vmem, ⟨30, _⟩ => ⟨S5000x146, .f32⟩
  | .local _ .vmem, ⟨31, _⟩ => ⟨S5000x146, .f32⟩
  | .local _ .vmem, ⟨32, _⟩ => ⟨S5000x146, .f32⟩
  | .local _ .vmem, ⟨33, _⟩ => ⟨S5000x146, .f32⟩
  | .local _ .vmem, ⟨34, _⟩ => ⟨S5000x1, .f32⟩
  | .local _ .vmem, ⟨35, _⟩ => ⟨S5000x1, .f32⟩
  | .local _ .vmem, ⟨36, _⟩ => ⟨S146x146, .f32⟩
  | .local _ .vmem, ⟨37, _⟩ => ⟨S5000x146, .f32⟩
  | .local _ .vmem, ⟨38, _⟩ => ⟨S5000x146, .f32⟩
  | .local _ .vmem, ⟨39, _⟩ => ⟨S5000x146, .f32⟩
  | .local _ .vmem, ⟨40, _⟩ => ⟨S5000x146, .f32⟩
  | .local _ .vmem, ⟨41, _⟩ => ⟨S5000x1, .f32⟩
  | .local _ .vmem, ⟨42, _⟩ => ⟨S5000x1, .f32⟩
  | .local _ .vmem, ⟨43, _⟩ => ⟨S1x146, .f32⟩
  | .local _ .vmem, ⟨44, _⟩ => ⟨S5000x1, .f32⟩
  | .local _ .vmem, ⟨45, _⟩ => ⟨S5000x1, .f32⟩
  | .local _ .vmem, ⟨46, _⟩ => ⟨S5000x146, .f32⟩
  | .local _ .vmem, ⟨47, _⟩ => ⟨S5000x146, .f32⟩
  | .local _ .vmem, ⟨48, _⟩ => ⟨S5000x146, .f32⟩
  | .local _ .vmem, ⟨49, _⟩ => ⟨S5000x146, .f32⟩
  | .local _ .vmem, ⟨50, _⟩ => ⟨S1x146, .f32⟩
  | .local _ .vmem, ⟨51, _⟩ => ⟨S1x146, .f32⟩
  | .local _ .vmem, ⟨52, _⟩ => ⟨S1x146, .f32⟩
  | .local _ .vmem, ⟨53, _⟩ => ⟨S1x146, .f32⟩
  | .local _ .vmem, ⟨54, _⟩ => ⟨S5000x146, .f32⟩
  | .local _ .vmem, ⟨55, _⟩ => ⟨S5000x146, .f32⟩
  | .local _ .vmem, ⟨56, _⟩ => ⟨S5000x146, .f32⟩
  | .local _ .vmem, ⟨57, _⟩ => ⟨S5000x146, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_11 : Ref sig .tc := ⟨.hbm, 90, rfl⟩
abbrev main_v41 : Ref sig .tc := ⟨.hbm, 91, rfl⟩
abbrev main_cst_12 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_cst_13 : Ref sig .tc := ⟨.hbm, 96, rfl⟩
abbrev main_v45 : Ref sig .tc := ⟨.hbm, 97, rfl⟩
abbrev main_v46 : Ref sig .tc := ⟨.hbm, 98, rfl⟩
abbrev main_cst_14 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_15 : Ref sig .tc := ⟨.hbm, 103, rfl⟩
abbrev main_v50 : Ref sig .tc := ⟨.hbm, 104, rfl⟩
abbrev main_v51 : Ref sig .tc := ⟨.hbm, 105, rfl⟩
abbrev main_cst_16 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_c_17 : Ref sig .tc := ⟨.hbm, 111, rfl⟩
abbrev main_v56 : Ref sig .tc := ⟨.hbm, 112, rfl⟩
abbrev main_v57 : Ref sig .tc := ⟨.hbm, 113, rfl⟩
abbrev main_c_18 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_cst_19 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_cst_20 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_21 : Ref sig .tc := ⟨.hbm, 130, rfl⟩
abbrev main_v71 : Ref sig .tc := ⟨.hbm, 131, rfl⟩
abbrev main_cst_22 : Ref sig .tc := ⟨.hbm, 132, rfl⟩
abbrev main_v72 : Ref sig .tc := ⟨.hbm, 133, rfl⟩
abbrev main_v73 : Ref sig .tc := ⟨.hbm, 134, rfl⟩
abbrev main_c_23 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_cst_0 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_v7 : Ref sig .tc := ⟨.hbm, 145, rfl⟩
abbrev main_call1_cst_1 : Ref sig .tc := ⟨.hbm, 146, rfl⟩
abbrev main_call1_v8 : Ref sig .tc := ⟨.hbm, 147, rfl⟩
abbrev main_call1_cst_2 : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_cst_3 : Ref sig .tc := ⟨.hbm, 152, rfl⟩
abbrev main_call1_v12 : Ref sig .tc := ⟨.hbm, 153, rfl⟩
abbrev main_call1_cst_4 : Ref sig .tc := ⟨.hbm, 154, rfl⟩
abbrev main_call1_call0_v0 : Ref sig .tc := ⟨.hbm, 155, rfl⟩
abbrev main_call1_call0_v1 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_cst_24 : Ref sig .tc := ⟨.hbm, 163, rfl⟩
abbrev main_v80 : Ref sig .tc := ⟨.hbm, 164, rfl⟩
abbrev main_cst_25 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_cst_26 : Ref sig .tc := ⟨.hbm, 169, rfl⟩
abbrev main_v84 : Ref sig .tc := ⟨.hbm, 170, rfl⟩
abbrev main_v85 : Ref sig .tc := ⟨.hbm, 171, rfl⟩
abbrev main_cst_27 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc6_stg6_0 : Ref sig .tc := ⟨.vmem, 56, rfl⟩
abbrev cc6_stg6_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc6_sem6_0 : DmaSem sig := 56
abbrev cc6_sem6_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x146 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x146 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x146 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x146 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S146x146 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x146 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x146 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x146 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x146 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x146 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x146 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x146 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x146 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x146 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x146 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x146 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x146 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S146x146 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x146 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x146 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x146 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x146 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x146 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x146 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x146 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x146 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x146 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x146 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x146 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  shapeCasts_S146_S1x146 : S146.ShapeCasts S1x146
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x146_S128x146_0_0 : ∀ a, (![0, 0] : Fin 2 → Nat) a + S128x146.size a ≤ S128x146.size a
  h_S128x146 : 0 < S128x146.numel
  inb_S1x146_S1x146_0_0 : ∀ a, (![0, 0] : Fin 2 → Nat) a + S1x146.size a ≤ S1x146.size a
  h_S1x146 : 0 < S1x146.numel
  shapeCasts_S1x146_S1x146 : S1x146.ShapeCasts S1x146
  broadcasts_S1x146_S5000x146 : S1x146.Broadcasts S5000x146
  inb_S5000x146_S5000x146_0_0 : ∀ a, (![0, 0] : Fin 2 → Nat) a + S5000x146.size a ≤ S5000x146.size a
  h_S5000x146 : 0 < S5000x146.numel
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  shapeCasts_S5000x146_S5000x146 : S5000x146.ShapeCasts S5000x146
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x146 : S5000x1.Broadcasts S5000x146
  inb_S146x146_S146x146_0_0 : ∀ a, (![0, 0] : Fin 2 → Nat) a + S146x146.size a ≤ S146x146.size a
  h_S146x146 : 0 < S146x146.numel
  bcast_S_S100000x146 : S_.BroadcastsInDim S100000x146 (![] : Fin 0 → Fin S100000x146.rank)
  reducesTo_S100000x146_S146_d0 : S100000x146.ReducesTo [0] S146
  h_S_ : 0 < S_.numel
  bcast_S_S146 : S_.BroadcastsInDim S146 (![] : Fin 0 → Fin S146.rank)
  bcast_S146_S1x146_1 : S146.BroadcastsInDim S1x146 (![1] : Fin 1 → Fin S1x146.rank)
  bcast_S_S1x146 : S_.BroadcastsInDim S1x146 (![] : Fin 0 → Fin S1x146.rank)
  bcast_S1x146_S100000x146_0_1 : S1x146.BroadcastsInDim S100000x146 (![0, 1] : Fin 2 → Fin S100000x146.rank)
  bcast_S_S1024 : S_.BroadcastsInDim S1024 (![] : Fin 0 → Fin S1024.rank)
  bcast_S_S1024x146 : S_.BroadcastsInDim S1024x146 (![] : Fin 0 → Fin S1024x146.rank)
  bcast_S1024_S1024x1_0 : S1024.BroadcastsInDim S1024x1 (![0] : Fin 1 → Fin S1024x1.rank)
  bcast_S1024x1_S1024x146_0_1 : S1024x1.BroadcastsInDim S1024x146 (![0, 1] : Fin 2 → Fin S1024x146.rank)
  dot_S5000x128_S128x146_S5000x146_1_0_0_1_n_n_wf : DotDims.WF S5000x128 S128x146 S5000x146 [1] [0] [0] [1] [] []
  scatter_S100000_S500000x1_S500000_n_0_0_1_wf : ScatterDims.WF S100000 S500000x1 S500000 [] [0] [0] 1
  dot_S5000x146_S146x146_S5000x146_1_0_0_1_n_n_wf : DotDims.WF S5000x146 S146x146 S5000x146 [1] [0] [0] [1] [] []
  gather_S100000x146_S500000x1_S500000x146_1_0_n_n_0_1_1146_wf : GatherDims.WF S100000x146 S500000x1 S500000x146 [1] [0] [] [0] [] 1 ![1, 146]
  scatter_S100000x146_S500000x1_S500000x146_1_0_0_1_wf : ScatterDims.WF S100000x146 S500000x1 S500000x146 [1] [0] [0] 1
  scatter_S1024_S100000x1_S100000_n_0_0_1_wf : ScatterDims.WF S1024 S100000x1 S100000 [] [0] [0] 1
  scatter_S1024x146_S100000x1_S100000x146_1_0_0_1_wf : ScatterDims.WF S1024x146 S100000x1 S100000x146 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x146.size a ≤ S128x146.size a
  hwx0_1 : ∀ i : grid0.Coords, EltTy.bits .f32 = 32 ∨ (Rect.block (s := S128x146) S128x146.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x146.size a ≤ S1x146.size a
  hwx0_2 : ∀ i : grid0.Coords, EltTy.bits .f32 = 32 ∨ (Rect.block (s := S1x146) S1x146.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x146.size a ≤ S100000x146.size a
  hwx0_3 : ∀ i : grid0.Coords, EltTy.bits .f32 = 32 ∨ (Rect.block (s := S100000x146) S5000x146.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x146.size a ≤ S100000x146.size a
  hwx1_0 : ∀ i : grid1.Coords, EltTy.bits .f32 = 32 ∨ (Rect.block (s := S100000x146) S5000x146.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S146x146.size a ≤ S146x146.size a
  hwx1_2 : ∀ i : grid1.Coords, EltTy.bits .f32 = 32 ∨ (Rect.block (s := S146x146) S146x146.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x146.size a ≤ S100000x146.size a
  hwx1_3 : ∀ i : grid1.Coords, EltTy.bits .f32 = 32 ∨ (Rect.block (s := S100000x146) S5000x146.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x146.size a ≤ S100000x146.size a
  hwx2_0 : ∀ i : grid2.Coords, EltTy.bits .f32 = 32 ∨ (Rect.block (s := S100000x146) S5000x146.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x146.size a ≤ S1x146.size a
  hwx2_2 : ∀ i : grid2.Coords, EltTy.bits .f32 = 32 ∨ (Rect.block (s := S1x146) S1x146.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x146.size a ≤ S100000x146.size a
  hwx2_4 : ∀ i : grid2.Coords, EltTy.bits .f32 = 32 ∨ (Rect.block (s := S100000x146) S5000x146.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x146.size a ≤ S100000x146.size a
  hwx3_0 : ∀ i : grid3.Coords, EltTy.bits .f32 = 32 ∨ (Rect.block (s := S100000x146) S5000x146.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x146.size a ≤ S1x146.size a
  hwx3_1 : ∀ i : grid3.Coords, EltTy.bits .f32 = 32 ∨ (Rect.block (s := S1x146) S1x146.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x146.size a ≤ S1x146.size a
  hwx3_2 : ∀ i : grid3.Coords, EltTy.bits .f32 = 32 ∨ (Rect.block (s := S1x146) S1x146.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x146.size a ≤ S1x146.size a
  hwx3_3 : ∀ i : grid3.Coords, EltTy.bits .f32 = 32 ∨ (Rect.block (s := S1x146) S1x146.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x146.size a ≤ S1x146.size a
  hwx3_4 : ∀ i : grid3.Coords, EltTy.bits .f32 = 32 ∨ (Rect.block (s := S1x146) S1x146.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x146.size a ≤ S100000x146.size a
  hwx3_5 : ∀ i : grid3.Coords, EltTy.bits .f32 = 32 ∨ (Rect.block (s := S100000x146) S5000x146.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x146.size a ≤ S100000x146.size a
  hwx3_6 : ∀ i : grid3.Coords, EltTy.bits .f32 = 32 ∨ (Rect.block (s := S100000x146) S5000x146.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x146.size a ≤ S100000x146.size a
  hwx4_0 : ∀ i : grid4.Coords, EltTy.bits .f32 = 32 ∨ (Rect.block (s := S100000x146) S5000x146.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S146x146.size a ≤ S146x146.size a
  hwx4_2 : ∀ i : grid4.Coords, EltTy.bits .f32 = 32 ∨ (Rect.block (s := S146x146) S146x146.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x146.size a ≤ S100000x146.size a
  hwx4_3 : ∀ i : grid4.Coords, EltTy.bits .f32 = 32 ∨ (Rect.block (s := S100000x146) S5000x146.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x146.size a ≤ S100000x146.size a
  hwx5_0 : ∀ i : grid5.Coords, EltTy.bits .f32 = 32 ∨ (Rect.block (s := S100000x146) S5000x146.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x146.size a ≤ S1x146.size a
  hwx5_2 : ∀ i : grid5.Coords, EltTy.bits .f32 = 32 ∨ (Rect.block (s := S1x146) S1x146.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x146.size a ≤ S100000x146.size a
  hwx5_4 : ∀ i : grid5.Coords, EltTy.bits .f32 = 32 ∨ (Rect.block (s := S100000x146) S5000x146.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x146.size a ≤ S100000x146.size a
  hwx6_0 : ∀ i : grid6.Coords, EltTy.bits .f32 = 32 ∨ (Rect.block (s := S100000x146) S5000x146.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x146.size a ≤ S1x146.size a
  hwx6_1 : ∀ i : grid6.Coords, EltTy.bits .f32 = 32 ∨ (Rect.block (s := S1x146) S1x146.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x146.size a ≤ S1x146.size a
  hwx6_2 : ∀ i : grid6.Coords, EltTy.bits .f32 = 32 ∨ (Rect.block (s := S1x146) S1x146.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x146.size a ≤ S1x146.size a
  hwx6_3 : ∀ i : grid6.Coords, EltTy.bits .f32 = 32 ∨ (Rect.block (s := S1x146) S1x146.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x146.size a ≤ S1x146.size a
  hwx6_4 : ∀ i : grid6.Coords, EltTy.bits .f32 = 32 ∨ (Rect.block (s := S1x146) S1x146.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x146.size a ≤ S100000x146.size a
  hwx6_5 : ∀ i : grid6.Coords, EltTy.bits .f32 = 32 ∨ (Rect.block (s := S100000x146) S5000x146.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x146.size a ≤ S100000x146.size a
  hwx6_6 : ∀ i : grid6.Coords, EltTy.bits .f32 = 32 ∨ (Rect.block (s := S100000x146) S5000x146.size (cc6_transform_6 i) (hinb6_6 i)).WholeWords (EltTy.packing .f32)

variable [Facts₀]

def dot_S5000x128_S128x146_S5000x146_1_0_0_1_n_n : DotDims S5000x128 S128x146 S5000x146 where
  lhsContracting := [1]
  rhsContracting := [0]
  lhsNonContracting := [0]
  rhsNonContracting := [1]
  lhsBatch := []
  rhsBatch := []
  wf := dot_S5000x128_S128x146_S5000x146_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x146_S146x146_S5000x146_1_0_0_1_n_n : DotDims S5000x146 S146x146 S5000x146 where
  lhsContracting := [1]
  rhsContracting := [0]
  lhsNonContracting := [0]
  rhsNonContracting := [1]
  lhsBatch := []
  rhsBatch := []
  wf := dot_S5000x146_S146x146_S5000x146_1_0_0_1_n_n_wf
def gather_S100000x146_S500000x1_S500000x146_1_0_n_n_0_1_1146 : GatherDims S100000x146 S500000x1 S500000x146 where
  offsetDims := [1]
  collapsedSliceDims := [0]
  operandBatchingDims := []
  startIndicesBatchingDims := []
  startIndexMap := [0]
  indexVectorDim := 1
  sliceSizes := ![1, 146]
  wf := gather_S100000x146_S500000x1_S500000x146_1_0_n_n_0_1_1146_wf
def scatter_S100000x146_S500000x1_S500000x146_1_0_0_1 : ScatterDims S100000x146 S500000x1 S500000x146 where
  updateWindowDims := [1]
  insertedWindowDims := [0]
  scatterDimsToOperandDims := [0]
  indexVectorDim := 1
  wf := scatter_S100000x146_S500000x1_S500000x146_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x146_S100000x1_S100000x146_1_0_0_1 : ScatterDims S1024x146 S100000x1 S100000x146 where
  updateWindowDims := [1]
  insertedWindowDims := [0]
  scatterDimsToOperandDims := [0]
  indexVectorDim := 1
  wf := scatter_S1024x146_S100000x1_S100000x146_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x146.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x146.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x146.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x146.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S146x146.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x146.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x146.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x146.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v31) S5000x146.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v31) S5000x146.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S1x146.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x146.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x146.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x146.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S5000x146.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v40) S5000x146.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40) S5000x146.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S146x146.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S5000x146.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S5000x146.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x146.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg1) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v70) S5000x146.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70) S5000x146.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S1x146.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S1x146.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v77) S1x146.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v78) S1x146.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v40) S5000x146.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v79) S5000x146.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S128x146 : Shape := ⟨2, ![128, 146]⟩
abbrev S146 : Shape := ⟨1, ![146]⟩
abbrev S146x146 : Shape := ⟨2, ![146, 146]⟩
abbrev S500000 : Shape := ⟨1, ![500000]⟩
abbrev S100000 : Shape := ⟨1, ![100000]⟩
abbrev S100000x146 : Shape := ⟨2, ![100000, 146]⟩
abbrev S1x146 : Shape := ⟨2, ![1, 146]⟩
abbrev S_ : Shape := ⟨0, ![]⟩
abbrev S500000x1 : Shape := ⟨2, ![500000, 1]⟩
abbrev S500000x146 : Shape := ⟨2, ![500000, 146]⟩
abbrev S1024 : Shape := ⟨1, ![1024]⟩
abbrev S1024x146 : Shape := ⟨2, ![1024, 146]⟩
abbrev S1024x1 : Shape := ⟨2, ![1024, 1]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S100000x1, .f32⟩
  | 2 => ⟨S128x146, .f32⟩
  | 3 => ⟨S146, .f32⟩
  | 4 => ⟨S146x146, .f32⟩
  | 5 => ⟨S146, .f32⟩
  | 6 => ⟨S146, .f32⟩
  | 7 => ⟨S146, .f32⟩
  | 8 => ⟨S146x146, .f32⟩
  | 9 => ⟨S146, .f32⟩
  | 10 => ⟨S146, .f32⟩
  | 11 => ⟨S146, .f32⟩
  | 12 => ⟨S500000, .i32⟩
  | 13 => ⟨S500000, .i32⟩
  | 14 => ⟨S100000, .i32⟩
  | 15 => ⟨S100000x146, .f32⟩
  | 16 => ⟨S1x146, .f32⟩
  | 17 => ⟨S100000x146, .f32⟩
  | 18 => ⟨S100000x146, .f32⟩
  | 19 => ⟨S_, .f32⟩
  | 20 => ⟨S500000, .f32⟩
  | 21 => ⟨S_, .f32⟩
  | 22 => ⟨S100000, .f32⟩
  | 23 => ⟨S500000x1, .i32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S500000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x146, .f32⟩
  | 40 => ⟨S100000x146, .f32⟩
  | 41 => ⟨S100000x146, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x146, .f32⟩
  | 51 => ⟨S_, .f32⟩
  | 52 => ⟨S100000x146, .f32⟩
  | 53 => ⟨S500000x1, .i32⟩
  | 54 => ⟨S100000x146, .f32⟩
  | 55 => ⟨S_, .f32⟩
  | 56 => ⟨S100000, .f32⟩
  | 57 => ⟨S100000, .f32⟩
  | 58 => ⟨S100000x1, .f32⟩
  | 59 => ⟨S100000x146, .f32⟩
  | 60 => ⟨S100000x146, .f32⟩
  | 61 => ⟨S1x146, .f32⟩
  | 62 => ⟨S100000x146, .f32⟩
  | 63 => ⟨S100000x146, .f32⟩
  | 64 => ⟨S100000x146, .f32⟩
  | 65 => ⟨S100000x146, .f32⟩
  | 66 => ⟨S_, .f32⟩
  | 67 => ⟨S146, .f32⟩
  | 68 => ⟨S_, .f32⟩
  | 69 => ⟨S146, .f32⟩
  | 70 => ⟨S146, .f32⟩
  | 71 => ⟨S_, .i32⟩
  | 72 => ⟨S_, .f32⟩
  | 73 => ⟨S146, .f32⟩
  | 74 => ⟨S1x146, .f32⟩
  | 75 => ⟨S_, .f32⟩
  | 76 => ⟨S1x146, .f32⟩
  | 77 => ⟨S1x146, .f32⟩
  | 78 => ⟨S100000x146, .f32⟩
  | 79 => ⟨S100000x146, .f32⟩
  | 80 => ⟨S100000x146, .f32⟩
  | 81 => ⟨S_, .f32⟩
  | 82 => ⟨S_, .f32⟩
  | 83 => ⟨S_, .f32⟩
  | 84 => ⟨S_, .f32⟩
  | 85 => ⟨S146, .f32⟩
  | 86 => ⟨S146, .f32⟩
  | 87 => ⟨S146, .f32⟩
  | 88 => ⟨S_, .f32⟩
  | 89 => ⟨S_, .i1⟩
  | 90 => ⟨S_, .f32⟩
  | 91 => ⟨S_, .f32⟩
  | 92 => ⟨S146, .f32⟩
  | 93 => ⟨S146, .f32⟩
  | 94 => ⟨S1x146, .f32⟩
  | 95 => ⟨S100000x146, .f32⟩
  | 96 => ⟨S100000x146, .f32⟩
  | 97 => ⟨S_, .f32⟩
  | 98 => ⟨S146, .f32⟩
  | 99 => ⟨S146, .f32⟩
  | 100 => ⟨S146, .f32⟩
  | 101 => ⟨S1x146, .f32⟩
  | 102 => ⟨S100000x146, .f32⟩
  | 103 => ⟨S100000x146, .f32⟩
  | 104 => ⟨S1x146, .f32⟩
  | 105 => ⟨S100000x146, .f32⟩
  | 106 => ⟨S100000x146, .f32⟩
  | 107 => ⟨S1x146, .f32⟩
  | 108 => ⟨S100000x146, .f32⟩
  | 109 => ⟨S100000x146, .f32⟩
  | 110 => ⟨S_, .f32⟩
  | 111 => ⟨S100000x146, .f32⟩
  | 112 => ⟨S100000x146, .f32⟩
  | 113 => ⟨S100000x146, .f32⟩
  | 114 => ⟨S_, .f32⟩
  | 115 => ⟨S500000, .f32⟩
  | 116 => ⟨S_, .f32⟩
  | 117 => ⟨S100000, .f32⟩
  | 118 => ⟨S500000x1, .i32⟩
  | 119 => ⟨S100000, .f32⟩
  | 120 => ⟨S_, .f32⟩
  | 121 => ⟨S100000, .f32⟩
  | 122 => ⟨S100000, .f32⟩
  | 123 => ⟨S_, .f32⟩
  | 124 => ⟨S100000, .f32⟩
  | 125 => ⟨S500000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x146, .f32⟩
  | 7 => ⟨S100000x146, .f32⟩
  | 8 => ⟨S100000x146, .f32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x146, .f32⟩
  | 18 => ⟨S_, .f32⟩
  | 19 => ⟨S100000x146, .f32⟩
  | 20 => ⟨S500000x1, .i32⟩
  | 21 => ⟨S100000x146, .f32⟩
  | 22 => ⟨S_, .f32⟩
  | 23 => ⟨S100000, .f32⟩
  | 24 => ⟨S100000, .f32⟩
  | 25 => ⟨S100000x1, .f32⟩
  | 26 => ⟨S100000x146, .f32⟩
  | 27 => ⟨S100000x146, .f32⟩
  | 28 => ⟨S1x146, .f32⟩
  | 29 => ⟨S100000x146, .f32⟩
  | 30 => ⟨S100000x146, .f32⟩
  | 31 => ⟨S100000x146, .f32⟩
  | 32 => ⟨S100000x146, .f32⟩
  | 33 => ⟨S_, .f32⟩
  | 34 => ⟨S146, .f32⟩
  | 35 => ⟨S_, .f32⟩
  | 36 => ⟨S146, .f32⟩
  | 37 => ⟨S146, .f32⟩
  | 38 => ⟨S_, .i32⟩
  | 39 => ⟨S_, .f32⟩
  | 40 => ⟨S146, .f32⟩
  | 41 => ⟨S1x146, .f32⟩
  | 42 => ⟨S_, .f32⟩
  | 43 => ⟨S1x146, .f32⟩
  | 44 => ⟨S1x146, .f32⟩
  | 45 => ⟨S100000x146, .f32⟩
  | 46 => ⟨S100000x146, .f32⟩
  | 47 => ⟨S100000x146, .f32⟩
  | 48 => ⟨S_, .f32⟩
  | 49 => ⟨S_, .f32⟩
  | 50 => ⟨S_, .f32⟩
  | 51 => ⟨S_, .f32⟩
  | 52 => ⟨S146, .f32⟩
  | 53 => ⟨S146, .f32⟩
  | 54 => ⟨S146, .f32⟩
  | 55 => ⟨S_, .f32⟩
  | 56 => ⟨S_, .i1⟩
  | 57 => ⟨S_, .f32⟩
  | 58 => ⟨S_, .f32⟩
  | 59 => ⟨S146, .f32⟩
  | 60 => ⟨S146, .f32⟩
  | 61 => ⟨S1x146, .f32⟩
  | 62 => ⟨S100000x146, .f32⟩
  | 63 => ⟨S100000x146, .f32⟩
  | 64 => ⟨S_, .f32⟩
  | 65 => ⟨S146, .f32⟩
  | 66 => ⟨S146, .f32⟩
  | 67 => ⟨S146, .f32⟩
  | 68 => ⟨S1x146, .f32⟩
  | 69 => ⟨S100000x146, .f32⟩
  | 70 => ⟨S100000x146, .f32⟩
  | 71 => ⟨S1x146, .f32⟩
  | 72 => ⟨S100000x146, .f32⟩
  | 73 => ⟨S100000x146, .f32⟩
  | 74 => ⟨S1x146, .f32⟩
  | 75 => ⟨S100000x146, .f32⟩
  | 76 => ⟨S100000x146, .f32⟩
  | 77 => ⟨S_, .f32⟩
  | 78 => ⟨S100000x146, .f32⟩
  | 79 => ⟨S100000x146, .f32⟩
  | 80 => ⟨S100000x146, .f32⟩
  | 81 => ⟨S_, .f32⟩
  | 82 => ⟨S100000, .f32⟩
  | 83 => ⟨S_, .f32⟩
  | 84 => ⟨S1024, .f32⟩
  | 85 => ⟨S100000x1, .i32⟩
  | 86 => ⟨S1024, .f32⟩
  | 87 => ⟨S_, .f32⟩
  | 88 => ⟨S1024, .f32⟩
  | 89 => ⟨S1024, .f32⟩
  | 90 => ⟨S_, .f32⟩
  | 91 => ⟨S1024x146, .f32⟩
  | 92 => ⟨S100000x1, .i32⟩
  | 93 => ⟨S1024x146, .f32⟩
  | 94 => ⟨S1024x1, .f32⟩
  | 95 => ⟨S1024x146, .f32⟩
  | 96 => ⟨S1024x146, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_11 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_call1_cst : Ref sig .tc := ⟨.hbm, 110, rfl⟩
abbrev main_call1_v0 : Ref sig .tc := ⟨.hbm, 111, rfl⟩
abbrev main_v60 : Ref sig .tc := ⟨.hbm, 112, rfl⟩
abbrev main_v61 : Ref sig .tc := ⟨.hbm, 113, rfl⟩
abbrev main_cst_12 : Ref sig .tc := ⟨.hbm, 114, rfl⟩
abbrev main_v62 : Ref sig .tc := ⟨.hbm, 115, rfl⟩
abbrev main_cst_13 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_14 : Ref sig .tc := ⟨.hbm, 120, rfl⟩
abbrev main_v66 : Ref sig .tc := ⟨.hbm, 121, rfl⟩
abbrev main_v67 : Ref sig .tc := ⟨.hbm, 122, rfl⟩
abbrev main_cst_15 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_16 : Ref sig .tc := ⟨.hbm, 127, rfl⟩
abbrev main_v71 : Ref sig .tc := ⟨.hbm, 128, rfl⟩
abbrev main_v72 : Ref sig .tc := ⟨.hbm, 129, rfl⟩
abbrev main_cst_17 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_18 : Ref sig .tc := ⟨.hbm, 137, rfl⟩
abbrev main_v79 : Ref sig .tc := ⟨.hbm, 138, rfl⟩
abbrev main_v80 : Ref sig .tc := ⟨.hbm, 139, rfl⟩
abbrev main_c_19 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_20 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_21 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_22 : Ref sig .tc := ⟨.hbm, 161, rfl⟩
abbrev main_v99 : Ref sig .tc := ⟨.hbm, 162, rfl⟩
abbrev main_cst_23 : Ref sig .tc := ⟨.hbm, 163, rfl⟩
abbrev main_v100 : Ref sig .tc := ⟨.hbm, 164, rfl⟩
abbrev main_v101 : Ref sig .tc := ⟨.hbm, 165, rfl⟩
abbrev main_c_24 : Ref sig .tc := ⟨.hbm, 166, rfl⟩
abbrev main_call2_cst : Ref sig .tc := ⟨.hbm, 167, rfl⟩
abbrev main_call2_v0 : Ref sig .tc := ⟨.hbm, 168, rfl⟩
abbrev main_call2_v1 : Ref sig .tc := ⟨.hbm, 169, rfl⟩
abbrev main_call2_cst_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_v5 : Ref sig .tc := ⟨.hbm, 174, rfl⟩
abbrev main_call2_v6 : Ref sig .tc := ⟨.hbm, 175, rfl⟩
abbrev main_call2_v7 : Ref sig .tc := ⟨.hbm, 176, rfl⟩
abbrev main_call2_cst_1 : Ref sig .tc := ⟨.hbm, 177, rfl⟩
abbrev main_call2_v8 : Ref sig .tc := ⟨.hbm, 178, rfl⟩
abbrev main_call2_cst_2 : Ref sig .tc := ⟨.hbm, 179, rfl⟩
abbrev main_call2_v9 : Ref sig .tc := ⟨.hbm, 180, rfl⟩
abbrev main_call2_v10 : Ref sig .tc := ⟨.hbm, 181, rfl⟩
abbrev main_call2_v11 : Ref sig .tc := ⟨.hbm, 182, rfl⟩
abbrev main_call2_cst_3 : Ref sig .tc := ⟨.hbm, 183, rfl⟩
abbrev main_call2_v12 : Ref sig .tc := ⟨.hbm, 184, rfl⟩
abbrev main_call2_cst_4 : Ref sig .tc := ⟨.hbm, 185, rfl⟩
abbrev main_call2_call0_v0 : Ref sig .tc := ⟨.hbm, 186, rfl⟩
abbrev main_call2_call0_v1 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_25 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_call3_cst : Ref sig .tc := ⟨.hbm, 205, rfl⟩
abbrev main_call3_v0 : Ref sig .tc := ⟨.hbm, 206, rfl⟩
abbrev main_v118 : Ref sig .tc := ⟨.hbm, 207, rfl⟩
abbrev main_v119 : Ref sig .tc := ⟨.hbm, 208, rfl⟩
abbrev main_cst_26 : Ref sig .tc := ⟨.hbm, 209, rfl⟩
abbrev main_v120 : Ref sig .tc := ⟨.hbm, 210, rfl⟩
abbrev main_cst_27 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_cst_28 : Ref sig .tc := ⟨.hbm, 215, rfl⟩
abbrev main_v124 : Ref sig .tc := ⟨.hbm, 216, rfl⟩
abbrev main_v125 : Ref sig .tc := ⟨.hbm, 217, rfl⟩
abbrev main_cst_29 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩

abbrev nD : Nat := 1
abbrev τ : Topo := Topo.v7x

variable {F : FTy → Type} [FloatOps F]

class Facts₀ : Prop where
  bcast_S146_S1x146_1 : S146.BroadcastsInDim S1x146 (![1] : Fin 1 → Fin S1x146.rank)
  bcast_S1x146_S100000x146_0_1 : S1x146.BroadcastsInDim S100000x146 (![0, 1] : Fin 2 → Fin S100000x146.rank)
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S100000_S100000x1_0 : S100000.BroadcastsInDim S100000x1 (![0] : Fin 1 → Fin S100000x1.rank)
  bcast_S100000x1_S100000x146_0_1 : S100000x1.BroadcastsInDim S100000x146 (![0, 1] : Fin 2 → Fin S100000x146.rank)
  bcast_S_S100000x146 : S_.BroadcastsInDim S100000x146 (![] : Fin 0 → Fin S100000x146.rank)
  reducesTo_S100000x146_S146_d0 : S100000x146.ReducesTo [0] S146
  h_S_ : 0 < S_.numel
  bcast_S_S146 : S_.BroadcastsInDim S146 (![] : Fin 0 → Fin S146.rank)
  bcast_S_S1x146 : S_.BroadcastsInDim S1x146 (![] : Fin 0 → Fin S1x146.rank)
  bcast_S_S1024 : S_.BroadcastsInDim S1024 (![] : Fin 0 → Fin S1024.rank)
  bcast_S_S1024x146 : S_.BroadcastsInDim S1024x146 (![] : Fin 0 → Fin S1024x146.rank)
  bcast_S1024_S1024x1_0 : S1024.BroadcastsInDim S1024x1 (![0] : Fin 1 → Fin S1024x1.rank)
  bcast_S1024x1_S1024x146_0_1 : S1024x1.BroadcastsInDim S1024x146 (![0, 1] : Fin 2 → Fin S1024x146.rank)
  dot_S100000x128_S128x146_S100000x146_1_0_0_1_n_n_wf : DotDims.WF S100000x128 S128x146 S100000x146 [1] [0] [0] [1] [] []
  scatter_S100000_S500000x1_S500000_n_0_0_1_wf : ScatterDims.WF S100000 S500000x1 S500000 [] [0] [0] 1
  dot_S100000x146_S146x146_S100000x146_1_0_0_1_n_n_wf : DotDims.WF S100000x146 S146x146 S100000x146 [1] [0] [0] [1] [] []
  gather_S100000x146_S500000x1_S500000x146_1_0_n_n_0_1_1146_wf : GatherDims.WF S100000x146 S500000x1 S500000x146 [1] [0] [] [0] [] 1 ![1, 146]
  scatter_S100000x146_S500000x1_S500000x146_1_0_0_1_wf : ScatterDims.WF S100000x146 S500000x1 S500000x146 [1] [0] [0] 1
  scatter_S1024_S100000x1_S100000_n_0_0_1_wf : ScatterDims.WF S1024 S100000x1 S100000 [] [0] [0] 1
  scatter_S1024x146_S100000x1_S100000x146_1_0_0_1_wf : ScatterDims.WF S1024x146 S100000x1 S100000x146 [1] [0] [0] 1

variable [Facts₀]

def dot_S100000x128_S128x146_S100000x146_1_0_0_1_n_n : DotDims S100000x128 S128x146 S100000x146 where
  lhsContracting := [1]
  rhsContracting := [0]
  lhsNonContracting := [0]
  rhsNonContracting := [1]
  lhsBatch := []
  rhsBatch := []
  wf := dot_S100000x128_S128x146_S100000x146_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x146_S146x146_S100000x146_1_0_0_1_n_n : DotDims S100000x146 S146x146 S100000x146 where
  lhsContracting := [1]
  rhsContracting := [0]
  lhsNonContracting := [0]
  rhsNonContracting := [1]
  lhsBatch := []
  rhsBatch := []
  wf := dot_S100000x146_S146x146_S100000x146_1_0_0_1_n_n_wf
def gather_S100000x146_S500000x1_S500000x146_1_0_n_n_0_1_1146 : GatherDims S100000x146 S500000x1 S500000x146 where
  offsetDims := [1]
  collapsedSliceDims := [0]
  operandBatchingDims := []
  startIndicesBatchingDims := []
  startIndexMap := [0]
  indexVectorDim := 1
  sliceSizes := ![1, 146]
  wf := gather_S100000x146_S500000x1_S500000x146_1_0_n_n_0_1_1146_wf
def scatter_S100000x146_S500000x1_S500000x146_1_0_0_1 : ScatterDims S100000x146 S500000x1 S500000x146 where
  updateWindowDims := [1]
  insertedWindowDims := [0]
  scatterDimsToOperandDims := [0]
  indexVectorDim := 1
  wf := scatter_S100000x146_S500000x1_S500000x146_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x146_S100000x1_S100000x146_1_0_0_1 : ScatterDims S1024x146 S100000x1 S100000x146 where
  updateWindowDims := [1]
  insertedWindowDims := [0]
  scatterDimsToOperandDims := [0]
  indexVectorDim := 1
  wf := scatter_S1024x146_S100000x1_S100000x146_1_0_0_1_wf

class Facts : Prop extends Facts₀ where

variable [Facts]
-- ==== Proof.Spec.lean ====
/-
  What both programs compute, as one function of the fifteen arguments, spelt with whole-array operations.

  A graph of N = 100000 nodes and E = 500000 directed edges (src → dst), node features h : [N, 146].

  * embedding: h₀ = x · W_emb + b_emb.
  * a graph-convolution layer, from h:
      d_out(v) = max(#{e : src e = v}, 1), d_in(v) = max(#{e : dst e = v}, 1), counted by adding a one per edge;
      m = (h scaled row-wise by d_out^(-1/2)) · W;
      a(v) = the sum over edges e with dst e = v of m(src e)   (a gather of rows, then an accumulating scatter);
      p = (a scaled row-wise by d_in^(-1/2) + b) scaled row-wise by the per-node factor snorm;
      μ = the column means of p, σ² = the column variances of p (mean of squared deviations from the column mean);
      h' = h + max((p − μ) · (σ² + ε)^(-1/2) · γ + β, 0).
  * pooling: for each of 1024 graphs, the sum of the rows of its nodes divided by max(number of its nodes, 1).

  Every definition below is an operation-by-operation transcription; nothing is rearranged.
-/
import proofs.«124989_j83073257439657_1_alg».proof.ReferenceIdeal
import Idealize.ShloMosaic.PureOps.Ideal

noncomputable section

namespace Cert.Gnn

open Idealize.ShloMosaic Cert.ReferenceIdeal Cert.ReferenceIdeal.Facts₀

variable [Cert.ReferenceIdeal.Facts]

/-- Edge-indexed integer arrays (src, dst). -/
abbrev EdgeIdx : Type := (⟨S500000, .i32⟩ : BufTy).Contents (Elt Ideal)
/-- Node-indexed integer arrays (the graph of each node). -/
abbrev NodeIdx : Type := (⟨S100000, .i32⟩ : BufTy).Contents (Elt Ideal)

/-- A vector of N numbers as a column [N, 1]. -/
abbrev col (v : FVec Ideal S100000 .f32) : FVec Ideal S100000x1 .f32 :=
  broadcastInDim S100000x1 ![0] bcast_S100000_S100000x1_0 v
/-- A column [N, 1] repeated along the 146 features. -/
abbrev rows (c : FVec Ideal S100000x1 .f32) : FVec Ideal S100000x146 .f32 :=
  broadcastInDim S100000x146 ![0, 1] bcast_S100000x1_S100000x146_0_1 c
/-- A vector of 146 numbers as a row [1, 146]. -/
abbrev row (v : FVec Ideal S146 .f32) : FVec Ideal S1x146 .f32 :=
  broadcastInDim S1x146 ![1] bcast_S146_S1x146_1 v
/-- A row [1, 146] repeated for every node. -/
abbrev down (r : FVec Ideal S1x146 .f32) : FVec Ideal S100000x146 .f32 :=
  broadcastInDim S100000x146 ![0, 1] bcast_S1x146_S100000x146_0_1 r

/-- The embedding x · W + b. -/
def embed (x : FVec Ideal S100000x128 .f32) (w : FVec Ideal S128x146 .f32) (b : FVec Ideal S146 .f32) :
    FVec Ideal S100000x146 .f32 :=
  addf (Host.dotGeneral (F := Ideal) dot_S100000x128_S128x146_S100000x146_1_0_0_1_n_n none x w) (down (row b))

/-- One per edge. -/
def onesE : FVec Ideal S500000 .f32 :=
  broadcastInDim S500000 ![] bcast_S_S500000 (constant (F := Ideal) S_ .f32 0x3F800000#32)

/-- The number of edges whose endpoint idx is each node, at least one. -/
def deg (idx : EdgeIdx) : FVec Ideal S100000 .f32 :=
  maximumf
    (Host.scatterAdd (F := Ideal) scatter_S100000_S500000x1_S500000_n_0_0_1
      (broadcastInDim S100000 ![] bcast_S_S100000 (constant (F := Ideal) S_ .f32 0x00000000#32))
      (broadcastInDim S500000x1 ![0] bcast_S500000_S500000x1_0 idx) onesE)
    (broadcastInDim S100000 ![] bcast_S_S100000 (constant (F := Ideal) S_ .f32 0x3F800000#32))

/-- A clamped degree to the power -1/2. -/
def invSqrt (d : FVec Ideal S100000 .f32) : FVec Ideal S100000 .f32 :=
  Host.powf (F := Ideal) d (broadcastInDim S100000 ![] bcast_S_S100000 (constant (F := Ideal) S_ .f32 0xBF000000#32))

/-- The features scaled row-wise by s, times W. -/
def lin (h : FVec Ideal S100000x146 .f32) (s : FVec Ideal S100000 .f32) (w : FVec Ideal S146x146 .f32) :
    FVec Ideal S100000x146 .f32 :=
  Host.dotGeneral (F := Ideal) dot_S100000x146_S146x146_S100000x146_1_0_0_1_n_n none (mulf h (rows (col s))) w

/-- Source positions with negative values counted from the end. -/
def wrap (src : EdgeIdx) : EdgeIdx :=
  select (cmpi .slt src (broadcastInDim S500000 ![] bcast_S_S500000 (constantI S_ 32 0#32)))
    (addi src (broadcastInDim S500000 ![] bcast_S_S500000 (constantI S_ 32 100000#32))) src

/-- For each node, the sum of the messages of the edges that end there. -/
def aggregate (mm : FVec Ideal S100000x146 .f32) (src dst : EdgeIdx) : FVec Ideal S100000x146 .f32 :=
  Host.scatterAdd (F := Ideal) scatter_S100000x146_S500000x1_S500000x146_1_0_0_1
    (broadcastInDim S100000x146 ![] bcast_S_S100000x146 (constant (F := Ideal) S_ .f32 0x00000000#32))
    (broadcastInDim S500000x1 ![0] bcast_S500000_S500000x1_0 dst)
    (Host.gather gather_S100000x146_S500000x1_S500000x146_1_0_n_n_0_1_1146 mm
      (broadcastInDim S500000x1 ![0] bcast_S500000_S500000x1_0 (wrap src)))

/-- The aggregate scaled row-wise by s, plus the bias, scaled row-wise by the per-node factor. -/
def pre (a : FVec Ideal S100000x146 .f32) (s : FVec Ideal S100000 .f32) (b : FVec Ideal S146 .f32)
    (sn : FVec Ideal S100000x1 .f32) : FVec Ideal S100000x146 .f32 :=
  mulf (addf (mulf a (rows (col s))) (down (row b))) (rows sn)

/-- The column sums. -/
abbrev colSum (hp : FVec Ideal S100000x146 .f32) : FVec Ideal S146 .f32 :=
  Host.reduceAdd (F := Ideal) hp (constant (F := Ideal) S_ .f32 0x00000000#32) reducesTo_S100000x146_S146_d0 h_S_

/-- The column means: column sums over 100000. -/
def mean (hp : FVec Ideal S100000x146 .f32) : FVec Ideal S146 .f32 :=
  Host.divf (F := Ideal) (colSum hp) (broadcastInDim S146 ![] bcast_S_S146 (constant (F := Ideal) S_ .f32 0x47C35000#32))

/-- The number of rows less the (zero) degrees of freedom, as a float. -/
abbrev nMinusDdof : FVec Ideal S_ .f32 :=
  subf (constant (F := Ideal) S_ .f32 0x47C35000#32) (sitofp .f32 (constantI S_ 32 0#32))

/-- The column variances: the mean of the squared deviations from the column mean, selected against a
    not-a-number constant where the divisor is not positive. -/
def variance (hp : FVec Ideal S100000x146 .f32) : FVec Ideal S146 .f32 :=
  select (broadcastInDim S146 ![] bcast_S_S146
      (cmpf .ogt nMinusDdof (constant (F := Ideal) S_ .f32 0x00000000#32)))
    (Host.divf (F := Ideal)
      (colSum (mulf
        (subf hp (down (Host.divf (F := Ideal) (row (colSum hp))
          (broadcastInDim S1x146 ![] bcast_S_S1x146 (constant (F := Ideal) S_ .f32 0x47C35000#32)))))
        (subf hp (down (Host.divf (F := Ideal) (row (colSum hp))
          (broadcastInDim S1x146 ![] bcast_S_S1x146 (constant (F := Ideal) S_ .f32 0x47C35000#32)))))))
      (broadcastInDim S146 ![] bcast_S_S146 nMinusDdof))
    (broadcastInDim S146 ![] bcast_S_S146 (id (constant (F := Ideal) S_ .f32 0x7FC00000#32)))

/-- Normalise with the given statistics, scale and shift, clamp at zero, add the layer's input. -/
def bn (hp : FVec Ideal S100000x146 .f32) (mu var g be : FVec Ideal S146 .f32) (hin : FVec Ideal S100000x146 .f32) :
    FVec Ideal S100000x146 .f32 :=
  addf hin
    (maximumf
      (addf
        (mulf
          (mulf (subf hp (down (row mu)))
            (down (row (Host.rsqrt (F := Ideal)
              (addf var (broadcastInDim S146 ![] bcast_S_S146 (constant (F := Ideal) S_ .f32 0x3727C5AC#32)))))))
          (down (row g)))
        (down (row be)))
      (broadcastInDim S100000x146 ![] bcast_S_S100000x146 (constant (F := Ideal) S_ .f32 0x00000000#32)))

/-- The pre-normalisation activations of a layer. -/
def preAct (h : FVec Ideal S100000x146 .f32) (src dst : EdgeIdx) (sn : FVec Ideal S100000x1 .f32)
    (w : FVec Ideal S146x146 .f32) (b : FVec Ideal S146 .f32) : FVec Ideal S100000x146 .f32 :=
  pre (aggregate (lin h (invSqrt (deg src)) w) src dst) (invSqrt (deg dst)) b sn

/-- One graph-convolution layer. -/
def layer (h : FVec Ideal S100000x146 .f32) (src dst : EdgeIdx) (sn : FVec Ideal S100000x1 .f32)
    (w : FVec Ideal S146x146 .f32) (b g be : FVec Ideal S146 .f32) : FVec Ideal S100000x146 .f32 :=
  bn (preAct h src dst sn w b) (mean (preAct h src dst sn w b)) (variance (preAct h src dst sn w b)) g be h

/-- The number of nodes of each graph, at least one. -/
def graphSize (gid : NodeIdx) : FVec Ideal S1024 .f32 :=
  maximumf
    (Host.scatterAdd (F := Ideal) scatter_S1024_S100000x1_S100000_n_0_0_1
      (broadcastInDim S1024 ![] bcast_S_S1024 (constant (F := Ideal) S_ .f32 0x00000000#32))
      (broadcastInDim S100000x1 ![0] bcast_S100000_S100000x1_0 gid)
      (broadcastInDim S100000 ![] bcast_S_S100000 (constant (F := Ideal) S_ .f32 0x3F800000#32)))
    (broadcastInDim S1024 ![] bcast_S_S1024 (constant (F := Ideal) S_ .f32 0x3F800000#32))

/-- Mean pooling per graph. -/
def pool (h : FVec Ideal S100000x146 .f32) (gid : NodeIdx) : FVec Ideal S1024x146 .f32 :=
  Host.divf (F := Ideal)
    (Host.scatterAdd (F := Ideal) scatter_S1024x146_S100000x1_S100000x146_1_0_0_1
      (broadcastInDim S1024x146 ![] bcast_S_S1024x146 (constant (F := Ideal) S_ .f32 0x00000000#32))
      (broadcastInDim S100000x1 ![0] bcast_S100000_S100000x1_0 gid) h)
    (broadcastInDim S1024x146 ![0, 1] bcast_S1024x1_S1024x146_0_1
      (broadcastInDim S1024x1 ![0] bcast_S1024_S1024x1_0 (graphSize gid)))

/-- The whole network. -/
def result (a0 : FVec Ideal S100000x128 .f32) (a1 : FVec Ideal S100000x1 .f32) (a2 : FVec Ideal S128x146 .f32)
    (a3 : FVec Ideal S146 .f32) (a4 : FVec Ideal S146x146 .f32) (a5 a6 a7 : FVec Ideal S146 .f32)
    (a8 : FVec Ideal S146x146 .f32) (a9 a10 a11 : FVec Ideal S146 .f32) (a12 a13 : EdgeIdx) (a14 : NodeIdx) :
    FVec Ideal S1024x146 .f32 :=
  pool (layer (layer (embed a0 a2 a3) a12 a13 a1 a4 a5 a6 a7) a12 a13 a1 a8 a9 a10 a11) a14

end Cert.Gnn

end
-- ==== Proof.KForms.lean ====
/-
  The four dense steps of a graph-convolution layer over N = 100000 nodes with 146 features, written entry by entry
  on whole arrays.  Row p of a node array is node p; a column [N, 1] holds one number per node; a row [1, 146]
  holds one number per feature.

  * embedding:   entry (p, q) is the sum over k of x(p, k) · w(k, q), plus the bias b(0, q);
  * projection:  entry (p, q) is the sum over k of (h(p, k) · s(p, 0)) · w(k, q) — each node's features scaled by
                 the node's own factor before the product;
  * pre-norm:    entry (p, q) is (a(p, q) · s(p, 0) + b(0, q)) · n(p, 0);
  * normalise:   entry (p, q) is hin(p, q) + max((hp(p, q) − mu(0, q)) · (var(0, q) + ε)^(-1/2) · g(0, q) + be(0, q), 0),
                 with ε the single-precision number nearest 1e-5.

  None of the four reads an entry of another row of a node array: a block of rows of the result depends only on
  the same rows of the node operands.
-/
import Idealize.ShloMosaic.Lib.ValueIdx
import Idealize.ShloMosaic.PureOps.Ideal

noncomputable section

namespace Cert.Gnn.K

open Idealize.ShloMosaic Idealize.ShloMosaic.ValueIdx

/-- The embedding: x · w plus the bias row. -/
def embedK (x : FVec Ideal ⟨2, ![100000, 128]⟩ .f32) (w : FVec Ideal ⟨2, ![128, 146]⟩ .f32)
    (b : FVec Ideal ⟨2, ![1, 146]⟩ .f32) : FVec Ideal ⟨2, ![100000, 146]⟩ .f32 :=
  fun i => (∑ k : Fin 128, x (ix2 (i 0) k) * w (ix2 k (i 1))) + b (ix2 (0 : Fin 1) (i 1))

/-- The projection of the row-scaled features: (h scaled by the column s) · w. -/
def linK (h : FVec Ideal ⟨2, ![100000, 146]⟩ .f32) (s : FVec Ideal ⟨2, ![100000, 1]⟩ .f32)
    (w : FVec Ideal ⟨2, ![146, 146]⟩ .f32) : FVec Ideal ⟨2, ![100000, 146]⟩ .f32 :=
  fun i => ∑ k : Fin 146, (h (ix2 (i 0) k) * s (ix2 (i 0) (0 : Fin 1))) * w (ix2 k (i 1))

/-- The aggregated messages scaled by the column s, plus the bias row, scaled by the column n. -/
def preK (a : FVec Ideal ⟨2, ![100000, 146]⟩ .f32) (s : FVec Ideal ⟨2, ![100000, 1]⟩ .f32)
    (b : FVec Ideal ⟨2, ![1, 146]⟩ .f32) (n : FVec Ideal ⟨2, ![100000, 1]⟩ .f32) : FVec Ideal ⟨2, ![100000, 146]⟩ .f32 :=
  fun i => (a i * s (ix2 (i 0) (0 : Fin 1)) + b (ix2 (0 : Fin 1) (i 1))) * n (ix2 (i 0) (0 : Fin 1))

/-- Batch normalisation with given statistics, the clamp at zero, and the residual. -/
def bnK (hp : FVec Ideal ⟨2, ![100000, 146]⟩ .f32) (mu var g be : FVec Ideal ⟨2, ![1, 146]⟩ .f32)
    (hin : FVec Ideal ⟨2, ![100000, 146]⟩ .f32) : FVec Ideal ⟨2, ![100000, 146]⟩ .f32 :=
  fun i => hin i + max ((hp i - mu (ix2 (0 : Fin 1) (i 1)))
      * Ideal.rsqrt (var (ix2 (0 : Fin 1) (i 1)) + Ideal.ofBits .f32 0x3727C5AC#32) * g (ix2 (0 : Fin 1) (i 1))
      + be (ix2 (0 : Fin 1) (i 1))) (Ideal.ofBits .f32 0x00000000#32)

end Cert.Gnn.K

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Bridge.lean ====
/-
  The four dense steps written entry by entry are the same arrays as their whole-array host spellings.

  A kernel receives a vector of 146 numbers as a one-row matrix (a shape cast of the vector) and a per-node factor as a
  column; the host broadcasts the vector along axis 1 to a row and the row to every node, and the column along the
  features.  Entry (p, q) of either spelling reads entry q of the vector and row p of the column, so:

  * x · W plus the bias row is the host's dot_general plus the broadcast bias;
  * (h scaled by a column) · W is the host's dot_general of the product of h with the broadcast column;
  * (a · column + bias row) · column is the host's products and sum with the broadcasts;
  * the normalisation with statistics given as one-row matrices is the host's, where the reciprocal square root of
    (variance + ε) is taken on the vector before it is broadcast — the same number at every entry of a column.

  Both matrix products are plain sums over the contracted index at these exact values.  No entry is required to be finite.
-/
import proofs.«124989_j83073257439657_1_alg».proof.Proof.Spec
import proofs.«124989_j83073257439657_1_alg».proof.Proof.KForms
import proofs.«124989_j83073257439657_1_alg».proof.Proof.LibMatmulIx
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.Gnn

open Idealize.ShloMosaic Idealize.ShloMosaic.ValueIdx Cert.ReferenceIdeal Cert.ReferenceIdeal.Facts₀

variable [Cert.ReferenceIdeal.Facts]

/-! ## Broadcasts read at an entry -/

/-- A vector broadcast to a row and the row to every node reads, at (p, q), the vector's entry q. -/
theorem down_row_apply (v : FVec Ideal S146 .f32) (p : Fin 100000) (q : Fin 146) : down (row v) (ix2 p q) = v (ix1 q) := by
  refine (broadcastInDim_oneRow_apply bcast_S1x146_S100000x146_0_1 (row v) p q).trans ?_
  refine broadcastInDim_apply ![1] bcast_S146_S1x146_1 v (ix2 (0 : Fin 1) q) (ix1 q) ?_
  intro a
  match a with
  | ⟨0, _⟩ => rfl

/-- A column broadcast along the features reads, at (p, q), the column's entry of row p. -/
theorem rows_apply (c : FVec Ideal S100000x1 .f32) (p : Fin 100000) (q : Fin 146) : rows c (ix2 p q) = c (ix2 p (0 : Fin 1)) := by
  refine broadcastInDim_apply ![0, 1] bcast_S100000x1_S100000x146_0_1 c (ix2 p q) (ix2 p (0 : Fin 1)) ?_
  intro a
  match a with
  | ⟨0, _⟩ => rfl
  | ⟨1, _⟩ => rfl

/-- A vector of one number per node as a column reads, at (p, 0), the vector's entry p. -/
theorem col_apply (v : FVec Ideal S100000 .f32) (p : Fin 100000) : col v (ix2 p (0 : Fin 1)) = v (ix1 p) := by
  refine broadcastInDim_apply ![0] bcast_S100000_S100000x1_0 v (ix2 p (0 : Fin 1)) (ix1 p) ?_
  intro a
  match a with
  | ⟨0, _⟩ => rfl

/-- A vector cast to a one-row matrix reads, at (0, q), the vector's entry q. -/
theorem rowCast_apply (v : FVec Ideal S146 .f32) (hc : S146.ShapeCasts S1x146) (q : Fin 146) :
    shapeCast S1x146 v hc (ix2 (0 : Fin 1) q) = v (ix1 q) := shapeCast_a_1a_apply v hc 0 q

/-! ## The two products' dimension numbers -/

abbrev D128 := dot_S100000x128_S128x146_S100000x146_1_0_0_1_n_n
abbrev D146 := dot_S100000x146_S146x146_S100000x146_1_0_0_1_n_n

theorem d128_rank : D128.contr.rank = 1 := D128.rank_contr.trans rfl
theorem d146_rank : D146.contr.rank = 1 := D146.rank_contr.trans rfl
theorem d128_size : D128.contr.size ⟨0, by rw [d128_rank]; exact Nat.one_pos⟩ = 128 := rfl
theorem d146_size : D146.contr.size ⟨0, by rw [d146_rank]; exact Nat.one_pos⟩ = 146 := rfl
theorem d128_l0 (i : S100000x146.Idx) (k : D128.contr.Idx) : (D128.lhsIdx i k 0).val = (i 0).val := by
  simp [DotDims.lhsIdx, D128, dot_S100000x128_S128x146_S100000x146_1_0_0_1_n_n]; rfl
theorem d128_l1 (i : S100000x146.Idx) (k : D128.contr.Idx) :
    (D128.lhsIdx i k 1).val = (k ⟨0, by rw [d128_rank]; exact Nat.one_pos⟩).val := by
  simp [DotDims.lhsIdx, D128, dot_S100000x128_S128x146_S100000x146_1_0_0_1_n_n]; rfl
theorem d128_r0 (i : S100000x146.Idx) (k : D128.contr.Idx) :
    (D128.rhsIdx i k 0).val = (k ⟨0, by rw [d128_rank]; exact Nat.one_pos⟩).val := by
  simp [DotDims.rhsIdx, D128, dot_S100000x128_S128x146_S100000x146_1_0_0_1_n_n]; rfl
theorem d128_r1 (i : S100000x146.Idx) (k : D128.contr.Idx) : (D128.rhsIdx i k 1).val = (i 1).val := by
  simp [DotDims.rhsIdx, D128, dot_S100000x128_S128x146_S100000x146_1_0_0_1_n_n]; rfl
theorem d146_l0 (i : S100000x146.Idx) (k : D146.contr.Idx) : (D146.lhsIdx i k 0).val = (i 0).val := by
  simp [DotDims.lhsIdx, D146, dot_S100000x146_S146x146_S100000x146_1_0_0_1_n_n]; rfl
theorem d146_l1 (i : S100000x146.Idx) (k : D146.contr.Idx) :
    (D146.lhsIdx i k 1).val = (k ⟨0, by rw [d146_rank]; exact Nat.one_pos⟩).val := by
  simp [DotDims.lhsIdx, D146, dot_S100000x146_S146x146_S100000x146_1_0_0_1_n_n]; rfl
theorem d146_r0 (i : S100000x146.Idx) (k : D146.contr.Idx) :
    (D146.rhsIdx i k 0).val = (k ⟨0, by rw [d146_rank]; exact Nat.one_pos⟩).val := by
  simp [DotDims.rhsIdx, D146, dot_S100000x146_S146x146_S100000x146_1_0_0_1_n_n]; rfl
theorem d146_r1 (i : S100000x146.Idx) (k : D146.contr.Idx) : (D146.rhsIdx i k 1).val = (i 1).val := by
  simp [DotDims.rhsIdx, D146, dot_S100000x146_S146x146_S100000x146_1_0_0_1_n_n]; rfl

/-- The host's product x · w at (p, q) is the sum over k of x(p, k) · w(k, q). -/
theorem dot128_apply (x : FVec Ideal S100000x128 .f32) (w : FVec Ideal S128x146 .f32) (p : Fin 100000) (q : Fin 146) :
    Host.dotGeneral (F := Ideal) D128 none x w (ix2 p q) = ∑ k : Fin 128, x (ix2 p k) * w (ix2 k q) :=
  MatmulIx.dotGeneral_ix2 D128 d128_rank d128_size d128_l0 d128_l1 d128_r0 d128_r1 none x w p q

theorem dot146_apply (x : FVec Ideal S100000x146 .f32) (w : FVec Ideal S146x146 .f32) (p : Fin 100000) (q : Fin 146) :
    Host.dotGeneral (F := Ideal) D146 none x w (ix2 p q) = ∑ k : Fin 146, x (ix2 p k) * w (ix2 k q) :=
  MatmulIx.dotGeneral_ix2 D146 d146_rank d146_size d146_l0 d146_l1 d146_r0 d146_r1 none x w p q

/-! ## The four steps -/

/-- The embedding with the bias as a one-row matrix is the host's x · W + b. -/
theorem embedK_eq (x : FVec Ideal S100000x128 .f32) (w : FVec Ideal S128x146 .f32) (b : FVec Ideal S146 .f32)
    (hc : S146.ShapeCasts S1x146) : K.embedK x w (shapeCast S1x146 b hc) = embed x w b := by
  funext i
  obtain ⟨p, q, rfl⟩ : ∃ (p : Fin 100000) (q : Fin 146), i = ix2 p q := ⟨i 0, i 1, eq_ix2 i⟩
  show (∑ k : Fin 128, x (ix2 p k) * w (ix2 k q)) + shapeCast S1x146 b hc (ix2 (0 : Fin 1) q)
    = Host.dotGeneral (F := Ideal) D128 none x w (ix2 p q) + down (row b) (ix2 p q)
  rw [rowCast_apply, dot128_apply, down_row_apply]

/-- The projection with the row factors as a column is the host's (h · broadcast factors) · W. -/
theorem linK_eq (h : FVec Ideal S100000x146 .f32) (s : FVec Ideal S100000 .f32) (w : FVec Ideal S146x146 .f32) :
    K.linK h (col s) w = lin h s w := by
  funext i
  obtain ⟨p, q, rfl⟩ : ∃ (p : Fin 100000) (q : Fin 146), i = ix2 p q := ⟨i 0, i 1, eq_ix2 i⟩
  show (∑ k : Fin 146, (h (ix2 p k) * col s (ix2 p (0 : Fin 1))) * w (ix2 k q))
    = Host.dotGeneral (F := Ideal) D146 none (mulf h (rows (col s))) w (ix2 p q)
  rw [dot146_apply]
  refine Finset.sum_congr rfl fun k _ => ?_
  show _ = (h (ix2 p k) * rows (col s) (ix2 p k)) * w (ix2 k q)
  rw [rows_apply]

/-- The pre-normalisation step with column factors and a one-row bias is the host's. -/
theorem preK_eq (a : FVec Ideal S100000x146 .f32) (s : FVec Ideal S100000 .f32) (b : FVec Ideal S146 .f32)
    (sn : FVec Ideal S100000x1 .f32) (hc : S146.ShapeCasts S1x146) :
    K.preK a (col s) (shapeCast S1x146 b hc) sn = pre a s b sn := by
  funext i
  obtain ⟨p, q, rfl⟩ : ∃ (p : Fin 100000) (q : Fin 146), i = ix2 p q := ⟨i 0, i 1, eq_ix2 i⟩
  show (a (ix2 p q) * col s (ix2 p (0 : Fin 1)) + shapeCast S1x146 b hc (ix2 (0 : Fin 1) q)) * sn (ix2 p (0 : Fin 1))
    = (a (ix2 p q) * rows (col s) (ix2 p q) + down (row b) (ix2 p q)) * rows sn (ix2 p q)
  rw [rowCast_apply, rows_apply, rows_apply, down_row_apply]

/-- The normalisation with one-row statistics is the host's. -/
theorem bnK_eq (hp : FVec Ideal S100000x146 .f32) (mu var g be : FVec Ideal S146 .f32) (hin : FVec Ideal S100000x146 .f32)
    (hc : S146.ShapeCasts S1x146) :
    K.bnK hp (shapeCast S1x146 mu hc) (shapeCast S1x146 var hc) (shapeCast S1x146 g hc) (shapeCast S1x146 be hc) hin
      = bn hp mu var g be hin := by
  funext i
  obtain ⟨p, q, rfl⟩ : ∃ (p : Fin 100000) (q : Fin 146), i = ix2 p q := ⟨i 0, i 1, eq_ix2 i⟩
  show hin (ix2 p q) + max ((hp (ix2 p q) - shapeCast S1x146 mu hc (ix2 (0 : Fin 1) q))
        * Ideal.rsqrt (shapeCast S1x146 var hc (ix2 (0 : Fin 1) q) + Ideal.ofBits .f32 0x3727C5AC#32)
        * shapeCast S1x146 g hc (ix2 (0 : Fin 1) q) + shapeCast S1x146 be hc (ix2 (0 : Fin 1) q)) (Ideal.ofBits .f32 0x00000000#32)
    = hin (ix2 p q) + max ((hp (ix2 p q) - down (row mu) (ix2 p q))
        * down (row (Host.rsqrt (F := Ideal)
            (addf var (broadcastInDim S146 ![] bcast_S_S146 (constant (F := Ideal) S_ .f32 0x3727C5AC#32))))) (ix2 p q)
        * down (row g) (ix2 p q) + down (row be) (ix2 p q)) (Ideal.ofBits .f32 0x00000000#32)
  rw [rowCast_apply, rowCast_apply, rowCast_apply, rowCast_apply, down_row_apply, down_row_apply, down_row_apply, down_row_apply]
  rfl

end Cert.Gnn

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.HostSteps.lean ====
/-
  What each stretch of host operations of the idealized kernel program leaves in the buffers a later launch or stretch
  reads, as a function of the buffer contents the stretch starts from: the degree normalisations, the gather and
  accumulating scatter over the edges, the batch statistics, the one-row casts of the parameter vectors, the pooling.
  Each equation is the stretch's own operations composed; the right-hand sides name the compositions by the
  specification's definitions.  Every other buffer keeps its contents through a stretch that does not write it.
-/
import proofs.«124989_j83073257439657_1_alg».proof.Proof.Gen.KernelIdeal.Launch
import proofs.«124989_j83073257439657_1_alg».proof.Proof.Gen.ReferenceIdeal
import proofs.«124989_j83073257439657_1_alg».proof.Proof.Spec
import proofs.«124989_j83073257439657_1_alg».proof.Proof.LibTRef
import Idealize.ShloMosaic.Lib.StableHlo.Run

noncomputable section

namespace Cert.KernelIdeal.HostSteps

open Cert.KernelIdeal Cert.KernelIdeal.Gen Idealize.ShloMosaic Idealize.ShloMosaic.TcCoe Idealize.ShloMosaic.StableHlo

/-! ## The values a stretch computes -/

set_option maxHeartbeats 1000000 in
attribute [local irreducible] Host.scatterAdd Host.gather Host.reduceAdd Host.powf Host.rsqrt Host.divf in
/-- The embedding's bias as a one-row matrix. -/
theorem s0_v0 (V : Valuation τ sig (Elt Ideal)) :
    after (hostOps0 (F := Ideal)) V (Proc.devRef .tc main_v0) = shapeCast S1x146 (V (Proc.devRef .tc main_arg3)) shapeCasts_S146_S1x146 := by
  after_results_simp <;> rfl
set_option maxHeartbeats 1000000 in
attribute [local irreducible] Host.scatterAdd Host.gather Host.reduceAdd Host.powf Host.rsqrt Host.divf in
/-- The out-degree normalisation as a column. -/
theorem s1_v15 (V : Valuation τ sig (Elt Ideal)) :
    after (hostOps1 (F := Ideal)) V (Proc.devRef .tc main_v15) = Cert.Gnn.col (Cert.Gnn.invSqrt (Cert.Gnn.deg (V (Proc.devRef .tc main_arg12)))) := by
  after_results_simp <;> rfl
set_option maxHeartbeats 1000000 in
attribute [local irreducible] Host.scatterAdd Host.gather Host.reduceAdd Host.powf Host.rsqrt Host.divf in
/-- The clamped in-degrees. -/
theorem s1_v12 (V : Valuation τ sig (Elt Ideal)) :
    after (hostOps1 (F := Ideal)) V (Proc.devRef .tc main_v12) = Cert.Gnn.deg (V (Proc.devRef .tc main_arg13)) := by
  after_results_simp <;> rfl
set_option maxHeartbeats 1000000 in
attribute [local irreducible] Host.scatterAdd Host.gather Host.reduceAdd Host.powf Host.rsqrt Host.divf in
/-- The messages gathered along the edges and summed at their destinations. -/
theorem s2_v26 (V : Valuation τ sig (Elt Ideal)) :
    after (hostOps2 (F := Ideal)) V (Proc.devRef .tc main_v26) = Cert.Gnn.aggregate (V (Proc.devRef .tc main_v16)) (V (Proc.devRef .tc main_arg12)) (V (Proc.devRef .tc main_arg13)) := by
  after_results_simp <;> rfl
set_option maxHeartbeats 1000000 in
attribute [local irreducible] Host.scatterAdd Host.gather Host.reduceAdd Host.powf Host.rsqrt Host.divf in
/-- The in-degree normalisation as a column. -/
theorem s2_v29 (V : Valuation τ sig (Elt Ideal)) :
    after (hostOps2 (F := Ideal)) V (Proc.devRef .tc main_v29) = Cert.Gnn.col (Cert.Gnn.invSqrt (V (Proc.devRef .tc main_v12))) := by
  after_results_simp <;> rfl
set_option maxHeartbeats 1000000 in
attribute [local irreducible] Host.scatterAdd Host.gather Host.reduceAdd Host.powf Host.rsqrt Host.divf in
/-- The layer's bias as a one-row matrix. -/
theorem s2_v30 (V : Valuation τ sig (Elt Ideal)) :
    after (hostOps2 (F := Ideal)) V (Proc.devRef .tc main_v30) = shapeCast S1x146 (V (Proc.devRef .tc main_arg5)) shapeCasts_S146_S1x146 := by
  after_results_simp <;> rfl
set_option maxHeartbeats 1000000 in
attribute [local irreducible] Host.scatterAdd Host.gather Host.reduceAdd Host.powf Host.rsqrt Host.divf in
/-- The column means. -/
theorem s3_v34 (V : Valuation τ sig (Elt Ideal)) :
    after (hostOps3 (F := Ideal)) V (Proc.devRef .tc main_v34) = Cert.Gnn.mean (V (Proc.devRef .tc main_v31)) := by
  after_results_simp <;> rfl
set_option maxHeartbeats 1000000 in
attribute [local irreducible] Host.scatterAdd Host.gather Host.reduceAdd Host.powf Host.rsqrt Host.divf in
/-- The variance's degrees-of-freedom argument: zero. -/
theorem s3_c10 (V : Valuation τ sig (Elt Ideal)) :
    after (hostOps3 (F := Ideal)) V (Proc.devRef .tc main_c_10) = constantI S_ 32 0#32 := by
  after_results_simp <;> rfl
set_option maxHeartbeats 1000000 in
attribute [local irreducible] Host.scatterAdd Host.gather Host.reduceAdd Host.powf Host.rsqrt Host.divf in
/-- The outlined variance of the pre-normalisation activations, its degrees-of-freedom argument being zero. -/
theorem s3_1_v35 (V : Valuation τ sig (Elt Ideal)) (hc : V (Proc.devRef .tc main_c_10) = constantI S_ 32 0#32) :
    after (hostOps3_1 (F := Ideal)) V (Proc.devRef .tc main_v35) = Cert.Gnn.variance (V (Proc.devRef .tc main_v31)) := by
  after_results_simp
  simp only [Cert.LibTRef.ofBuf_toBuf, hc]
  rfl
set_option maxHeartbeats 1000000 in
attribute [local irreducible] Host.scatterAdd Host.gather Host.reduceAdd Host.powf Host.rsqrt Host.divf in
/-- The means as a one-row matrix. -/
theorem s3_2_v36 (V : Valuation τ sig (Elt Ideal)) :
    after (hostOps3_2 (F := Ideal)) V (Proc.devRef .tc main_v36) = shapeCast S1x146 (V (Proc.devRef .tc main_v34)) shapeCasts_S146_S1x146 := by
  after_results_simp <;> rfl
set_option maxHeartbeats 1000000 in
attribute [local irreducible] Host.scatterAdd Host.gather Host.reduceAdd Host.powf Host.rsqrt Host.divf in
/-- The variances as a one-row matrix. -/
theorem s3_2_v37 (V : Valuation τ sig (Elt Ideal)) :
    after (hostOps3_2 (F := Ideal)) V (Proc.devRef .tc main_v37) = shapeCast S1x146 (V (Proc.devRef .tc main_v35)) shapeCasts_S146_S1x146 := by
  after_results_simp <;> rfl
set_option maxHeartbeats 1000000 in
attribute [local irreducible] Host.scatterAdd Host.gather Host.reduceAdd Host.powf Host.rsqrt Host.divf in
/-- The scale as a one-row matrix. -/
theorem s3_2_v38 (V : Valuation τ sig (Elt Ideal)) :
    after (hostOps3_2 (F := Ideal)) V (Proc.devRef .tc main_v38) = shapeCast S1x146 (V (Proc.devRef .tc main_arg6)) shapeCasts_S146_S1x146 := by
  after_results_simp <;> rfl
set_option maxHeartbeats 1000000 in
attribute [local irreducible] Host.scatterAdd Host.gather Host.reduceAdd Host.powf Host.rsqrt Host.divf in
/-- The shift as a one-row matrix. -/
theorem s3_2_v39 (V : Valuation τ sig (Elt Ideal)) :
    after (hostOps3_2 (F := Ideal)) V (Proc.devRef .tc main_v39) = shapeCast S1x146 (V (Proc.devRef .tc main_arg7)) shapeCasts_S146_S1x146 := by
  after_results_simp <;> rfl
set_option maxHeartbeats 1000000 in
attribute [local irreducible] Host.scatterAdd Host.gather Host.reduceAdd Host.powf Host.rsqrt Host.divf in
/-- The out-degree normalisation as a column (second layer). -/
theorem s4_v54 (V : Valuation τ sig (Elt Ideal)) :
    after (hostOps4 (F := Ideal)) V (Proc.devRef .tc main_v54) = Cert.Gnn.col (Cert.Gnn.invSqrt (Cert.Gnn.deg (V (Proc.devRef .tc main_arg12)))) := by
  after_results_simp <;> rfl
set_option maxHeartbeats 1000000 in
attribute [local irreducible] Host.scatterAdd Host.gather Host.reduceAdd Host.powf Host.rsqrt Host.divf in
/-- The clamped in-degrees (second layer). -/
theorem s4_v51 (V : Valuation τ sig (Elt Ideal)) :
    after (hostOps4 (F := Ideal)) V (Proc.devRef .tc main_v51) = Cert.Gnn.deg (V (Proc.devRef .tc main_arg13)) := by
  after_results_simp <;> rfl
set_option maxHeartbeats 1000000 in
attribute [local irreducible] Host.scatterAdd Host.gather Host.reduceAdd Host.powf Host.rsqrt Host.divf in
/-- The messages gathered and summed (second layer). -/
theorem s5_v65 (V : Valuation τ sig (Elt Ideal)) :
    after (hostOps5 (F := Ideal)) V (Proc.devRef .tc main_v65) = Cert.Gnn.aggregate (V (Proc.devRef .tc main_v55)) (V (Proc.devRef .tc main_arg12)) (V (Proc.devRef .tc main_arg13)) := by
  after_results_simp <;> rfl
set_option maxHeartbeats 1000000 in
attribute [local irreducible] Host.scatterAdd Host.gather Host.reduceAdd Host.powf Host.rsqrt Host.divf in
/-- The in-degree normalisation as a column (second layer). -/
theorem s5_v68 (V : Valuation τ sig (Elt Ideal)) :
    after (hostOps5 (F := Ideal)) V (Proc.devRef .tc main_v68) = Cert.Gnn.col (Cert.Gnn.invSqrt (V (Proc.devRef .tc main_v51))) := by
  after_results_simp <;> rfl
set_option maxHeartbeats 1000000 in
attribute [local irreducible] Host.scatterAdd Host.gather Host.reduceAdd Host.powf Host.rsqrt Host.divf in
/-- The second layer's bias as a one-row matrix. -/
theorem s5_v69 (V : Valuation τ sig (Elt Ideal)) :
    after (hostOps5 (F := Ideal)) V (Proc.devRef .tc main_v69) = shapeCast S1x146 (V (Proc.devRef .tc main_arg9)) shapeCasts_S146_S1x146 := by
  after_results_simp <;> rfl
set_option maxHeartbeats 1000000 in
attribute [local irreducible] Host.scatterAdd Host.gather Host.reduceAdd Host.powf Host.rsqrt Host.divf in
/-- The column means (second layer). -/
theorem s6_v73 (V : Valuation τ sig (Elt Ideal)) :
    after (hostOps6 (F := Ideal)) V (Proc.devRef .tc main_v73) = Cert.Gnn.mean (V (Proc.devRef .tc main_v70)) := by
  after_results_simp <;> rfl
set_option maxHeartbeats 1000000 in
attribute [local irreducible] Host.scatterAdd Host.gather Host.reduceAdd Host.powf Host.rsqrt Host.divf in
/-- The variance's degrees-of-freedom argument: zero. -/
theorem s6_c23 (V : Valuation τ sig (Elt Ideal)) :
    after (hostOps6 (F := Ideal)) V (Proc.devRef .tc main_c_23) = constantI S_ 32 0#32 := by
  after_results_simp <;> rfl
set_option maxHeartbeats 1000000 in
attribute [local irreducible] Host.scatterAdd Host.gather Host.reduceAdd Host.powf Host.rsqrt Host.divf in
/-- The outlined variance of the pre-normalisation activations, its degrees-of-freedom argument being zero. -/
theorem s6_1_v74 (V : Valuation τ sig (Elt Ideal)) (hc : V (Proc.devRef .tc main_c_23) = constantI S_ 32 0#32) :
    after (hostOps6_1 (F := Ideal)) V (Proc.devRef .tc main_v74) = Cert.Gnn.variance (V (Proc.devRef .tc main_v70)) := by
  after_results_simp
  simp only [Cert.LibTRef.ofBuf_toBuf, hc]
  rfl
set_option maxHeartbeats 1000000 in
attribute [local irreducible] Host.scatterAdd Host.gather Host.reduceAdd Host.powf Host.rsqrt Host.divf in
/-- The means as a one-row matrix. -/
theorem s6_2_v75 (V : Valuation τ sig (Elt Ideal)) :
    after (hostOps6_2 (F := Ideal)) V (Proc.devRef .tc main_v75) = shapeCast S1x146 (V (Proc.devRef .tc main_v73)) shapeCasts_S146_S1x146 := by
  after_results_simp <;> rfl
set_option maxHeartbeats 1000000 in
attribute [local irreducible] Host.scatterAdd Host.gather Host.reduceAdd Host.powf Host.rsqrt Host.divf in
/-- The variances as a one-row matrix. -/
theorem s6_2_v76 (V : Valuation τ sig (Elt Ideal)) :
    after (hostOps6_2 (F := Ideal)) V (Proc.devRef .tc main_v76) = shapeCast S1x146 (V (Proc.devRef .tc main_v74)) shapeCasts_S146_S1x146 := by
  after_results_simp <;> rfl
set_option maxHeartbeats 1000000 in
attribute [local irreducible] Host.scatterAdd Host.gather Host.reduceAdd Host.powf Host.rsqrt Host.divf in
/-- The scale as a one-row matrix. -/
theorem s6_2_v77 (V : Valuation τ sig (Elt Ideal)) :
    after (hostOps6_2 (F := Ideal)) V (Proc.devRef .tc main_v77) = shapeCast S1x146 (V (Proc.devRef .tc main_arg10)) shapeCasts_S146_S1x146 := by
  after_results_simp <;> rfl
set_option maxHeartbeats 1000000 in
attribute [local irreducible] Host.scatterAdd Host.gather Host.reduceAdd Host.powf Host.rsqrt Host.divf in
/-- The shift as a one-row matrix. -/
theorem s6_2_v78 (V : Valuation τ sig (Elt Ideal)) :
    after (hostOps6_2 (F := Ideal)) V (Proc.devRef .tc main_v78) = shapeCast S1x146 (V (Proc.devRef .tc main_arg11)) shapeCasts_S146_S1x146 := by
  after_results_simp <;> rfl
set_option maxHeartbeats 1000000 in
attribute [local irreducible] Host.scatterAdd Host.gather Host.reduceAdd Host.powf Host.rsqrt Host.divf in
/-- Mean pooling per graph. -/
theorem s7_v91 (V : Valuation τ sig (Elt Ideal)) :
    after (hostOps7 (F := Ideal)) V (Proc.devRef .tc main_v91) = Cert.Gnn.pool (V (Proc.devRef .tc main_v79)) (V (Proc.devRef .tc main_arg14)) := by
  after_results_simp <;> rfl

/-! ## What a stretch leaves alone -/

variable {F : FTy → Type} [FloatOps F]

/-- The buffers stretch 0 writes. -/
def wr0 : List (Ref sig .tc) := [main_v0]
theorem hw0 : (hostOps0 : List (HloOp τ sig (Elt F))).Forall fun op => op.writes ⊆ (wr0.map (Proc.devRef (τ := τ) .tc)).toFinset := by
  simp only [hostOps0, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 0 does not write keeps its contents. -/
theorem keep0 {V : Valuation τ sig (Elt F)} {r : Ref sig .tc} (hr : r ∉ wr0) :
    after (hostOps0 (F := F)) V (Proc.devRef .tc r) = V (Proc.devRef .tc r) := after_of_writes_sub _ V hw0 hr

/-- The buffers stretch 1 writes. -/
def wr1 : List (Ref sig .tc) := [main_cst, main_v2, main_cst_0, main_v3, main_v4, main_v5, main_cst_1, main_v6, main_v7, main_cst_2, main_v8, main_v9, main_v10, main_cst_3, main_v11, main_v12, main_cst_4, main_v13, main_v14, main_v15]
theorem hw1 : (hostOps1 : List (HloOp τ sig (Elt F))).Forall fun op => op.writes ⊆ (wr1.map (Proc.devRef (τ := τ) .tc)).toFinset := by
  simp only [hostOps1, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 1 does not write keeps its contents. -/
theorem keep1 {V : Valuation τ sig (Elt F)} {r : Ref sig .tc} (hr : r ∉ wr1) :
    after (hostOps1 (F := F)) V (Proc.devRef .tc r) = V (Proc.devRef .tc r) := after_of_writes_sub _ V hw1 hr

/-- The buffers stretch 2 writes. -/
def wr2 : List (Ref sig .tc) := [main_c, main_v17, main_v18, main_c_5, main_v19, main_v20, main_v21, main_v22, main_v23, main_cst_6, main_v24, main_v25, main_v26, main_cst_7, main_v27, main_v28, main_v29, main_v30]
theorem hw2 : (hostOps2 : List (HloOp τ sig (Elt F))).Forall fun op => op.writes ⊆ (wr2.map (Proc.devRef (τ := τ) .tc)).toFinset := by
  simp only [hostOps2, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 2 does not write keeps its contents. -/
theorem keep2 {V : Valuation τ sig (Elt F)} {r : Ref sig .tc} (hr : r ∉ wr2) :
    after (hostOps2 (F := F)) V (Proc.devRef .tc r) = V (Proc.devRef .tc r) := after_of_writes_sub _ V hw2 hr

/-- The buffers stretch 3 writes. -/
def wr3 : List (Ref sig .tc) := [main_cst_8, main_v32, main_cst_9, main_v33, main_v34, main_c_10]
theorem hw3 : (hostOps3 : List (HloOp τ sig (Elt F))).Forall fun op => op.writes ⊆ (wr3.map (Proc.devRef (τ := τ) .tc)).toFinset := by
  simp only [hostOps3, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 3 does not write keeps its contents. -/
theorem keep3 {V : Valuation τ sig (Elt F)} {r : Ref sig .tc} (hr : r ∉ wr3) :
    after (hostOps3 (F := F)) V (Proc.devRef .tc r) = V (Proc.devRef .tc r) := after_of_writes_sub _ V hw3 hr

/-- The buffers stretch 3_1 writes. -/
def wr3_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v35]
theorem hw3_1 : (hostOps3_1 : List (HloOp τ sig (Elt F))).Forall fun op => op.writes ⊆ (wr3_1.map (Proc.devRef (τ := τ) .tc)).toFinset := by
  simp only [hostOps3_1, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 3_1 does not write keeps its contents. -/
theorem keep3_1 {V : Valuation τ sig (Elt F)} {r : Ref sig .tc} (hr : r ∉ wr3_1) :
    after (hostOps3_1 (F := F)) V (Proc.devRef .tc r) = V (Proc.devRef .tc r) := after_of_writes_sub _ V hw3_1 hr

/-- The buffers stretch 3_2 writes. -/
def wr3_2 : List (Ref sig .tc) := [main_v36, main_v37, main_v38, main_v39]
theorem hw3_2 : (hostOps3_2 : List (HloOp τ sig (Elt F))).Forall fun op => op.writes ⊆ (wr3_2.map (Proc.devRef (τ := τ) .tc)).toFinset := by
  simp only [hostOps3_2, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 3_2 does not write keeps its contents. -/
theorem keep3_2 {V : Valuation τ sig (Elt F)} {r : Ref sig .tc} (hr : r ∉ wr3_2) :
    after (hostOps3_2 (F := F)) V (Proc.devRef .tc r) = V (Proc.devRef .tc r) := after_of_writes_sub _ V hw3_2 hr

/-- The buffers stretch 4 writes. -/
def wr4 : List (Ref sig .tc) := [main_cst_11, main_v41, main_cst_12, main_v42, main_v43, main_v44, main_cst_13, main_v45, main_v46, main_cst_14, main_v47, main_v48, main_v49, main_cst_15, main_v50, main_v51, main_cst_16, main_v52, main_v53, main_v54]
theorem hw4 : (hostOps4 : List (HloOp τ sig (Elt F))).Forall fun op => op.writes ⊆ (wr4.map (Proc.devRef (τ := τ) .tc)).toFinset := by
  simp only [hostOps4, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 4 does not write keeps its contents. -/
theorem keep4 {V : Valuation τ sig (Elt F)} {r : Ref sig .tc} (hr : r ∉ wr4) :
    after (hostOps4 (F := F)) V (Proc.devRef .tc r) = V (Proc.devRef .tc r) := after_of_writes_sub _ V hw4 hr

/-- The buffers stretch 5 writes. -/
def wr5 : List (Ref sig .tc) := [main_c_17, main_v56, main_v57, main_c_18, main_v58, main_v59, main_v60, main_v61, main_v62, main_cst_19, main_v63, main_v64, main_v65, main_cst_20, main_v66, main_v67, main_v68, main_v69]
theorem hw5 : (hostOps5 : List (HloOp τ sig (Elt F))).Forall fun op => op.writes ⊆ (wr5.map (Proc.devRef (τ := τ) .tc)).toFinset := by
  simp only [hostOps5, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 5 does not write keeps its contents. -/
theorem keep5 {V : Valuation τ sig (Elt F)} {r : Ref sig .tc} (hr : r ∉ wr5) :
    after (hostOps5 (F := F)) V (Proc.devRef .tc r) = V (Proc.devRef .tc r) := after_of_writes_sub _ V hw5 hr

/-- The buffers stretch 6 writes. -/
def wr6 : List (Ref sig .tc) := [main_cst_21, main_v71, main_cst_22, main_v72, main_v73, main_c_23]
theorem hw6 : (hostOps6 : List (HloOp τ sig (Elt F))).Forall fun op => op.writes ⊆ (wr6.map (Proc.devRef (τ := τ) .tc)).toFinset := by
  simp only [hostOps6, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 6 does not write keeps its contents. -/
theorem keep6 {V : Valuation τ sig (Elt F)} {r : Ref sig .tc} (hr : r ∉ wr6) :
    after (hostOps6 (F := F)) V (Proc.devRef .tc r) = V (Proc.devRef .tc r) := after_of_writes_sub _ V hw6 hr

/-- The buffers stretch 6_1 writes. -/
def wr6_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v74]
theorem hw6_1 : (hostOps6_1 : List (HloOp τ sig (Elt F))).Forall fun op => op.writes ⊆ (wr6_1.map (Proc.devRef (τ := τ) .tc)).toFinset := by
  simp only [hostOps6_1, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 6_1 does not write keeps its contents. -/
theorem keep6_1 {V : Valuation τ sig (Elt F)} {r : Ref sig .tc} (hr : r ∉ wr6_1) :
    after (hostOps6_1 (F := F)) V (Proc.devRef .tc r) = V (Proc.devRef .tc r) := after_of_writes_sub _ V hw6_1 hr

/-- The buffers stretch 6_2 writes. -/
def wr6_2 : List (Ref sig .tc) := [main_v75, main_v76, main_v77, main_v78]
theorem hw6_2 : (hostOps6_2 : List (HloOp τ sig (Elt F))).Forall fun op => op.writes ⊆ (wr6_2.map (Proc.devRef (τ := τ) .tc)).toFinset := by
  simp only [hostOps6_2, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 6_2 does not write keeps its contents. -/
theorem keep6_2 {V : Valuation τ sig (Elt F)} {r : Ref sig .tc} (hr : r ∉ wr6_2) :
    after (hostOps6_2 (F := F)) V (Proc.devRef .tc r) = V (Proc.devRef .tc r) := after_of_writes_sub _ V hw6_2 hr

/-- The buffers stretch 7 writes. -/
def wr7 : List (Ref sig .tc) := [main_cst_24, main_v80, main_cst_25, main_v81, main_v82, main_v83, main_cst_26, main_v84, main_v85, main_cst_27, main_v86, main_v87, main_v88, main_v89, main_v90, main_v91]
theorem hw7 : (hostOps7 : List (HloOp τ sig (Elt F))).Forall fun op => op.writes ⊆ (wr7.map (Proc.devRef (τ := τ) .tc)).toFinset := by
  simp only [hostOps7, List.Forall, nullary_writes, unary_writes, binary_writes, ternary_writes, quaternary_writes, reshape_writes,
    Finset.singleton_subset_iff, List.mem_toFinset, List.mem_map]
  repeat' apply And.intro
  all_goals exact ⟨_, by decide, rfl⟩
/-- A buffer stretch 7 does not write keeps its contents. -/
theorem keep7 {V : Valuation τ sig (Elt F)} {r : Ref sig .tc} (hr : r ∉ wr7) :
    after (hostOps7 (F := F)) V (Proc.devRef .tc r) = V (Proc.devRef .tc r) := after_of_writes_sub _ V hw7 hr

end Cert.KernelIdeal.HostSteps

end
-- ==== Proof.KernelRun.lean ====
/-
  The idealized kernel program's run with its result named.

  The program is seven kernel launches among stretches of host operations.  The contents of every buffer at each
  boundary between two segments are a fold from the launch memory: a stretch applies its operations in order, a
  launch replaces its output array by what the grid's blocks wrote back and leaves everything else.  Every weakly
  fair execution terminates without a fault, and the final memory holds, buffer by buffer, the last stage of that
  fold; so the result buffer holds the fold's value at the result buffer, and each argument holds what it was
  launched with.
-/
import proofs.«124989_j83073257439657_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of it, and the fifteen arguments end as launched. -/
theorem run_named : θ_run defs (onTc (τ := τ) (main (F := F))) ⟨m, fun _ => 0, ρ⟩ (fun r => ∀ c : Dev nD,
      r.2.mem ((c.tc : Thread nD τ).loc main_v91) = W19 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v91 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.KernelIdeal.Run

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Payload.lean ====
/-
  The four dense bodies read at one entry of a block of 5000 rows.  Each body is a tree of entrywise operations,
  row and column broadcasts, and (for the embedding and the projection) one matrix product into the zero splat; at
  the ideal values a change of float format is the identity, so entry (p, q) of each body is the formula below in
  the entries of the loaded blocks.
-/
import proofs.«124989_j83073257439657_1_alg».proof.Proof.Gen.KernelIdeal.Skeleton
import proofs.«124989_j83073257439657_1_alg».proof.Proof.LibMatmulIx
import proofs.«124989_j83073257439657_1_alg».proof.Proof.LibLayout
import Idealize.ShloMosaic.Lib.Pipeline.Value

noncomputable section

namespace Cert.KernelIdeal.Payload

open Cert.KernelIdeal Cert.KernelIdeal.Gen Idealize.ShloMosaic Idealize.ShloMosaic.ValueIdx
open Cert.Attn.Layout (broadcastTo_a1_ab_apply)

/-! ## The two products' dimension numbers, coordinate by coordinate -/

/-- The embedding's product: [5000, 128] times [128, 146]. -/
abbrev D128 := dot_S5000x128_S128x146_S5000x146_1_0_0_1_n_n

theorem d128_l0 (i : S5000x146.Idx) (k : D128.contr.Idx) : (D128.lhsIdx i k 0).val = (i 0).val := by
  simp [DotDims.lhsIdx, D128, dot_S5000x128_S128x146_S5000x146_1_0_0_1_n_n]; rfl
theorem d128_l1 (i : S5000x146.Idx) (k : D128.contr.Idx) : (D128.lhsIdx i k 1).val = (k ⟨0, by decide⟩).val := by
  simp [DotDims.lhsIdx, D128, dot_S5000x128_S128x146_S5000x146_1_0_0_1_n_n]; rfl
theorem d128_r0 (i : S5000x146.Idx) (k : D128.contr.Idx) : (D128.rhsIdx i k 0).val = (k ⟨0, by decide⟩).val := by
  simp [DotDims.rhsIdx, D128, dot_S5000x128_S128x146_S5000x146_1_0_0_1_n_n]; rfl
theorem d128_r1 (i : S5000x146.Idx) (k : D128.contr.Idx) : (D128.rhsIdx i k 1).val = (i 1).val := by
  simp [DotDims.rhsIdx, D128, dot_S5000x128_S128x146_S5000x146_1_0_0_1_n_n]; rfl

/-- The projection's product: [5000, 146] times [146, 146]. -/
abbrev D146 := dot_S5000x146_S146x146_S5000x146_1_0_0_1_n_n

theorem d146_l0 (i : S5000x146.Idx) (k : D146.contr.Idx) : (D146.lhsIdx i k 0).val = (i 0).val := by
  simp [DotDims.lhsIdx, D146, dot_S5000x146_S146x146_S5000x146_1_0_0_1_n_n]; rfl
theorem d146_l1 (i : S5000x146.Idx) (k : D146.contr.Idx) : (D146.lhsIdx i k 1).val = (k ⟨0, by decide⟩).val := by
  simp [DotDims.lhsIdx, D146, dot_S5000x146_S146x146_S5000x146_1_0_0_1_n_n]; rfl
theorem d146_r0 (i : S5000x146.Idx) (k : D146.contr.Idx) : (D146.rhsIdx i k 0).val = (k ⟨0, by decide⟩).val := by
  simp [DotDims.rhsIdx, D146, dot_S5000x146_S146x146_S5000x146_1_0_0_1_n_n]; rfl
theorem d146_r1 (i : S5000x146.Idx) (k : D146.contr.Idx) : (D146.rhsIdx i k 1).val = (i 1).val := by
  simp [DotDims.rhsIdx, D146, dot_S5000x146_S146x146_S5000x146_1_0_0_1_n_n]; rfl

/-! ## The embedding -/

/-- Entry (p, q) of the embedding's body: row p of the features times column q of the weights, plus the bias. -/
theorem pay0 (x0 : Vec Ideal S5000x128 .f32) (x1 : Vec Ideal S128x146 .f32) (x2 : Vec Ideal S1x146 .f32)
    (p : Fin 5000) (q : Fin 146) :
    Gen.k0_pay1 (F := Ideal) x0 x1 x2 (ix2 p q)
      = (∑ k : Fin 128, x0 (ix2 p k) * x1 (ix2 k q)) + x2 (ix2 (0 : Fin 1) q) := by
  unfold Gen.k0_pay1
  rw [addf_apply]
  refine congrArg₂ (· + ·) ?_ ?_
  · exact MatmulIx.matmul_zero_ix2 D128 rfl rfl d128_l0 d128_l1 d128_r0 d128_r1 none _ _ p q
  · refine (broadcastTo_1b_ab_apply _ _ p q).trans ?_
    rw [shapeCast_self]

/-! ## The projection -/

/-- Entry (p, q) of the projection's body: row p of the features, each entry scaled by the row's factor, times
    column q of the weights. -/
theorem pay1 (x0 : Vec Ideal S5000x146 .f32) (x1 : Vec Ideal S5000x1 .f32) (x2 : Vec Ideal S146x146 .f32)
    (p : Fin 5000) (q : Fin 146) :
    Gen.k1_pay1 (F := Ideal) x0 x1 x2 (ix2 p q)
      = ∑ k : Fin 146, (x0 (ix2 p k) * x1 (ix2 p (0 : Fin 1))) * x2 (ix2 k q) := by
  unfold Gen.k1_pay1
  refine (MatmulIx.matmul_zero_ix2 D146 rfl rfl d146_l0 d146_l1 d146_r0 d146_r1 none _ _ p q).trans ?_
  refine Finset.sum_congr rfl fun k _ => ?_
  refine congrArg₂ (· * ·) ?_ rfl
  show shapeCast S5000x146 x0 _ (ix2 p k) * broadcastTo S5000x146 (shapeCast S5000x1 x1 _) _ (ix2 p k) = _
  refine congrArg₂ (· * ·) ?_ ?_
  · rw [shapeCast_self]
  · refine (broadcastTo_a1_ab_apply _ _ p k).trans ?_
    rw [shapeCast_self]

/-- The second layer's projection is the same body. -/
theorem pay4 (x0 : Vec Ideal S5000x146 .f32) (x1 : Vec Ideal S5000x1 .f32) (x2 : Vec Ideal S146x146 .f32)
    (p : Fin 5000) (q : Fin 146) :
    Gen.k4_pay1 (F := Ideal) x0 x1 x2 (ix2 p q)
      = ∑ k : Fin 146, (x0 (ix2 p k) * x1 (ix2 p (0 : Fin 1))) * x2 (ix2 k q) :=
  pay1 x0 x1 x2 p q

/-! ## The scaling before the normalisation -/

/-- Entry (p, q) of the pre-normalisation body: the aggregate scaled by the row's factor, plus the bias, scaled by
    the row's second factor. -/
theorem pay2 (x0 : Vec Ideal S5000x146 .f32) (x1 : Vec Ideal S5000x1 .f32) (x2 : Vec Ideal S1x146 .f32)
    (x3 : Vec Ideal S5000x1 .f32) (p : Fin 5000) (q : Fin 146) :
    Gen.k2_pay1 (F := Ideal) x0 x1 x2 x3 (ix2 p q)
      = (x0 (ix2 p q) * x1 (ix2 p (0 : Fin 1)) + x2 (ix2 (0 : Fin 1) q)) * x3 (ix2 p (0 : Fin 1)) := by
  unfold Gen.k2_pay1
  rw [mulf_apply, addf_apply, mulf_apply]
  refine congrArg₂ (· * ·) (congrArg₂ (· + ·) (congrArg₂ (· * ·) ?_ ?_) ?_) ?_
  · rw [shapeCast_self]
  · refine (broadcastTo_a1_ab_apply _ _ p q).trans ?_
    rw [shapeCast_self]
  · refine (broadcastTo_1b_ab_apply _ _ p q).trans ?_
    rw [shapeCast_self]
  · exact broadcastTo_a1_ab_apply _ _ p q

/-- The second layer's is the same body. -/
theorem pay5 (x0 : Vec Ideal S5000x146 .f32) (x1 : Vec Ideal S5000x1 .f32) (x2 : Vec Ideal S1x146 .f32)
    (x3 : Vec Ideal S5000x1 .f32) (p : Fin 5000) (q : Fin 146) :
    Gen.k5_pay1 (F := Ideal) x0 x1 x2 x3 (ix2 p q)
      = (x0 (ix2 p q) * x1 (ix2 p (0 : Fin 1)) + x2 (ix2 (0 : Fin 1) q)) * x3 (ix2 p (0 : Fin 1)) :=
  pay2 x0 x1 x2 x3 p q

/-! ## The normalisation, the clamp at zero and the residual -/

/-- Entry (p, q) of the normalisation's body: the residual input plus the clamped normalised value. -/
theorem pay3 (x0 : Vec Ideal S5000x146 .f32) (x1 x2 x3 x4 : Vec Ideal S1x146 .f32) (x5 : Vec Ideal S5000x146 .f32)
    (p : Fin 5000) (q : Fin 146) :
    Gen.k3_pay1 (F := Ideal) x0 x1 x2 x3 x4 x5 (ix2 p q)
      = x5 (ix2 p q) + max ((x0 (ix2 p q) - x1 (ix2 (0 : Fin 1) q))
          * Ideal.rsqrt (x2 (ix2 (0 : Fin 1) q) + Ideal.ofBits .f32 0x3727C5AC#32) * x3 (ix2 (0 : Fin 1) q)
          + x4 (ix2 (0 : Fin 1) q)) (Ideal.ofBits .f32 0x00000000#32) := by
  unfold Gen.k3_pay1
  rw [addf_apply, maximumf_apply, addf_apply, mulf_apply, mulf_apply, subf_apply]
  refine congrArg₂ (· + ·) ?_ (congrArg₂ max (congrArg₂ (· + ·) (congrArg₂ (· * ·) (congrArg₂ (· * ·)
    (congrArg₂ (· - ·) ?_ ?_) ?_) ?_) ?_) rfl)
  · rw [shapeCast_self]
  · rw [shapeCast_self]
  · refine (broadcastTo_1b_ab_apply _ _ p q).trans ?_
    rw [shapeCast_self]
  · refine (broadcastTo_1b_ab_apply _ _ p q).trans ?_
    rw [shapeCast_self]
    rfl
  · refine (broadcastTo_1b_ab_apply _ _ p q).trans ?_
    rw [shapeCast_self]
  · refine (broadcastTo_1b_ab_apply _ _ p q).trans ?_
    rw [shapeCast_self]

/-- The second layer's is the same body. -/
theorem pay6 (x0 : Vec Ideal S5000x146 .f32) (x1 x2 x3 x4 : Vec Ideal S1x146 .f32) (x5 : Vec Ideal S5000x146 .f32)
    (p : Fin 5000) (q : Fin 146) :
    Gen.k6_pay1 (F := Ideal) x0 x1 x2 x3 x4 x5 (ix2 p q)
      = x5 (ix2 p q) + max ((x0 (ix2 p q) - x1 (ix2 (0 : Fin 1) q))
          * Ideal.rsqrt (x2 (ix2 (0 : Fin 1) q) + Ideal.ofBits .f32 0x3727C5AC#32) * x3 (ix2 (0 : Fin 1) q)
          + x4 (ix2 (0 : Fin 1) q)) (Ideal.ofBits .f32 0x00000000#32) :=
  pay3 x0 x1 x2 x3 x4 x5 p q

end Cert.KernelIdeal.Payload

end
-- ==== Proof.Region0.lean ====
/-
  The embedding region's result array.  The region runs the embedding's body at 20 points; point t reads rows
  5000 t … 5000 t + 4999 of the node features, the whole weight matrix and the whole bias row, and writes back rows
  5000 t … 5000 t + 4999 of the result.  Entry (p, q) of what point t writes is the embedding's entry
  (5000 t + p, q), because the body's entry (p, q) reads only row p of its block; the 20 blocks of rows fill the
  array, so the array after the region is the embedding of the arrays the region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-- The block indices at point t: the node arrays' blocks move with t along the rows, the small operands stay at
    block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks at a point -/

/-- The features' block at point t is rows 5000 t … of the features. -/
theorem rows0 (c : Dev nD) (t : Fin cfg0.N) (y : S5000x128.Idx) (z : S100000x128.Idx)
    (h0 : (z 0).val = t.val * 5000 + (y 0).val) (h1 : (z 1).val = (y 1).val) :
    (iblk0 V c 0 t : Vec Ideal S5000x128 .f32) y = (V c (Pipeline.arrRef spec0 0) : Vec Ideal S100000x128 .f32) z := by
  obtain ⟨e0, e1, -⟩ := index_facts t
  show V c (Pipeline.arrRef spec0 0) (((cfg0.win 0).blk t).view.emb y) = V c (Pipeline.arrRef spec0 0) z
  refine congrArg (V c (Pipeline.arrRef spec0 0)) (funext fun a => Fin.ext ?_)
  match a with
  | ⟨0, _⟩ => show win0_0.index t (0 : Fin 2) * 5000 + 1 * (y 0).val = (z 0).val; omega
  | ⟨1, _⟩ => show win0_0.index t (1 : Fin 2) * 128 + 1 * (y 1).val = (z 1).val; omega

/-- The weights' block at every point is the whole matrix. -/
theorem whole1 (c : Dev nD) (t : Fin cfg0.N) :
    (iblk0 V c 1 t : Vec Ideal S128x146 .f32) = (V c (Pipeline.arrRef spec0 1) : Vec Ideal S128x146 .f32) := by
  obtain ⟨-, -, e0, e1, -⟩ := index_facts t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 146 + 1 * (y 1).val = (y 1).val; omega

/-- The bias row's block at every point is the whole row. -/
theorem whole2 (c : Dev nD) (t : Fin cfg0.N) :
    (iblk0 V c 2 t : Vec Ideal S1x146 .f32) = (V c (Pipeline.arrRef spec0 2) : Vec Ideal S1x146 .f32) := by
  obtain ⟨-, -, -, -, e0, e1, -⟩ := index_facts t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 146 + 1 * (y 1).val = (y 1).val; omega

/-! ## The body at one entry of a point's block -/

/-- If a block x0 holds rows 5000 T … of an array A0, the body's entry j on (x0, A1, A2) is the embedding's entry
    of (A0, A1, A2) at row 5000 T + (j's row), j's column. -/
theorem point (x0 : Vec Ideal S5000x128 .f32) (x1 : Vec Ideal S128x146 .f32) (x2 : Vec Ideal S1x146 .f32)
    (A0 : Vec Ideal S100000x128 .f32) (A1 : Vec Ideal S128x146 .f32) (A2 : Vec Ideal S1x146 .f32)
    (j : S5000x146.Idx) (i : S100000x146.Idx) (T : Nat)
    (hi0 : (i 0).val = T * 5000 + (j 0).val) (hi1 : (i 1).val = (j 1).val)
    (h0 : ∀ (y : S5000x128.Idx) (z : S100000x128.Idx), (z 0).val = T * 5000 + (y 0).val → (z 1).val = (y 1).val → x0 y = A0 z)
    (h1 : x1 = A1) (h2 : x2 = A2) :
    Gen.k0_pay1 (F := Ideal) x0 x1 x2 j = embedK A0 A1 A2 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h1 h2
  rw [Payload.pay0]
  show _ = (∑ k : Fin 128, A0 (ix2 P k) * x1 (ix2 k Q)) + x2 (ix2 (0 : Fin 1) Q)
  refine congrArg₂ (· + ·) (Finset.sum_congr rfl fun k _ => ?_) rfl
  rw [h0 (ix2 p k) (ix2 P k) hP rfl]

/-! ## What a point writes back, and the array after the region -/

/-- What point t writes back is block t of the embedding of the arrays the region found. -/
theorem flushed_eq (c : Dev nD) (t : Fin cfg0.N) :
    (dat0 (F := Ideal) V c).flushed 3 t = ((cfg0.win 3).blk t).view.read (Elt Ideal)
      (embedK (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zeros]
  simp only [View.ld_unit_zero (S := S5000x128) zeros, View.ld_unit_zero (S := S128x146) zeros, View.ld_unit_zero (S := S1x146) zeros]
  obtain ⟨-, -, -, -, -, -, e0, e1⟩ := index_facts t
  funext j
  show Gen.k0_pay1 (F := Ideal) (iblk0 V c 0 t) (iblk0 V c 1 t) (iblk0 V c 2 t) j
    = embedK (V c (Pipeline.arrRef spec0 0)) (V c (Pipeline.arrRef spec0 1)) (V c (Pipeline.arrRef spec0 2)) (((cfg0.win 3).blk t).view.emb j)
  refine point (iblk0 V c 0 t) (iblk0 V c 1 t) (iblk0 V c 2 t) _ _ _ j _ t.val ?_ ?_
    (fun y z h0 h1 => rows0 V c t y z h0 h1) (whole1 V c t) (whole2 V c t)
  · show win0_3.index t (0 : Fin 2) * 5000 + 1 * (j 0).val = t.val * 5000 + (j 0).val; omega
  · show win0_3.index t (1 : Fin 2) * 146 + 1 * (j 1).val = (j 1).val; omega

/-- An index of the result array is in point t's block iff each coordinate is in the block's range on its axis. -/
theorem mem_blk (t : Fin cfg0.N) (i : S100000x146.Idx) :
    i ∈ ((cfg0.win 3).blk t).view.set ↔ ∀ a : Fin 2, win0_3.index t a * S5000x146.size a ≤ (i a).val
      ∧ (i a).val < win0_3.index t a * S5000x146.size a + S5000x146.size a := by
  show i ∈ ((View.whole main_v1).slice (win0_3.rect t)).set ↔ _
  rw [View.set_slice_whole, Rect.mem_set_unit]
  exact Iff.rfl

/-- Row r of the result array is in the block of point r / 5000. -/
theorem cover (i : S100000x146.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 146 := (i 1).isLt
  have ht : (i 0).val / 5000 < cfg0.N := by rw [hN]; omega
  obtain ⟨-, -, -, -, -, -, e0, e1⟩ := index_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 146 ≤ (i 1).val
      ∧ (i 1).val < win0_3.index ⟨(i 0).val / 5000, ht⟩ (1 : Fin 2) * 146 + 146
    rw [e1]; omega

/-- The result array after the region is the embedding of the arrays the region found. -/
theorem final (c : Dev nD) :
    (dat0 (F := Ideal) V c).arrAt 3 cfg0.N
      = embedK (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.Region0

end
-- ==== Proof.Region1.lean ====
/-
  The first layer's projection region's result array.  The region runs the projection's body at 20 points; point t
  reads rows 5000 t … 5000 t + 4999 of the node features and of the column of per-node factors, and the whole weight
  matrix, and writes back rows 5000 t … 5000 t + 4999 of the result.  Entry (p, q) of what point t writes is the
  projection's entry (5000 t + p, q), because the body's entry (p, q) reads only row p of its blocks; the 20 blocks
  of rows fill the array, so the array after the region is the projection of the arrays the region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The node features: block t of rows at point t. -/
theorem index0 : ∀ t : Fin cfg1.N, win1_0.index t (0 : Fin 2) = t.val ∧ win1_0.index t (1 : Fin 2) = 0 :=
  (by decide +kernel : ∀ t : Fin grid1.N, _)

/-- The column of per-node factors: block t of rows at point t. -/
theorem index1 : ∀ t : Fin cfg1.N, win1_1.index t (0 : Fin 2) = t.val ∧ win1_1.index t (1 : Fin 2) = 0 :=
  (by decide +kernel : ∀ t : Fin grid1.N, _)

/-- The weight matrix: the one block (0, 0) at every point. -/
theorem index2 : ∀ t : Fin cfg1.N, win1_2.index t (0 : Fin 2) = 0 ∧ win1_2.index t (1 : Fin 2) = 0 :=
  (by decide +kernel : ∀ t : Fin grid1.N, _)

/-- The result: block t of rows at point t. -/
theorem index3 : ∀ t : Fin cfg1.N, win1_3.index t (0 : Fin 2) = t.val ∧ win1_3.index t (1 : Fin 2) = 0 :=
  (by decide +kernel : ∀ t : Fin grid1.N, _)

/-! ## The input blocks at a point -/

/-- The block of the node features at point t is rows 5000 t … of the array. -/
theorem rows0 (c : Dev nD) (t : Fin cfg1.N) (y : S5000x146.Idx) (z : S100000x146.Idx)
    (h0 : (z 0).val = t.val * 5000 + (y 0).val) (h1 : (z 1).val = (y 1).val) :
    (iblk1 V c 0 t : Vec Ideal S5000x146 .f32) y = (V c (Pipeline.arrRef spec1 0) : Vec Ideal S100000x146 .f32) z := by
  obtain ⟨e0, e1⟩ := index0 t
  show V c (Pipeline.arrRef spec1 0) (((cfg1.win 0).blk t).view.emb y) = V c (Pipeline.arrRef spec1 0) z
  refine congrArg (V c (Pipeline.arrRef spec1 0)) (funext fun a => Fin.ext ?_)
  match a with
  | ⟨0, _⟩ => show win1_0.index t (0 : Fin 2) * 5000 + 1 * (y 0).val = (z 0).val; omega
  | ⟨1, _⟩ => show win1_0.index t (1 : Fin 2) * 146 + 1 * (y 1).val = (z 1).val; omega

/-- The block of the column of per-node factors at point t is rows 5000 t … of the array. -/
theorem rows1 (c : Dev nD) (t : Fin cfg1.N) (y : S5000x1.Idx) (z : S100000x1.Idx)
    (h0 : (z 0).val = t.val * 5000 + (y 0).val) (h1 : (z 1).val = (y 1).val) :
    (iblk1 V c 1 t : Vec Ideal S5000x1 .f32) y = (V c (Pipeline.arrRef spec1 1) : Vec Ideal S100000x1 .f32) z := by
  obtain ⟨e0, e1⟩ := index1 t
  show V c (Pipeline.arrRef spec1 1) (((cfg1.win 1).blk t).view.emb y) = V c (Pipeline.arrRef spec1 1) z
  refine congrArg (V c (Pipeline.arrRef spec1 1)) (funext fun a => Fin.ext ?_)
  match a with
  | ⟨0, _⟩ => show win1_1.index t (0 : Fin 2) * 5000 + 1 * (y 0).val = (z 0).val; omega
  | ⟨1, _⟩ => show win1_1.index t (1 : Fin 2) * 1 + 1 * (y 1).val = (z 1).val; omega

/-- The block of the weight matrix at every point is the whole array. -/
theorem whole2 (c : Dev nD) (t : Fin cfg1.N) :
    (iblk1 V c 2 t : Vec Ideal S146x146 .f32) = (V c (Pipeline.arrRef spec1 2) : Vec Ideal S146x146 .f32) := by
  obtain ⟨e0, e1⟩ := index2 t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 146 + 1 * (y 0).val = (y 0).val; omega
  | ⟨1, _⟩ => show win1_2.index t (1 : Fin 2) * 146 + 1 * (y 1).val = (y 1).val; omega

/-! ## The body at one entry of a point's block -/

/-- If the blocks x0, x1 hold rows 5000 T … of the arrays A0, A1, the body's entry j on (x0, x1, A2) is the
    projection's entry of (A0, A1, A2) at row 5000 T + (j's row), j's column. -/
theorem point (x0 : Vec Ideal S5000x146 .f32) (x1 : Vec Ideal S5000x1 .f32) (x2 : Vec Ideal S146x146 .f32)
    (A0 : Vec Ideal S100000x146 .f32) (A1 : Vec Ideal S100000x1 .f32) (A2 : Vec Ideal S146x146 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : ∀ (y : S5000x1.Idx) (z : S100000x1.Idx), (z 0).val = T * 5000 + (y 0).val → (z 1).val = (y 1).val → x1 y = A1 z)
    (h2 : x2 = A2) :
    Gen.k1_pay1 (F := Ideal) x0 x1 x2 j = linK A0 A1 A2 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h2
  rw [Payload.pay1]
  show _ = ∑ k : Fin 146, (A0 (ix2 P k) * A1 (ix2 P (0 : Fin 1))) * x2 (ix2 k Q)
  refine Finset.sum_congr rfl fun k _ => ?_
  rw [h0 (ix2 p k) (ix2 P k) hP rfl, h1 (ix2 p (0 : Fin 1)) (ix2 P (0 : Fin 1)) hP rfl]

/-! ## What a point writes back, and the array after the region -/

/-- What point t writes back is block t of the projection of the arrays the region found. -/
theorem flushed_eq (c : Dev nD) (t : Fin cfg1.N) :
    (dat1 (F := Ideal) V c).flushed 3 t = ((cfg1.win 3).blk t).view.read (Elt Ideal)
      (linK (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zeros]
  simp only [View.ld_unit_zero (S := S5000x146) zeros, View.ld_unit_zero (S := S5000x1) zeros, View.ld_unit_zero (S := S146x146) zeros]
  obtain ⟨e0, e1⟩ := index3 t
  funext j
  show Gen.k1_pay1 (F := Ideal) (iblk1 V c 0 t) (iblk1 V c 1 t) (iblk1 V c 2 t) j
    = linK (V c (Pipeline.arrRef spec1 0)) (V c (Pipeline.arrRef spec1 1)) (V c (Pipeline.arrRef spec1 2)) (((cfg1.win 3).blk t).view.emb j)
  refine point (iblk1 V c 0 t) (iblk1 V c 1 t) (iblk1 V c 2 t) _ _ _ j _ t.val ?_ ?_
    (fun y z h0 h1 => rows0 V c t y z h0 h1) (fun y z h0 h1 => rows1 V c t y z h0 h1) (whole2 V c t)
  · show win1_3.index t (0 : Fin 2) * 5000 + 1 * (j 0).val = t.val * 5000 + (j 0).val; omega
  · show win1_3.index t (1 : Fin 2) * 146 + 1 * (j 1).val = (j 1).val; omega

/-- An index of the result array is in point t's block iff each coordinate is in the block's range on its axis. -/
theorem mem_blk (t : Fin cfg1.N) (i : S100000x146.Idx) :
    i ∈ ((cfg1.win 3).blk t).view.set ↔ ∀ a : Fin 2, win1_3.index t a * S5000x146.size a ≤ (i a).val
      ∧ (i a).val < win1_3.index t a * S5000x146.size a + S5000x146.size a := by
  show i ∈ ((View.whole main_v16).slice (win1_3.rect t)).set ↔ _
  rw [View.set_slice_whole, Rect.mem_set_unit]
  exact Iff.rfl

/-- Row r of the result array is in the block of point r / 5000. -/
theorem cover (i : S100000x146.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 146 := (i 1).isLt
  have ht : (i 0).val / 5000 < cfg1.N := by rw [hN]; omega
  obtain ⟨e0, e1⟩ := index3 ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 146 ≤ (i 1).val
      ∧ (i 1).val < win1_3.index ⟨(i 0).val / 5000, ht⟩ (1 : Fin 2) * 146 + 146
    rw [e1]; omega

/-- The result array after the region is the projection of the arrays the region found. -/
theorem final (c : Dev nD) :
    (dat1 (F := Ideal) V c).arrAt 3 cfg1.N
      = linK (V c (Pipeline.arrRef spec1 0)) (V c (Pipeline.arrRef spec1 1)) (V c (Pipeline.arrRef spec1 2)) :=
  (dat1 (F := Ideal) V c).arrAt_eq_of_cover 3 _ (fun t _ => flushed_eq V c t) cover

end Cert.KernelIdeal.Region1

end
-- ==== Proof.Region2.lean ====
/-
  The first layer's pre-normalisation region's result array.  The region runs the scaling body at 20 points; point t
  reads rows 5000 t … 5000 t + 4999 of the aggregated messages and of the two columns of per-node factors, and the
  whole bias row, and writes back rows 5000 t … 5000 t + 4999 of the result.  Entry (p, q) of what point t writes is
  the pre-normalisation entry (5000 t + p, q), because the body's entry (p, q) reads only row p of its blocks; the
  20 blocks of rows fill the array, so the array after the region is the pre-normalisation of the arrays the
  region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The aggregated messages: block t of rows at point t. -/
theorem index0 : ∀ t : Fin cfg2.N, win2_0.index t (0 : Fin 2) = t.val ∧ win2_0.index t (1 : Fin 2) = 0 :=
  (by decide +kernel : ∀ t : Fin grid2.N, _)

/-- The first column of per-node factors: block t of rows at point t. -/
theorem index1 : ∀ t : Fin cfg2.N, win2_1.index t (0 : Fin 2) = t.val ∧ win2_1.index t (1 : Fin 2) = 0 :=
  (by decide +kernel : ∀ t : Fin grid2.N, _)

/-- The bias row: the one block (0, 0) at every point. -/
theorem index2 : ∀ t : Fin cfg2.N, win2_2.index t (0 : Fin 2) = 0 ∧ win2_2.index t (1 : Fin 2) = 0 :=
  (by decide +kernel : ∀ t : Fin grid2.N, _)

/-- The second column of per-node factors: block t of rows at point t. -/
theorem index3 : ∀ t : Fin cfg2.N, win2_3.index t (0 : Fin 2) = t.val ∧ win2_3.index t (1 : Fin 2) = 0 :=
  (by decide +kernel : ∀ t : Fin grid2.N, _)

/-- The result: block t of rows at point t. -/
theorem index4 : ∀ t : Fin cfg2.N, win2_4.index t (0 : Fin 2) = t.val ∧ win2_4.index t (1 : Fin 2) = 0 :=
  (by decide +kernel : ∀ t : Fin grid2.N, _)

/-! ## The input blocks at a point -/

/-- The block of the aggregated messages at point t is rows 5000 t … of the array. -/
theorem rows0 (c : Dev nD) (t : Fin cfg2.N) (y : S5000x146.Idx) (z : S100000x146.Idx)
    (h0 : (z 0).val = t.val * 5000 + (y 0).val) (h1 : (z 1).val = (y 1).val) :
    (iblk2 V c 0 t : Vec Ideal S5000x146 .f32) y = (V c (Pipeline.arrRef spec2 0) : Vec Ideal S100000x146 .f32) z := by
  obtain ⟨e0, e1⟩ := index0 t
  show V c (Pipeline.arrRef spec2 0) (((cfg2.win 0).blk t).view.emb y) = V c (Pipeline.arrRef spec2 0) z
  refine congrArg (V c (Pipeline.arrRef spec2 0)) (funext fun a => Fin.ext ?_)
  match a with
  | ⟨0, _⟩ => show win2_0.index t (0 : Fin 2) * 5000 + 1 * (y 0).val = (z 0).val; omega
  | ⟨1, _⟩ => show win2_0.index t (1 : Fin 2) * 146 + 1 * (y 1).val = (z 1).val; omega

/-- The block of the first column of per-node factors at point t is rows 5000 t … of the array. -/
theorem rows1 (c : Dev nD) (t : Fin cfg2.N) (y : S5000x1.Idx) (z : S100000x1.Idx)
    (h0 : (z 0).val = t.val * 5000 + (y 0).val) (h1 : (z 1).val = (y 1).val) :
    (iblk2 V c 1 t : Vec Ideal S5000x1 .f32) y = (V c (Pipeline.arrRef spec2 1) : Vec Ideal S100000x1 .f32) z := by
  obtain ⟨e0, e1⟩ := index1 t
  show V c (Pipeline.arrRef spec2 1) (((cfg2.win 1).blk t).view.emb y) = V c (Pipeline.arrRef spec2 1) z
  refine congrArg (V c (Pipeline.arrRef spec2 1)) (funext fun a => Fin.ext ?_)
  match a with
  | ⟨0, _⟩ => show win2_1.index t (0 : Fin 2) * 5000 + 1 * (y 0).val = (z 0).val; omega
  | ⟨1, _⟩ => show win2_1.index t (1 : Fin 2) * 1 + 1 * (y 1).val = (z 1).val; omega

/-- The block of the bias row at every point is the whole array. -/
theorem whole2 (c : Dev nD) (t : Fin cfg2.N) :
    (iblk2 V c 2 t : Vec Ideal S1x146 .f32) = (V c (Pipeline.arrRef spec2 2) : Vec Ideal S1x146 .f32) := by
  obtain ⟨e0, e1⟩ := index2 t
  funext y
  show V c (Pipeline.arrRef spec2 2) (((cfg2.win 2).blk t).view.emb y) = V c (Pipeline.arrRef spec2 2) y
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 146 + 1 * (y 1).val = (y 1).val; omega

/-- The block of the second column of per-node factors at point t is rows 5000 t … of the array. -/
theorem rows3 (c : Dev nD) (t : Fin cfg2.N) (y : S5000x1.Idx) (z : S100000x1.Idx)
    (h0 : (z 0).val = t.val * 5000 + (y 0).val) (h1 : (z 1).val = (y 1).val) :
    (iblk2 V c 3 t : Vec Ideal S5000x1 .f32) y = (V c (Pipeline.arrRef spec2 3) : Vec Ideal S100000x1 .f32) z := by
  obtain ⟨e0, e1⟩ := index3 t
  show V c (Pipeline.arrRef spec2 3) (((cfg2.win 3).blk t).view.emb y) = V c (Pipeline.arrRef spec2 3) z
  refine congrArg (V c (Pipeline.arrRef spec2 3)) (funext fun a => Fin.ext ?_)
  match a with
  | ⟨0, _⟩ => show win2_3.index t (0 : Fin 2) * 5000 + 1 * (y 0).val = (z 0).val; omega
  | ⟨1, _⟩ => show win2_3.index t (1 : Fin 2) * 1 + 1 * (y 1).val = (z 1).val; omega

/-! ## The body at one entry of a point's block -/

/-- If the blocks x0, x1, x3 hold rows 5000 T … of the arrays A0, A1, A3, the body's entry j on (x0, x1, A2, x3)
    is the pre-normalisation entry of (A0, A1, A2, A3) at row 5000 T + (j's row), j's column. -/
theorem point (x0 : Vec Ideal S5000x146 .f32) (x1 : Vec Ideal S5000x1 .f32) (x2 : Vec Ideal S1x146 .f32) (x3 : Vec Ideal S5000x1 .f32)
    (A0 : Vec Ideal S100000x146 .f32) (A1 : Vec Ideal S100000x1 .f32) (A2 : Vec Ideal S1x146 .f32) (A3 : Vec Ideal S100000x1 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : ∀ (y : S5000x1.Idx) (z : S100000x1.Idx), (z 0).val = T * 5000 + (y 0).val → (z 1).val = (y 1).val → x1 y = A1 z)
    (h2 : x2 = A2)
    (h3 : ∀ (y : S5000x1.Idx) (z : S100000x1.Idx), (z 0).val = T * 5000 + (y 0).val → (z 1).val = (y 1).val → x3 y = A3 z) :
    Gen.k2_pay1 (F := Ideal) x0 x1 x2 x3 j = preK A0 A1 A2 A3 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h2
  rw [Payload.pay2]
  show _ = (A0 (ix2 P Q) * A1 (ix2 P (0 : Fin 1)) + x2 (ix2 (0 : Fin 1) Q)) * A3 (ix2 P (0 : Fin 1))
  rw [h0 (ix2 p Q) (ix2 P Q) hP rfl, h1 (ix2 p (0 : Fin 1)) (ix2 P (0 : Fin 1)) hP rfl,
    h3 (ix2 p (0 : Fin 1)) (ix2 P (0 : Fin 1)) hP rfl]

/-! ## What a point writes back, and the array after the region -/

/-- What point t writes back is block t of the pre-normalisation of the arrays the region found. -/
theorem flushed_eq (c : Dev nD) (t : Fin cfg2.N) :
    (dat2 (F := Ideal) V c).flushed 4 t = ((cfg2.win 4).blk t).view.read (Elt Ideal)
      (preK (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero zeros]
  simp only [View.ld_unit_zero (S := S5000x146) zeros, View.ld_unit_zero (S := S5000x1) zeros, View.ld_unit_zero (S := S1x146) zeros]
  obtain ⟨e0, e1⟩ := index4 t
  funext j
  show Gen.k2_pay1 (F := Ideal) (iblk2 V c 0 t) (iblk2 V c 1 t) (iblk2 V c 2 t) (iblk2 V c 3 t) j
    = preK (V c (Pipeline.arrRef spec2 0)) (V c (Pipeline.arrRef spec2 1)) (V c (Pipeline.arrRef spec2 2)) (V c (Pipeline.arrRef spec2 3)) (((cfg2.win 4).blk t).view.emb j)
  refine point (iblk2 V c 0 t) (iblk2 V c 1 t) (iblk2 V c 2 t) (iblk2 V c 3 t) _ _ _ _ j _ t.val ?_ ?_
    (fun y z h0 h1 => rows0 V c t y z h0 h1) (fun y z h0 h1 => rows1 V c t y z h0 h1) (whole2 V c t) (fun y z h0 h1 => rows3 V c t y z h0 h1)
  · show win2_4.index t (0 : Fin 2) * 5000 + 1 * (j 0).val = t.val * 5000 + (j 0).val; omega
  · show win2_4.index t (1 : Fin 2) * 146 + 1 * (j 1).val = (j 1).val; omega

/-- An index of the result array is in point t's block iff each coordinate is in the block's range on its axis. -/
theorem mem_blk (t : Fin cfg2.N) (i : S100000x146.Idx) :
    i ∈ ((cfg2.win 4).blk t).view.set ↔ ∀ a : Fin 2, win2_4.index t a * S5000x146.size a ≤ (i a).val
      ∧ (i a).val < win2_4.index t a * S5000x146.size a + S5000x146.size a := by
  show i ∈ ((View.whole main_v31).slice (win2_4.rect t)).set ↔ _
  rw [View.set_slice_whole, Rect.mem_set_unit]
  exact Iff.rfl

/-- Row r of the result array is in the block of point r / 5000. -/
theorem cover (i : S100000x146.Idx) :
    ∃ t : Fin cfg2.N, (cfg2.win 4).flush t = true ∧ i ∈ ((cfg2.win 4).blk t).view.set := by
  have hN : cfg2.N = 20 := N_2
  have hi0 : (i 0).val < 100000 := (i 0).isLt
  have hi1 : (i 1).val < 146 := (i 1).isLt
  have ht : (i 0).val / 5000 < cfg2.N := by rw [hN]; omega
  obtain ⟨e0, e1⟩ := index4 ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 146 ≤ (i 1).val
      ∧ (i 1).val < win2_4.index ⟨(i 0).val / 5000, ht⟩ (1 : Fin 2) * 146 + 146
    rw [e1]; omega

/-- The result array after the region is the pre-normalisation of the arrays the region found. -/
theorem final (c : Dev nD) :
    (dat2 (F := Ideal) V c).arrAt 4 cfg2.N
      = preK (V c (Pipeline.arrRef spec2 0)) (V c (Pipeline.arrRef spec2 1)) (V c (Pipeline.arrRef spec2 2)) (V c (Pipeline.arrRef spec2 3)) :=
  (dat2 (F := Ideal) V c).arrAt_eq_of_cover 4 _ (fun t _ => flushed_eq V c t) cover

end Cert.KernelIdeal.Region2

end
-- ==== Proof.Region3.lean ====
/-
  The first layer's normalisation region's result array.  The region runs the normalisation body (normalise with
  given statistics, clamp at zero, add the residual input) at 20 points; point t reads rows 5000 t … 5000 t + 4999
  of the pre-normalised values and of the residual input, and the four whole rows (mean, variance, scale, shift),
  and writes back rows 5000 t … 5000 t + 4999 of the result.  Entry (p, q) of what point t writes is the
  normalisation's entry (5000 t + p, q), because the body's entry (p, q) reads only entry (p, q) of its two blocks
  of rows; the 20 blocks of rows fill the array, so the array after the region is the normalisation of the arrays
  the region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The pre-normalised values: block t of rows at point t. -/
theorem index0 : ∀ t : Fin cfg3.N, win3_0.index t (0 : Fin 2) = t.val ∧ win3_0.index t (1 : Fin 2) = 0 :=
  (by decide +kernel : ∀ t : Fin grid3.N, _)

/-- The mean row: the one block (0, 0) at every point. -/
theorem index1 : ∀ t : Fin cfg3.N, win3_1.index t (0 : Fin 2) = 0 ∧ win3_1.index t (1 : Fin 2) = 0 :=
  (by decide +kernel : ∀ t : Fin grid3.N, _)

/-- The variance row: the one block (0, 0) at every point. -/
theorem index2 : ∀ t : Fin cfg3.N, win3_2.index t (0 : Fin 2) = 0 ∧ win3_2.index t (1 : Fin 2) = 0 :=
  (by decide +kernel : ∀ t : Fin grid3.N, _)

/-- The scale row: the one block (0, 0) at every point. -/
theorem index3 : ∀ t : Fin cfg3.N, win3_3.index t (0 : Fin 2) = 0 ∧ win3_3.index t (1 : Fin 2) = 0 :=
  (by decide +kernel : ∀ t : Fin grid3.N, _)

/-- The shift row: the one block (0, 0) at every point. -/
theorem index4 : ∀ t : Fin cfg3.N, win3_4.index t (0 : Fin 2) = 0 ∧ win3_4.index t (1 : Fin 2) = 0 :=
  (by decide +kernel : ∀ t : Fin grid3.N, _)

/-- The residual input: block t of rows at point t. -/
theorem index5 : ∀ t : Fin cfg3.N, win3_5.index t (0 : Fin 2) = t.val ∧ win3_5.index t (1 : Fin 2) = 0 :=
  (by decide +kernel : ∀ t : Fin grid3.N, _)

/-- The result: block t of rows at point t. -/
theorem index6 : ∀ t : Fin cfg3.N, win3_6.index t (0 : Fin 2) = t.val ∧ win3_6.index t (1 : Fin 2) = 0 :=
  (by decide +kernel : ∀ t : Fin grid3.N, _)

/-! ## The input blocks at a point -/

/-- The block of the pre-normalised values at point t is rows 5000 t … of the array. -/
theorem rows0 (c : Dev nD) (t : Fin cfg3.N) (y : S5000x146.Idx) (z : S100000x146.Idx)
    (h0 : (z 0).val = t.val * 5000 + (y 0).val) (h1 : (z 1).val = (y 1).val) :
    (iblk3 V c 0 t : Vec Ideal S5000x146 .f32) y = (V c (Pipeline.arrRef spec3 0) : Vec Ideal S100000x146 .f32) z := by
  obtain ⟨e0, e1⟩ := index0 t
  show V c (Pipeline.arrRef spec3 0) (((cfg3.win 0).blk t).view.emb y) = V c (Pipeline.arrRef spec3 0) z
  refine congrArg (V c (Pipeline.arrRef spec3 0)) (funext fun a => Fin.ext ?_)
  match a with
  | ⟨0, _⟩ => show win3_0.index t (0 : Fin 2) * 5000 + 1 * (y 0).val = (z 0).val; omega
  | ⟨1, _⟩ => show win3_0.index t (1 : Fin 2) * 146 + 1 * (y 1).val = (z 1).val; omega

/-- The block of the mean row at every point is the whole array. -/
theorem whole1 (c : Dev nD) (t : Fin cfg3.N) :
    (iblk3 V c 1 t : Vec Ideal S1x146 .f32) = (V c (Pipeline.arrRef spec3 1) : Vec Ideal S1x146 .f32) := by
  obtain ⟨e0, e1⟩ := index1 t
  funext y
  show V c (Pipeline.arrRef spec3 1) (((cfg3.win 1).blk t).view.emb y) = V c (Pipeline.arrRef spec3 1) y
  refine congrArg (V c (Pipeline.arrRef spec3 1)) (funext fun a => Fin.ext ?_)
  match a with
  | ⟨0, _⟩ => show win3_1.index t (0 : Fin 2) * 1 + 1 * (y 0).val = (y 0).val; omega
  | ⟨1, _⟩ => show win3_1.index t (1 : Fin 2) * 146 + 1 * (y 1).val = (y 1).val; omega

/-- The block of the variance row at every point is the whole array. -/
theorem whole2 (c : Dev nD) (t : Fin cfg3.N) :
    (iblk3 V c 2 t : Vec Ideal S1x146 .f32) = (V c (Pipeline.arrRef spec3 2) : Vec Ideal S1x146 .f32) := by
  obtain ⟨e0, e1⟩ := index2 t
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 146 + 1 * (y 1).val = (y 1).val; omega

/-- The block of the scale row at every point is the whole array. -/
theorem whole3 (c : Dev nD) (t : Fin cfg3.N) :
    (iblk3 V c 3 t : Vec Ideal S1x146 .f32) = (V c (Pipeline.arrRef spec3 3) : Vec Ideal S1x146 .f32) := by
  obtain ⟨e0, e1⟩ := index3 t
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 146 + 1 * (y 1).val = (y 1).val; omega

/-- The block of the shift row at every point is the whole array. -/
theorem whole4 (c : Dev nD) (t : Fin cfg3.N) :
    (iblk3 V c 4 t : Vec Ideal S1x146 .f32) = (V c (Pipeline.arrRef spec3 4) : Vec Ideal S1x146 .f32) := by
  obtain ⟨e0, e1⟩ := index4 t
  funext y
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 146 + 1 * (y 1).val = (y 1).val; omega

/-- The block of the residual input at point t is rows 5000 t … of the array. -/
theorem rows5 (c : Dev nD) (t : Fin cfg3.N) (y : S5000x146.Idx) (z : S100000x146.Idx)
    (h0 : (z 0).val = t.val * 5000 + (y 0).val) (h1 : (z 1).val = (y 1).val) :
    (iblk3 V c 5 t : Vec Ideal S5000x146 .f32) y = (V c (Pipeline.arrRef spec3 5) : Vec Ideal S100000x146 .f32) z := by
  obtain ⟨e0, e1⟩ := index5 t
  show V c (Pipeline.arrRef spec3 5) (((cfg3.win 5).blk t).view.emb y) = V c (Pipeline.arrRef spec3 5) z
  refine congrArg (V c (Pipeline.arrRef spec3 5)) (funext fun a => Fin.ext ?_)
  match a with
  | ⟨0, _⟩ => show win3_5.index t (0 : Fin 2) * 5000 + 1 * (y 0).val = (z 0).val; omega
  | ⟨1, _⟩ => show win3_5.index t (1 : Fin 2) * 146 + 1 * (y 1).val = (z 1).val; omega

/-! ## The body at one entry of a point's block -/

/-- If the blocks x0, x5 hold rows 5000 T … of the arrays A0, A5, the body's entry j on (x0, A1, A2, A3, A4, x5) is
    the normalisation's entry of (A0, A1, A2, A3, A4, A5) at row 5000 T + (j's row), j's column. -/
theorem point (x0 : Vec Ideal S5000x146 .f32) (x1 : Vec Ideal S1x146 .f32) (x2 : Vec Ideal S1x146 .f32) (x3 : Vec Ideal S1x146 .f32) (x4 : Vec Ideal S1x146 .f32) (x5 : Vec Ideal S5000x146 .f32)
    (A0 : Vec Ideal S100000x146 .f32) (A1 : Vec Ideal S1x146 .f32) (A2 : Vec Ideal S1x146 .f32) (A3 : Vec Ideal S1x146 .f32) (A4 : Vec Ideal S1x146 .f32) (A5 : Vec Ideal S100000x146 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : x1 = A1)
    (h2 : x2 = A2)
    (h3 : x3 = A3)
    (h4 : x4 = A4)
    (h5 : ∀ (y : S5000x146.Idx) (z : S100000x146.Idx), (z 0).val = T * 5000 + (y 0).val → (z 1).val = (y 1).val → x5 y = A5 z) :
    Gen.k3_pay1 (F := Ideal) x0 x1 x2 x3 x4 x5 j = bnK A0 A1 A2 A3 A4 A5 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h1 h2 h3 h4
  rw [Payload.pay3]
  show _ = A5 (ix2 P Q) + max ((A0 (ix2 P Q) - x1 (ix2 (0 : Fin 1) Q))
      * Ideal.rsqrt (x2 (ix2 (0 : Fin 1) Q) + Ideal.ofBits .f32 0x3727C5AC#32) * x3 (ix2 (0 : Fin 1) Q)
      + x4 (ix2 (0 : Fin 1) Q)) (Ideal.ofBits .f32 0x00000000#32)
  rw [h0 (ix2 p Q) (ix2 P Q) hP rfl, h5 (ix2 p Q) (ix2 P Q) hP rfl]

/-! ## What a point writes back, and the array after the region -/

/-- What point t writes back is block t of the normalisation of the arrays the region found. -/
theorem flushed_eq (c : Dev nD) (t : Fin cfg3.N) :
    (dat3 (F := Ideal) V c).flushed 6 t = ((cfg3.win 6).blk t).view.read (Elt Ideal)
      (bnK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero zeros]
  simp only [View.ld_unit_zero (S := S5000x146) zeros, View.ld_unit_zero (S := S1x146) zeros]
  obtain ⟨e0, e1⟩ := index6 t
  funext j
  show Gen.k3_pay1 (F := Ideal) (iblk3 V c 0 t) (iblk3 V c 1 t) (iblk3 V c 2 t) (iblk3 V c 3 t) (iblk3 V c 4 t) (iblk3 V c 5 t) j
    = bnK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb j)
  refine point (iblk3 V c 0 t) (iblk3 V c 1 t) (iblk3 V c 2 t) (iblk3 V c 3 t) (iblk3 V c 4 t) (iblk3 V c 5 t) _ _ _ _ _ _ j _ t.val ?_ ?_
    (fun y z h0 h1 => rows0 V c t y z h0 h1) (whole1 V c t) (whole2 V c t) (whole3 V c t) (whole4 V c t) (fun y z h0 h1 => rows5 V c t y z h0 h1)
  · show win3_6.index t (0 : Fin 2) * 5000 + 1 * (j 0).val = t.val * 5000 + (j 0).val; omega
  · show win3_6.index t (1 : Fin 2) * 146 + 1 * (j 1).val = (j 1).val; omega

/-- An index of the result array is in point t's block iff each coordinate is in the block's range on its axis. -/
theorem mem_blk (t : Fin cfg3.N) (i : S100000x146.Idx) :
    i ∈ ((cfg3.win 6).blk t).view.set ↔ ∀ a : Fin 2, win3_6.index t a * S5000x146.size a ≤ (i a).val
      ∧ (i a).val < win3_6.index t a * S5000x146.size a + S5000x146.size a := by
  show i ∈ ((View.whole main_v40).slice (win3_6.rect t)).set ↔ _
  rw [View.set_slice_whole, Rect.mem_set_unit]
  exact Iff.rfl

/-- Row r of the result array is in the block of point r / 5000. -/
theorem cover (i : S100000x146.Idx) :
    ∃ t : Fin cfg3.N, (cfg3.win 6).flush t = true ∧ i ∈ ((cfg3.win 6).blk t).view.set := by
  have hN : cfg3.N = 20 := N_3
  have hi0 : (i 0).val < 100000 := (i 0).isLt
  have hi1 : (i 1).val < 146 := (i 1).isLt
  have ht : (i 0).val / 5000 < cfg3.N := by rw [hN]; omega
  obtain ⟨e0, e1⟩ := index6 ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 146 ≤ (i 1).val
      ∧ (i 1).val < win3_6.index ⟨(i 0).val / 5000, ht⟩ (1 : Fin 2) * 146 + 146
    rw [e1]; omega

/-- The result array after the region is the normalisation of the arrays the region found. -/
theorem final (c : Dev nD) :
    (dat3 (F := Ideal) V c).arrAt 6 cfg3.N
      = bnK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed_eq V c t) cover

end Cert.KernelIdeal.Region3

end
-- ==== Proof.Region4.lean ====
/-
  The second layer's projection region's result array.  The region runs the projection's body at 20 points; point t
  reads rows 5000 t … 5000 t + 4999 of the node features and of the column of per-node factors, and the whole weight
  matrix, and writes back rows 5000 t … 5000 t + 4999 of the result.  Entry (p, q) of what point t writes is the
  projection's entry (5000 t + p, q), because the body's entry (p, q) reads only row p of its blocks; the 20 blocks
  of rows fill the array, so the array after the region is the projection of the arrays the region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The node features: block t of rows at point t. -/
theorem index0 : ∀ t : Fin cfg4.N, win4_0.index t (0 : Fin 2) = t.val ∧ win4_0.index t (1 : Fin 2) = 0 :=
  (by decide +kernel : ∀ t : Fin grid4.N, _)

/-- The column of per-node factors: block t of rows at point t. -/
theorem index1 : ∀ t : Fin cfg4.N, win4_1.index t (0 : Fin 2) = t.val ∧ win4_1.index t (1 : Fin 2) = 0 :=
  (by decide +kernel : ∀ t : Fin grid4.N, _)

/-- The weight matrix: the one block (0, 0) at every point. -/
theorem index2 : ∀ t : Fin cfg4.N, win4_2.index t (0 : Fin 2) = 0 ∧ win4_2.index t (1 : Fin 2) = 0 :=
  (by decide +kernel : ∀ t : Fin grid4.N, _)

/-- The result: block t of rows at point t. -/
theorem index3 : ∀ t : Fin cfg4.N, win4_3.index t (0 : Fin 2) = t.val ∧ win4_3.index t (1 : Fin 2) = 0 :=
  (by decide +kernel : ∀ t : Fin grid4.N, _)

/-! ## The input blocks at a point -/

/-- The block of the node features at point t is rows 5000 t … of the array. -/
theorem rows0 (c : Dev nD) (t : Fin cfg4.N) (y : S5000x146.Idx) (z : S100000x146.Idx)
    (h0 : (z 0).val = t.val * 5000 + (y 0).val) (h1 : (z 1).val = (y 1).val) :
    (iblk4 V c 0 t : Vec Ideal S5000x146 .f32) y = (V c (Pipeline.arrRef spec4 0) : Vec Ideal S100000x146 .f32) z := by
  obtain ⟨e0, e1⟩ := index0 t
  show V c (Pipeline.arrRef spec4 0) (((cfg4.win 0).blk t).view.emb y) = V c (Pipeline.arrRef spec4 0) z
  refine congrArg (V c (Pipeline.arrRef spec4 0)) (funext fun a => Fin.ext ?_)
  match a with
  | ⟨0, _⟩ => show win4_0.index t (0 : Fin 2) * 5000 + 1 * (y 0).val = (z 0).val; omega
  | ⟨1, _⟩ => show win4_0.index t (1 : Fin 2) * 146 + 1 * (y 1).val = (z 1).val; omega

/-- The block of the column of per-node factors at point t is rows 5000 t … of the array. -/
theorem rows1 (c : Dev nD) (t : Fin cfg4.N) (y : S5000x1.Idx) (z : S100000x1.Idx)
    (h0 : (z 0).val = t.val * 5000 + (y 0).val) (h1 : (z 1).val = (y 1).val) :
    (iblk4 V c 1 t : Vec Ideal S5000x1 .f32) y = (V c (Pipeline.arrRef spec4 1) : Vec Ideal S100000x1 .f32) z := by
  obtain ⟨e0, e1⟩ := index1 t
  show V c (Pipeline.arrRef spec4 1) (((cfg4.win 1).blk t).view.emb y) = V c (Pipeline.arrRef spec4 1) z
  refine congrArg (V c (Pipeline.arrRef spec4 1)) (funext fun a => Fin.ext ?_)
  match a with
  | ⟨0, _⟩ => show win4_1.index t (0 : Fin 2) * 5000 + 1 * (y 0).val = (z 0).val; omega
  | ⟨1, _⟩ => show win4_1.index t (1 : Fin 2) * 1 + 1 * (y 1).val = (z 1).val; omega

/-- The block of the weight matrix at every point is the whole array. -/
theorem whole2 (c : Dev nD) (t : Fin cfg4.N) :
    (iblk4 V c 2 t : Vec Ideal S146x146 .f32) = (V c (Pipeline.arrRef spec4 2) : Vec Ideal S146x146 .f32) := by
  obtain ⟨e0, e1⟩ := index2 t
  funext y
  show V c (Pipeline.arrRef spec4 2) (((cfg4.win 2).blk t).view.emb y) = V c (Pipeline.arrRef spec4 2) y
  refine congrArg (V c (Pipeline.arrRef spec4 2)) (funext fun a => Fin.ext ?_)
  match a with
  | ⟨0, _⟩ => show win4_2.index t (0 : Fin 2) * 146 + 1 * (y 0).val = (y 0).val; omega
  | ⟨1, _⟩ => show win4_2.index t (1 : Fin 2) * 146 + 1 * (y 1).val = (y 1).val; omega

/-! ## The body at one entry of a point's block -/

/-- If the blocks x0, x1 hold rows 5000 T … of the arrays A0, A1, the body's entry j on (x0, x1, A2) is the
    projection's entry of (A0, A1, A2) at row 5000 T + (j's row), j's column. -/
theorem point (x0 : Vec Ideal S5000x146 .f32) (x1 : Vec Ideal S5000x1 .f32) (x2 : Vec Ideal S146x146 .f32)
    (A0 : Vec Ideal S100000x146 .f32) (A1 : Vec Ideal S100000x1 .f32) (A2 : Vec Ideal S146x146 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : ∀ (y : S5000x1.Idx) (z : S100000x1.Idx), (z 0).val = T * 5000 + (y 0).val → (z 1).val = (y 1).val → x1 y = A1 z)
    (h2 : x2 = A2) :
    Gen.k4_pay1 (F := Ideal) x0 x1 x2 j = linK A0 A1 A2 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h2
  rw [Payload.pay4]
  show _ = ∑ k : Fin 146, (A0 (ix2 P k) * A1 (ix2 P (0 : Fin 1))) * x2 (ix2 k Q)
  refine Finset.sum_congr rfl fun k _ => ?_
  rw [h0 (ix2 p k) (ix2 P k) hP rfl, h1 (ix2 p (0 : Fin 1)) (ix2 P (0 : Fin 1)) hP rfl]

/-! ## What a point writes back, and the array after the region -/

/-- What point t writes back is block t of the projection of the arrays the region found. -/
theorem flushed_eq (c : Dev nD) (t : Fin cfg4.N) :
    (dat4 (F := Ideal) V c).flushed 3 t = ((cfg4.win 3).blk t).view.read (Elt Ideal)
      (linK (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zeros]
  simp only [View.ld_unit_zero (S := S5000x146) zeros, View.ld_unit_zero (S := S5000x1) zeros, View.ld_unit_zero (S := S146x146) zeros]
  obtain ⟨e0, e1⟩ := index3 t
  funext j
  show Gen.k4_pay1 (F := Ideal) (iblk4 V c 0 t) (iblk4 V c 1 t) (iblk4 V c 2 t) j
    = linK (V c (Pipeline.arrRef spec4 0)) (V c (Pipeline.arrRef spec4 1)) (V c (Pipeline.arrRef spec4 2)) (((cfg4.win 3).blk t).view.emb j)
  refine point (iblk4 V c 0 t) (iblk4 V c 1 t) (iblk4 V c 2 t) _ _ _ j _ t.val ?_ ?_
    (fun y z h0 h1 => rows0 V c t y z h0 h1) (fun y z h0 h1 => rows1 V c t y z h0 h1) (whole2 V c t)
  · show win4_3.index t (0 : Fin 2) * 5000 + 1 * (j 0).val = t.val * 5000 + (j 0).val; omega
  · show win4_3.index t (1 : Fin 2) * 146 + 1 * (j 1).val = (j 1).val; omega

/-- An index of the result array is in point t's block iff each coordinate is in the block's range on its axis. -/
theorem mem_blk (t : Fin cfg4.N) (i : S100000x146.Idx) :
    i ∈ ((cfg4.win 3).blk t).view.set ↔ ∀ a : Fin 2, win4_3.index t a * S5000x146.size a ≤ (i a).val
      ∧ (i a).val < win4_3.index t a * S5000x146.size a + S5000x146.size a := by
  show i ∈ ((View.whole main_v55).slice (win4_3.rect t)).set ↔ _
  rw [View.set_slice_whole, Rect.mem_set_unit]
  exact Iff.rfl

/-- Row r of the result array is in the block of point r / 5000. -/
theorem cover (i : S100000x146.Idx) :
    ∃ t : Fin cfg4.N, (cfg4.win 3).flush t = true ∧ i ∈ ((cfg4.win 3).blk t).view.set := by
  have hN : cfg4.N = 20 := N_4
  have hi0 : (i 0).val < 100000 := (i 0).isLt
  have hi1 : (i 1).val < 146 := (i 1).isLt
  have ht : (i 0).val / 5000 < cfg4.N := by rw [hN]; omega
  obtain ⟨e0, e1⟩ := index3 ⟨(i 0).val / 5000, ht⟩
  refine ⟨⟨(i 0).val / 5000, ht⟩, flush4_3 _, ?_⟩
  rw [mem_blk]
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ (1 : Fin 2) * 146 ≤ (i 1).val
      ∧ (i 1).val < win4_3.index ⟨(i 0).val / 5000, ht⟩ (1 : Fin 2) * 146 + 146
    rw [e1]; omega

/-- The result array after the region is the projection of the arrays the region found. -/
theorem final (c : Dev nD) :
    (dat4 (F := Ideal) V c).arrAt 3 cfg4.N
      = linK (V c (Pipeline.arrRef spec4 0)) (V c (Pipeline.arrRef spec4 1)) (V c (Pipeline.arrRef spec4 2)) :=
  (dat4 (F := Ideal) V c).arrAt_eq_of_cover 3 _ (fun t _ => flushed_eq V c t) cover

end Cert.KernelIdeal.Region4

end
-- ==== Proof.Region5.lean ====
/-
  The second layer's pre-normalisation region's result array.  The region runs the scaling body at 20 points; point t
  reads rows 5000 t … 5000 t + 4999 of the aggregated messages and of the two columns of per-node factors, and the
  whole bias row, and writes back rows 5000 t … 5000 t + 4999 of the result.  Entry (p, q) of what point t writes is
  the pre-normalisation entry (5000 t + p, q), because the body's entry (p, q) reads only row p of its blocks; the
  20 blocks of rows fill the array, so the array after the region is the pre-normalisation of the arrays the
  region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The aggregated messages: block t of rows at point t. -/
theorem index0 : ∀ t : Fin cfg5.N, win5_0.index t (0 : Fin 2) = t.val ∧ win5_0.index t (1 : Fin 2) = 0 :=
  (by decide +kernel : ∀ t : Fin grid5.N, _)

/-- The first column of per-node factors: block t of rows at point t. -/
theorem index1 : ∀ t : Fin cfg5.N, win5_1.index t (0 : Fin 2) = t.val ∧ win5_1.index t (1 : Fin 2) = 0 :=
  (by decide +kernel : ∀ t : Fin grid5.N, _)

/-- The bias row: the one block (0, 0) at every point. -/
theorem index2 : ∀ t : Fin cfg5.N, win5_2.index t (0 : Fin 2) = 0 ∧ win5_2.index t (1 : Fin 2) = 0 :=
  (by decide +kernel : ∀ t : Fin grid5.N, _)

/-- The second column of per-node factors: block t of rows at point t. -/
theorem index3 : ∀ t : Fin cfg5.N, win5_3.index t (0 : Fin 2) = t.val ∧ win5_3.index t (1 : Fin 2) = 0 :=
  (by decide +kernel : ∀ t : Fin grid5.N, _)

/-- The result: block t of rows at point t. -/
theorem index4 : ∀ t : Fin cfg5.N, win5_4.index t (0 : Fin 2) = t.val ∧ win5_4.index t (1 : Fin 2) = 0 :=
  (by decide +kernel : ∀ t : Fin grid5.N, _)

/-! ## The input blocks at a point -/

/-- The block of the aggregated messages at point t is rows 5000 t … of the array. -/
theorem rows0 (c : Dev nD) (t : Fin cfg5.N) (y : S5000x146.Idx) (z : S100000x146.Idx)
    (h0 : (z 0).val = t.val * 5000 + (y 0).val) (h1 : (z 1).val = (y 1).val) :
    (iblk5 V c 0 t : Vec Ideal S5000x146 .f32) y = (V c (Pipeline.arrRef spec5 0) : Vec Ideal S100000x146 .f32) z := by
  obtain ⟨e0, e1⟩ := index0 t
  show V c (Pipeline.arrRef spec5 0) (((cfg5.win 0).blk t).view.emb y) = V c (Pipeline.arrRef spec5 0) z
  refine congrArg (V c (Pipeline.arrRef spec5 0)) (funext fun a => Fin.ext ?_)
  match a with
  | ⟨0, _⟩ => show win5_0.index t (0 : Fin 2) * 5000 + 1 * (y 0).val = (z 0).val; omega
  | ⟨1, _⟩ => show win5_0.index t (1 : Fin 2) * 146 + 1 * (y 1).val = (z 1).val; omega

/-- The block of the first column of per-node factors at point t is rows 5000 t … of the array. -/
theorem rows1 (c : Dev nD) (t : Fin cfg5.N) (y : S5000x1.Idx) (z : S100000x1.Idx)
    (h0 : (z 0).val = t.val * 5000 + (y 0).val) (h1 : (z 1).val = (y 1).val) :
    (iblk5 V c 1 t : Vec Ideal S5000x1 .f32) y = (V c (Pipeline.arrRef spec5 1) : Vec Ideal S100000x1 .f32) z := by
  obtain ⟨e0, e1⟩ := index1 t
  show V c (Pipeline.arrRef spec5 1) (((cfg5.win 1).blk t).view.emb y) = V c (Pipeline.arrRef spec5 1) z
  refine congrArg (V c (Pipeline.arrRef spec5 1)) (funext fun a => Fin.ext ?_)
  match a with
  | ⟨0, _⟩ => show win5_1.index t (0 : Fin 2) * 5000 + 1 * (y 0).val = (z 0).val; omega
  | ⟨1, _⟩ => show win5_1.index t (1 : Fin 2) * 1 + 1 * (y 1).val = (z 1).val; omega

/-- The block of the bias row at every point is the whole array. -/
theorem whole2 (c : Dev nD) (t : Fin cfg5.N) :
    (iblk5 V c 2 t : Vec Ideal S1x146 .f32) = (V c (Pipeline.arrRef spec5 2) : Vec Ideal S1x146 .f32) := by
  obtain ⟨e0, e1⟩ := index2 t
  funext y
  show V c (Pipeline.arrRef spec5 2) (((cfg5.win 2).blk t).view.emb y) = V c (Pipeline.arrRef spec5 2) y
  refine congrArg (V c (Pipeline.arrRef spec5 2)) (funext fun a => Fin.ext ?_)
  match a with
  | ⟨0, _⟩ => show win5_2.index t (0 : Fin 2) * 1 + 1 * (y 0).val = (y 0).val; omega
  | ⟨1, _⟩ => show win5_2.index t (1 : Fin 2) * 146 + 1 * (y 1).val = (y 1).val; omega

/-- The block of the second column of per-node factors at point t is rows 5000 t … of the array. -/
theorem rows3 (c : Dev nD) (t : Fin cfg5.N) (y : S5000x1.Idx) (z : S100000x1.Idx)
    (h0 : (z 0).val = t.val * 5000 + (y 0).val) (h1 : (z 1).val = (y 1).val) :
    (iblk5 V c 3 t : Vec Ideal S5000x1 .f32) y = (V c (Pipeline.arrRef spec5 3) : Vec Ideal S100000x1 .f32) z := by
  obtain ⟨e0, e1⟩ := index3 t
  show V c (Pipeline.arrRef spec5 3) (((cfg5.win 3).blk t).view.emb y) = V c (Pipeline.arrRef spec5 3) z
  refine congrArg (V c (Pipeline.arrRef spec5 3)) (funext fun a => Fin.ext ?_)
  match a with
  | ⟨0, _⟩ => show win5_3.index t (0 : Fin 2) * 5000 + 1 * (y 0).val = (z 0).val; omega
  | ⟨1, _⟩ => show win5_3.index t (1 : Fin 2) * 1 + 1 * (y 1).val = (z 1).val; omega

/-! ## The body at one entry of a point's block -/

/-- If the blocks x0, x1, x3 hold rows 5000 T … of the arrays A0, A1, A3, the body's entry j on (x0, x1, A2, x3)
    is the pre-normalisation entry of (A0, A1, A2, A3) at row 5000 T + (j's row), j's column. -/
theorem point (x0 : Vec Ideal S5000x146 .f32) (x1 : Vec Ideal S5000x1 .f32) (x2 : Vec Ideal S1x146 .f32) (x3 : Vec Ideal S5000x1 .f32)
    (A0 : Vec Ideal S100000x146 .f32) (A1 : Vec Ideal S100000x1 .f32) (A2 : Vec Ideal S1x146 .f32) (A3 : Vec Ideal S100000x1 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : ∀ (y : S5000x1.Idx) (z : S100000x1.Idx), (z 0).val = T * 5000 + (y 0).val → (z 1).val = (y 1).val → x1 y = A1 z)
    (h2 : x2 = A2)
    (h3 : ∀ (y : S5000x1.Idx) (z : S100000x1.Idx), (z 0).val = T * 5000 + (y 0).val → (z 1).val = (y 1).val → x3 y = A3 z) :
    Gen.k5_pay1 (F := Ideal) x0 x1 x2 x3 j = preK A0 A1 A2 A3 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h2
  rw [Payload.pay5]
  show _ = (A0 (ix2 P Q) * A1 (ix2 P (0 : Fin 1)) + x2 (ix2 (0 : Fin 1) Q)) * A3 (ix2 P (0 : Fin 1))
  rw [h0 (ix2 p Q) (ix2 P Q) hP rfl, h1 (ix2 p (0 : Fin 1)) (ix2 P (0 : Fin 1)) hP rfl,
    h3 (ix2 p (0 : Fin 1)) (ix2 P (0 : Fin 1)) hP rfl]

/-! ## What a point writes back, and the array after the region -/

/-- What point t writes back is block t of the pre-normalisation of the arrays the region found. -/
theorem flushed_eq (c : Dev nD) (t : Fin cfg5.N) :
    (dat5 (F := Ideal) V c).flushed 4 t = ((cfg5.win 4).blk t).view.read (Elt Ideal)
      (preK (V c (Pipeline.arrRef spec5 0)) (V c (Pipeline.arrRef spec5 1)) (V c (Pipeline.arrRef spec5 2)) (V c (Pipeline.arrRef spec5 3))) := by
  show (cfg5.win 4).cut (grid5.coords t) ((dat5 V c).after 4 t) = _
  rw [after5_4]
  unfold out5_4
  rw [View.canon_unit_zero zeros]
  simp only [View.ld_unit_zero (S := S5000x146) zeros, View.ld_unit_zero (S := S5000x1) zeros, View.ld_unit_zero (S := S1x146) zeros]
  obtain ⟨e0, e1⟩ := index4 t
  funext j
  show Gen.k5_pay1 (F := Ideal) (iblk5 V c 0 t) (iblk5 V c 1 t) (iblk5 V c 2 t) (iblk5 V c 3 t) j
    = preK (V c (Pipeline.arrRef spec5 0)) (V c (Pipeline.arrRef spec5 1)) (V c (Pipeline.arrRef spec5 2)) (V c (Pipeline.arrRef spec5 3)) (((cfg5.win 4).blk t).view.emb j)
  refine point (iblk5 V c 0 t) (iblk5 V c 1 t) (iblk5 V c 2 t) (iblk5 V c 3 t) _ _ _ _ j _ t.val ?_ ?_
    (fun y z h0 h1 => rows0 V c t y z h0 h1) (fun y z h0 h1 => rows1 V c t y z h0 h1) (whole2 V c t) (fun y z h0 h1 => rows3 V c t y z h0 h1)
  · show win5_4.index t (0 : Fin 2) * 5000 + 1 * (j 0).val = t.val * 5000 + (j 0).val; omega
  · show win5_4.index t (1 : Fin 2) * 146 + 1 * (j 1).val = (j 1).val; omega

/-- An index of the result array is in point t's block iff each coordinate is in the block's range on its axis. -/
theorem mem_blk (t : Fin cfg5.N) (i : S100000x146.Idx) :
    i ∈ ((cfg5.win 4).blk t).view.set ↔ ∀ a : Fin 2, win5_4.index t a * S5000x146.size a ≤ (i a).val
      ∧ (i a).val < win5_4.index t a * S5000x146.size a + S5000x146.size a := by
  show i ∈ ((View.whole main_v70).slice (win5_4.rect t)).set ↔ _
  rw [View.set_slice_whole, Rect.mem_set_unit]
  exact Iff.rfl

/-- Row r of the result array is in the block of point r / 5000. -/
theorem cover (i : S100000x146.Idx) :
    ∃ t : Fin cfg5.N, (cfg5.win 4).flush t = true ∧ i ∈ ((cfg5.win 4).blk t).view.set := by
  have hN : cfg5.N = 20 := N_5
  have hi0 : (i 0).val < 100000 := (i 0).isLt
  have hi1 : (i 1).val < 146 := (i 1).isLt
  have ht : (i 0).val / 5000 < cfg5.N := by rw [hN]; omega
  obtain ⟨e0, e1⟩ := index4 ⟨(i 0).val / 5000, ht⟩
  refine ⟨⟨(i 0).val / 5000, ht⟩, flush5_4 _, ?_⟩
  rw [mem_blk]
  intro a
  match a with
  | ⟨0, _⟩ =>
    show win5_4.index ⟨(i 0).val / 5000, ht⟩ (0 : Fin 2) * 5000 ≤ (i 0).val
      ∧ (i 0).val < win5_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_4.index ⟨(i 0).val / 5000, ht⟩ (1 : Fin 2) * 146 ≤ (i 1).val
      ∧ (i 1).val < win5_4.index ⟨(i 0).val / 5000, ht⟩ (1 : Fin 2) * 146 + 146
    rw [e1]; omega

/-- The result array after the region is the pre-normalisation of the arrays the region found. -/
theorem final (c : Dev nD) :
    (dat5 (F := Ideal) V c).arrAt 4 cfg5.N
      = preK (V c (Pipeline.arrRef spec5 0)) (V c (Pipeline.arrRef spec5 1)) (V c (Pipeline.arrRef spec5 2)) (V c (Pipeline.arrRef spec5 3)) :=
  (dat5 (F := Ideal) V c).arrAt_eq_of_cover 4 _ (fun t _ => flushed_eq V c t) cover

end Cert.KernelIdeal.Region5

end
-- ==== Proof.Region6.lean ====
/-
  The second layer's normalisation region's result array.  The region runs the normalisation body (normalise with
  given statistics, clamp at zero, add the residual input) at 20 points; point t reads rows 5000 t … 5000 t + 4999
  of the pre-normalised values and of the residual input, and the four whole rows (mean, variance, scale, shift),
  and writes back rows 5000 t … 5000 t + 4999 of the result.  Entry (p, q) of what point t writes is the
  normalisation's entry (5000 t + p, q), because the body's entry (p, q) reads only entry (p, q) of its two blocks
  of rows; the 20 blocks of rows fill the array, so the array after the region is the normalisation of the arrays
  the region found.
-/
import proofs.«124989_j83073257439657_1_alg».proof.Proof.Gen.KernelIdeal.Frame
import proofs.«124989_j83073257439657_1_alg».proof.Proof.Payload
import proofs.«124989_j83073257439657_1_alg».proof.Proof.KForms
import Idealize.ShloMosaic.Lib.Pipeline.Value

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)
open Cert.Gnn.K

variable (V : (c : Dev nD) → (b : Ref sig .tc) → Buf (Elt Ideal) ((c : Thread nD τ).loc b))

theorem zeros : (![0, 0] : Fin 2 → Nat) = fun _ => 0 := funext fun a => by fin_cases a <;> rfl

/-! ## The block indices at a point -/

/-- The pre-normalised values: block t of rows at point t. -/
theorem index0 : ∀ t : Fin cfg6.N, win6_0.index t (0 : Fin 2) = t.val ∧ win6_0.index t (1 : Fin 2) = 0 :=
  (by decide +kernel : ∀ t : Fin grid6.N, _)

/-- The mean row: the one block (0, 0) at every point. -/
theorem index1 : ∀ t : Fin cfg6.N, win6_1.index t (0 : Fin 2) = 0 ∧ win6_1.index t (1 : Fin 2) = 0 :=
  (by decide +kernel : ∀ t : Fin grid6.N, _)

/-- The variance row: the one block (0, 0) at every point. -/
theorem index2 : ∀ t : Fin cfg6.N, win6_2.index t (0 : Fin 2) = 0 ∧ win6_2.index t (1 : Fin 2) = 0 :=
  (by decide +kernel : ∀ t : Fin grid6.N, _)

/-- The scale row: the one block (0, 0) at every point. -/
theorem index3 : ∀ t : Fin cfg6.N, win6_3.index t (0 : Fin 2) = 0 ∧ win6_3.index t (1 : Fin 2) = 0 :=
  (by decide +kernel : ∀ t : Fin grid6.N, _)

/-- The shift row: the one block (0, 0) at every point. -/
theorem index4 : ∀ t : Fin cfg6.N, win6_4.index t (0 : Fin 2) = 0 ∧ win6_4.index t (1 : Fin 2) = 0 :=
  (by decide +kernel : ∀ t : Fin grid6.N, _)

/-- The residual input: block t of rows at point t. -/
theorem index5 : ∀ t : Fin cfg6.N, win6_5.index t (0 : Fin 2) = t.val ∧ win6_5.index t (1 : Fin 2) = 0 :=
  (by decide +kernel : ∀ t : Fin grid6.N, _)

/-- The result: block t of rows at point t. -/
theorem index6 : ∀ t : Fin cfg6.N, win6_6.index t (0 : Fin 2) = t.val ∧ win6_6.index t (1 : Fin 2) = 0 :=
  (by decide +kernel : ∀ t : Fin grid6.N, _)

/-! ## The input blocks at a point -/

/-- The block of the pre-normalised values at point t is rows 5000 t … of the array. -/
theorem rows0 (c : Dev nD) (t : Fin cfg6.N) (y : S5000x146.Idx) (z : S100000x146.Idx)
    (h0 : (z 0).val = t.val * 5000 + (y 0).val) (h1 : (z 1).val = (y 1).val) :
    (iblk6 V c 0 t : Vec Ideal S5000x146 .f32) y = (V c (Pipeline.arrRef spec6 0) : Vec Ideal S100000x146 .f32) z := by
  obtain ⟨e0, e1⟩ := index0 t
  show V c (Pipeline.arrRef spec6 0) (((cfg6.win 0).blk t).view.emb y) = V c (Pipeline.arrRef spec6 0) z
  refine congrArg (V c (Pipeline.arrRef spec6 0)) (funext fun a => Fin.ext ?_)
  match a with
  | ⟨0, _⟩ => show win6_0.index t (0 : Fin 2) * 5000 + 1 * (y 0).val = (z 0).val; omega
  | ⟨1, _⟩ => show win6_0.index t (1 : Fin 2) * 146 + 1 * (y 1).val = (z 1).val; omega

/-- The block of the mean row at every point is the whole array. -/
theorem whole1 (c : Dev nD) (t : Fin cfg6.N) :
    (iblk6 V c 1 t : Vec Ideal S1x146 .f32) = (V c (Pipeline.arrRef spec6 1) : Vec Ideal S1x146 .f32) := by
  obtain ⟨e0, e1⟩ := index1 t
  funext y
  show V c (Pipeline.arrRef spec6 1) (((cfg6.win 1).blk t).view.emb y) = V c (Pipeline.arrRef spec6 1) y
  refine congrArg (V c (Pipeline.arrRef spec6 1)) (funext fun a => Fin.ext ?_)
  match a with
  | ⟨0, _⟩ => show win6_1.index t (0 : Fin 2) * 1 + 1 * (y 0).val = (y 0).val; omega
  | ⟨1, _⟩ => show win6_1.index t (1 : Fin 2) * 146 + 1 * (y 1).val = (y 1).val; omega

/-- The block of the variance row at every point is the whole array. -/
theorem whole2 (c : Dev nD) (t : Fin cfg6.N) :
    (iblk6 V c 2 t : Vec Ideal S1x146 .f32) = (V c (Pipeline.arrRef spec6 2) : Vec Ideal S1x146 .f32) := by
  obtain ⟨e0, e1⟩ := index2 t
  funext y
  show V c (Pipeline.arrRef spec6 2) (((cfg6.win 2).blk t).view.emb y) = V c (Pipeline.arrRef spec6 2) y
  refine congrArg (V c (Pipeline.arrRef spec6 2)) (funext fun a => Fin.ext ?_)
  match a with
  | ⟨0, _⟩ => show win6_2.index t (0 : Fin 2) * 1 + 1 * (y 0).val = (y 0).val; omega
  | ⟨1, _⟩ => show win6_2.index t (1 : Fin 2) * 146 + 1 * (y 1).val = (y 1).val; omega

/-- The block of the scale row at every point is the whole array. -/
theorem whole3 (c : Dev nD) (t : Fin cfg6.N) :
    (iblk6 V c 3 t : Vec Ideal S1x146 .f32) = (V c (Pipeline.arrRef spec6 3) : Vec Ideal S1x146 .f32) := by
  obtain ⟨e0, e1⟩ := index3 t
  funext y
  show V c (Pipeline.arrRef spec6 3) (((cfg6.win 3).blk t).view.emb y) = V c (Pipeline.arrRef spec6 3) y
  refine congrArg (V c (Pipeline.arrRef spec6 3)) (funext fun a => Fin.ext ?_)
  match a with
  | ⟨0, _⟩ => show win6_3.index t (0 : Fin 2) * 1 + 1 * (y 0).val = (y 0).val; omega
  | ⟨1, _⟩ => show win6_3.index t (1 : Fin 2) * 146 + 1 * (y 1).val = (y 1).val; omega

/-- The block of the shift row at every point is the whole array. -/
theorem whole4 (c : Dev nD) (t : Fin cfg6.N) :
    (iblk6 V c 4 t : Vec Ideal S1x146 .f32) = (V c (Pipeline.arrRef spec6 4) : Vec Ideal S1x146 .f32) := by
  obtain ⟨e0, e1⟩ := index4 t
  funext y
  show V c (Pipeline.arrRef spec6 4) (((cfg6.win 4).blk t).view.emb y) = V c (Pipeline.arrRef spec6 4) y
  refine congrArg (V c (Pipeline.arrRef spec6 4)) (funext fun a => Fin.ext ?_)
  match a with
  | ⟨0, _⟩ => show win6_4.index t (0 : Fin 2) * 1 + 1 * (y 0).val = (y 0).val; omega
  | ⟨1, _⟩ => show win6_4.index t (1 : Fin 2) * 146 + 1 * (y 1).val = (y 1).val; omega

/-- The block of the residual input at point t is rows 5000 t … of the array. -/
theorem rows5 (c : Dev nD) (t : Fin cfg6.N) (y : S5000x146.Idx) (z : S100000x146.Idx)
    (h0 : (z 0).val = t.val * 5000 + (y 0).val) (h1 : (z 1).val = (y 1).val) :
    (iblk6 V c 5 t : Vec Ideal S5000x146 .f32) y = (V c (Pipeline.arrRef spec6 5) : Vec Ideal S100000x146 .f32) z := by
  obtain ⟨e0, e1⟩ := index5 t
  show V c (Pipeline.arrRef spec6 5) (((cfg6.win 5).blk t).view.emb y) = V c (Pipeline.arrRef spec6 5) z
  refine congrArg (V c (Pipeline.arrRef spec6 5)) (funext fun a => Fin.ext ?_)
  match a with
  | ⟨0, _⟩ => show win6_5.index t (0 : Fin 2) * 5000 + 1 * (y 0).val = (z 0).val; omega
  | ⟨1, _⟩ => show win6_5.index t (1 : Fin 2) * 146 + 1 * (y 1).val = (z 1).val; omega

/-! ## The body at one entry of a point's block -/

/-- If the blocks x0, x5 hold rows 5000 T … of the arrays A0, A5, the body's entry j on (x0, A1, A2, A3, A4, x5) is
    the normalisation's entry of (A0, A1, A2, A3, A4, A5) at row 5000 T + (j's row), j's column. -/
theorem point (x0 : Vec Ideal S5000x146 .f32) (x1 : Vec Ideal S1x146 .f32) (x2 : Vec Ideal S1x146 .f32) (x3 : Vec Ideal S1x146 .f32) (x4 : Vec Ideal S1x146 .f32) (x5 : Vec Ideal S5000x146 .f32)
    (A0 : Vec Ideal S100000x146 .f32) (A1 : Vec Ideal S1x146 .f32) (A2 : Vec Ideal S1x146 .f32) (A3 : Vec Ideal S1x146 .f32) (A4 : Vec Ideal S1x146 .f32) (A5 : Vec Ideal S100000x146 .f32)
    (j : S5000x146.Idx) (i : S100000x146.Idx) (T : Nat)
    (hi0 : (i 0).val = T * 5000 + (j 0).val) (hi1 : (i 1).val = (j 1).val)
    (h0 : ∀ (y : S5000x146.Idx) (z : S100000x146.Idx), (z 0).val = T * 5000 + (y 0).val → (z 1).val = (y 1).val → x0 y = A0 z)
    (h1 : x1 = A1)
    (h2 : x2 = A2)
    (h3 : x3 = A3)
    (h4 : x4 = A4)
    (h5 : ∀ (y : S5000x146.Idx) (z : S100000x146.Idx), (z 0).val = T * 5000 + (y 0).val → (z 1).val = (y 1).val → x5 y = A5 z) :
    Gen.k6_pay1 (F := Ideal) x0 x1 x2 x3 x4 x5 j = bnK A0 A1 A2 A3 A4 A5 i := by
  obtain ⟨p, q, rfl⟩ : ∃ (p : Fin 5000) (q : Fin 146), j = ix2 p q := ⟨j 0, j 1, eq_ix2 j⟩
  obtain ⟨P, Q, rfl⟩ : ∃ (P : Fin 100000) (Q : Fin 146), i = ix2 P Q := ⟨i 0, i 1, eq_ix2 i⟩
  have hP : P.val = T * 5000 + p.val := hi0
  obtain rfl : Q = q := Fin.ext hi1
  subst h1 h2 h3 h4
  rw [Payload.pay6]
  show _ = A5 (ix2 P Q) + max ((A0 (ix2 P Q) - x1 (ix2 (0 : Fin 1) Q))
      * Ideal.rsqrt (x2 (ix2 (0 : Fin 1) Q) + Ideal.ofBits .f32 0x3727C5AC#32) * x3 (ix2 (0 : Fin 1) Q)
      + x4 (ix2 (0 : Fin 1) Q)) (Ideal.ofBits .f32 0x00000000#32)
  rw [h0 (ix2 p Q) (ix2 P Q) hP rfl, h5 (ix2 p Q) (ix2 P Q) hP rfl]

/-! ## What a point writes back, and the array after the region -/

/-- What point t writes back is block t of the normalisation of the arrays the region found. -/
theorem flushed_eq (c : Dev nD) (t : Fin cfg6.N) :
    (dat6 (F := Ideal) V c).flushed 6 t = ((cfg6.win 6).blk t).view.read (Elt Ideal)
      (bnK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 V c).after 6 t) = _
  rw [after6_6]
  unfold out6_6
  rw [View.canon_unit_zero zeros]
  simp only [View.ld_unit_zero (S := S5000x146) zeros, View.ld_unit_zero (S := S1x146) zeros]
  obtain ⟨e0, e1⟩ := index6 t
  funext j
  show Gen.k6_pay1 (F := Ideal) (iblk6 V c 0 t) (iblk6 V c 1 t) (iblk6 V c 2 t) (iblk6 V c 3 t) (iblk6 V c 4 t) (iblk6 V c 5 t) j
    = bnK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (((cfg6.win 6).blk t).view.emb j)
  refine point (iblk6 V c 0 t) (iblk6 V c 1 t) (iblk6 V c 2 t) (iblk6 V c 3 t) (iblk6 V c 4 t) (iblk6 V c 5 t) _ _ _ _ _ _ j _ t.val ?_ ?_
    (fun y z h0 h1 => rows0 V c t y z h0 h1) (whole1 V c t) (whole2 V c t) (whole3 V c t) (whole4 V c t) (fun y z h0 h1 => rows5 V c t y z h0 h1)
  · show win6_6.index t (0 : Fin 2) * 5000 + 1 * (j 0).val = t.val * 5000 + (j 0).val; omega
  · show win6_6.index t (1 : Fin 2) * 146 + 1 * (j 1).val = (j 1).val; omega

/-- An index of the result array is in point t's block iff each coordinate is in the block's range on its axis. -/
theorem mem_blk (t : Fin cfg6.N) (i : S100000x146.Idx) :
    i ∈ ((cfg6.win 6).blk t).view.set ↔ ∀ a : Fin 2, win6_6.index t a * S5000x146.size a ≤ (i a).val
      ∧ (i a).val < win6_6.index t a * S5000x146.size a + S5000x146.size a := by
  show i ∈ ((View.whole main_v79).slice (win6_6.rect t)).set ↔ _
  rw [View.set_slice_whole, Rect.mem_set_unit]
  exact Iff.rfl

/-- Row r of the result array is in the block of point r / 5000. -/
theorem cover (i : S100000x146.Idx) :
    ∃ t : Fin cfg6.N, (cfg6.win 6).flush t = true ∧ i ∈ ((cfg6.win 6).blk t).view.set := by
  have hN : cfg6.N = 20 := N_6
  have hi0 : (i 0).val < 100000 := (i 0).isLt
  have hi1 : (i 1).val < 146 := (i 1).isLt
  have ht : (i 0).val / 5000 < cfg6.N := by rw [hN]; omega
  obtain ⟨e0, e1⟩ := index6 ⟨(i 0).val / 5000, ht⟩
  refine ⟨⟨(i 0).val / 5000, ht⟩, flush6_6 _, ?_⟩
  rw [mem_blk]
  intro a
  match a with
  | ⟨0, _⟩ =>
    show win6_6.index ⟨(i 0).val / 5000, ht⟩ (0 : Fin 2) * 5000 ≤ (i 0).val
      ∧ (i 0).val < win6_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win6_6.index ⟨(i 0).val / 5000, ht⟩ (1 : Fin 2) * 146 ≤ (i 1).val
      ∧ (i 1).val < win6_6.index ⟨(i 0).val / 5000, ht⟩ (1 : Fin 2) * 146 + 146
    rw [e1]; omega

/-- The result array after the region is the normalisation of the arrays the region found. -/
theorem final (c : Dev nD) :
    (dat6 (F := Ideal) V c).arrAt 6 cfg6.N
      = bnK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6 _ (fun t _ => flushed_eq V c t) cover

end Cert.KernelIdeal.Region6

end
-- ==== Proof.KernelValue.lean ====
/-
  The idealized kernel program's result, as the specification's function of the fifteen arguments.

  The buffer contents at the nineteen boundaries between the program's segments are followed from the launch
  memory to the return.  A launch's output array is the entry-by-entry form of its step over the whole array of nodes
  (each block of 5000 rows is the same rows of that form, and the twenty blocks cover the array); a stretch of host
  operations computes the specification's own compositions of them; a buffer that a segment does not write — an
  argument, or the features a later launch reads again for the residual — keeps its contents across it.  Joining these:
  the embedding, then twice (degree normalisations, projection, aggregation over the edges, scaling and bias,
  statistics, normalisation with clamp and residual), then the pooling.
-/
import proofs.«124989_j83073257439657_1_alg».proof.Proof.Gen.KernelIdeal.Frame
import proofs.«124989_j83073257439657_1_alg».proof.Proof.Gen.ReferenceIdeal
import proofs.«124989_j83073257439657_1_alg».proof.Proof.Spec
import proofs.«124989_j83073257439657_1_alg».proof.Proof.Bridge
import proofs.«124989_j83073257439657_1_alg».proof.Proof.HostSteps
import proofs.«124989_j83073257439657_1_alg».proof.Proof.KernelRun
import proofs.«124989_j83073257439657_1_alg».proof.Proof.Region0
import proofs.«124989_j83073257439657_1_alg».proof.Proof.Region1
import proofs.«124989_j83073257439657_1_alg».proof.Proof.Region2
import proofs.«124989_j83073257439657_1_alg».proof.Proof.Region3
import proofs.«124989_j83073257439657_1_alg».proof.Proof.Region4
import proofs.«124989_j83073257439657_1_alg».proof.Proof.Region5
import proofs.«124989_j83073257439657_1_alg».proof.Proof.Region6

noncomputable section

namespace Cert.KernelIdeal.Chain

open Cert.KernelIdeal Cert.KernelIdeal.Gen Cert.KernelIdeal.HostSteps
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The per-node factor is read by the third launch through an input window, which leaves it as it was. -/
theorem w6_arg1 : W6 m ρ c (no_index (Proc.devRef .tc main_arg1)) = W5 m ρ c (Proc.devRef .tc main_arg1) :=
  (W6_arr m ρ c 3).trans (((dat2 (V5 m ρ) c).arrAt_in 3 rfl _).trans (A_eq2 (V5 m ρ) c 3))

/-! ## What a segment leaves alone, in the form the simplifier can use -/

theorem hk0 {V : Valuation τ sig (Elt Ideal)} {r : Ref sig .tc} (hr : r ∉ wr0) :
    after (hostOps0 (F := Ideal)) V (no_index (Proc.devRef .tc r)) = V (Proc.devRef .tc r) := keep0 hr
theorem hk1 {V : Valuation τ sig (Elt Ideal)} {r : Ref sig .tc} (hr : r ∉ wr1) :
    after (hostOps1 (F := Ideal)) V (no_index (Proc.devRef .tc r)) = V (Proc.devRef .tc r) := keep1 hr
theorem hk2 {V : Valuation τ sig (Elt Ideal)} {r : Ref sig .tc} (hr : r ∉ wr2) :
    after (hostOps2 (F := Ideal)) V (no_index (Proc.devRef .tc r)) = V (Proc.devRef .tc r) := keep2 hr
theorem hk3 {V : Valuation τ sig (Elt Ideal)} {r : Ref sig .tc} (hr : r ∉ wr3) :
    after (hostOps3 (F := Ideal)) V (no_index (Proc.devRef .tc r)) = V (Proc.devRef .tc r) := keep3 hr
theorem hk3_1 {V : Valuation τ sig (Elt Ideal)} {r : Ref sig .tc} (hr : r ∉ wr3_1) :
    after (hostOps3_1 (F := Ideal)) V (no_index (Proc.devRef .tc r)) = V (Proc.devRef .tc r) := keep3_1 hr
theorem hk3_2 {V : Valuation τ sig (Elt Ideal)} {r : Ref sig .tc} (hr : r ∉ wr3_2) :
    after (hostOps3_2 (F := Ideal)) V (no_index (Proc.devRef .tc r)) = V (Proc.devRef .tc r) := keep3_2 hr
theorem hk4 {V : Valuation τ sig (Elt Ideal)} {r : Ref sig .tc} (hr : r ∉ wr4) :
    after (hostOps4 (F := Ideal)) V (no_index (Proc.devRef .tc r)) = V (Proc.devRef .tc r) := keep4 hr
theorem hk5 {V : Valuation τ sig (Elt Ideal)} {r : Ref sig .tc} (hr : r ∉ wr5) :
    after (hostOps5 (F := Ideal)) V (no_index (Proc.devRef .tc r)) = V (Proc.devRef .tc r) := keep5 hr
theorem hk6 {V : Valuation τ sig (Elt Ideal)} {r : Ref sig .tc} (hr : r ∉ wr6) :
    after (hostOps6 (F := Ideal)) V (no_index (Proc.devRef .tc r)) = V (Proc.devRef .tc r) := keep6 hr
theorem hk6_1 {V : Valuation τ sig (Elt Ideal)} {r : Ref sig .tc} (hr : r ∉ wr6_1) :
    after (hostOps6_1 (F := Ideal)) V (no_index (Proc.devRef .tc r)) = V (Proc.devRef .tc r) := keep6_1 hr
theorem hk6_2 {V : Valuation τ sig (Elt Ideal)} {r : Ref sig .tc} (hr : r ∉ wr6_2) :
    after (hostOps6_2 (F := Ideal)) V (no_index (Proc.devRef .tc r)) = V (Proc.devRef .tc r) := keep6_2 hr
theorem hk7 {V : Valuation τ sig (Elt Ideal)} {r : Ref sig .tc} (hr : r ∉ wr7) :
    after (hostOps7 (F := Ideal)) V (no_index (Proc.devRef .tc r)) = V (Proc.devRef .tc r) := keep7 hr
theorem rk0 (b : Ref sig .tc) (hb : ∀ w, Pipeline.arrRef spec0 w ≠ b) :
    W2 m ρ c (no_index (Proc.devRef .tc b)) = W1 m ρ c (Proc.devRef .tc b) := W2_of_ne m ρ c b hb
theorem rk1 (b : Ref sig .tc) (hb : ∀ w, Pipeline.arrRef spec1 w ≠ b) :
    W4 m ρ c (no_index (Proc.devRef .tc b)) = W3 m ρ c (Proc.devRef .tc b) := W4_of_ne m ρ c b hb
theorem rk2 (b : Ref sig .tc) (hb : ∀ w, Pipeline.arrRef spec2 w ≠ b) :
    W6 m ρ c (no_index (Proc.devRef .tc b)) = W5 m ρ c (Proc.devRef .tc b) := W6_of_ne m ρ c b hb
theorem rk3 (b : Ref sig .tc) (hb : ∀ w, Pipeline.arrRef spec3 w ≠ b) :
    W10 m ρ c (no_index (Proc.devRef .tc b)) = W9 m ρ c (Proc.devRef .tc b) := W10_of_ne m ρ c b hb
theorem rk4 (b : Ref sig .tc) (hb : ∀ w, Pipeline.arrRef spec4 w ≠ b) :
    W12 m ρ c (no_index (Proc.devRef .tc b)) = W11 m ρ c (Proc.devRef .tc b) := W12_of_ne m ρ c b hb
theorem rk5 (b : Ref sig .tc) (hb : ∀ w, Pipeline.arrRef spec5 w ≠ b) :
    W14 m ρ c (no_index (Proc.devRef .tc b)) = W13 m ρ c (Proc.devRef .tc b) := W14_of_ne m ρ c b hb
theorem rk6 (b : Ref sig .tc) (hb : ∀ w, Pipeline.arrRef spec6 w ≠ b) :
    W18 m ρ c (no_index (Proc.devRef .tc b)) = W17 m ρ c (Proc.devRef .tc b) := W18_of_ne m ρ c b hb

/-- Follows a buffer that no segment in between writes back to the launch memory. -/
macro "walk" : tactic => `(tactic| (simp (disch := decide) only [W1, W3, W5, W7, W8, W9, W11, W13, W15, W16, W17, W19, hk0, hk1, hk2, hk3, hk3_1, hk3_2, hk4, hk5, hk6, hk6_1, hk6_2, hk7, rk0, rk1, rk2, rk3, rk4, rk5, rk6, w6_arg1] <;> rfl))

/-! ## The embedding -/

/-- After the first stretch: the bias as a one-row matrix. -/
theorem emb_brow : W1 m ρ c (Proc.devRef .tc main_v0) = shapeCast S1x146 (m ((c : Thread nD τ).loc main_arg3)) shapeCasts_S146_S1x146 := s0_v0 (W0 m ρ c)

/-- After the embedding launch: x · W + b. -/
theorem emb_out : W2 m ρ c (Proc.devRef .tc main_v1) = (Cert.Gnn.embed (m ((c : Thread nD τ).loc main_arg0)) (m ((c : Thread nD τ).loc main_arg2)) (m ((c : Thread nD τ).loc main_arg3))) := by
  have h0 : W1 m ρ c (Proc.devRef .tc main_arg0) = (m ((c : Thread nD τ).loc main_arg0)) := by walk
  have h2 : W1 m ρ c (Proc.devRef .tc main_arg2) = (m ((c : Thread nD τ).loc main_arg2)) := by walk
  rw [show W2 m ρ c (Proc.devRef .tc main_v1) = (dat0 (V1 m ρ) c).arrAt 3 cfg0.N from W2_arr m ρ c 3,
    Region0.final (V1 m ρ) c]
  show Cert.Gnn.K.embedK (W1 m ρ c (Proc.devRef .tc main_arg0)) (W1 m ρ c (Proc.devRef .tc main_arg2))
    (W1 m ρ c (Proc.devRef .tc main_v0)) = _
  rw [h0, h2, emb_brow m ρ c]
  exact Cert.Gnn.embedK_eq _ _ _ _

/-! ## Layer 1: from the features of the embedding -/

/-- After the degree stretch: the out-degree normalisation as a column. -/
theorem l1_col : W3 m ρ c (Proc.devRef .tc main_v15) = Cert.Gnn.col (Cert.Gnn.invSqrt (Cert.Gnn.deg (m ((c : Thread nD τ).loc main_arg12)))) := by
  have h12 : W2 m ρ c (Proc.devRef .tc main_arg12) = (m ((c : Thread nD τ).loc main_arg12)) := by walk
  exact (s1_v15 (W2 m ρ c)).trans (by rw [h12])

/-- After the degree stretch: the clamped in-degrees. -/
theorem l1_din : W3 m ρ c (Proc.devRef .tc main_v12) = Cert.Gnn.deg (m ((c : Thread nD τ).loc main_arg13)) := by
  have h13 : W2 m ρ c (Proc.devRef .tc main_arg13) = (m ((c : Thread nD τ).loc main_arg13)) := by walk
  exact (s1_v12 (W2 m ρ c)).trans (by rw [h13])

/-- After the projection launch: the scaled features times the weights. -/
theorem l1_mm : W4 m ρ c (Proc.devRef .tc main_v16)
    = Cert.Gnn.lin (Cert.Gnn.embed (m ((c : Thread nD τ).loc main_arg0)) (m ((c : Thread nD τ).loc main_arg2)) (m ((c : Thread nD τ).loc main_arg3))) (Cert.Gnn.invSqrt (Cert.Gnn.deg (m ((c : Thread nD τ).loc main_arg12)))) (m ((c : Thread nD τ).loc main_arg4)) := by
  have hh : W3 m ρ c (Proc.devRef .tc main_v1) = (Cert.Gnn.embed (m ((c : Thread nD τ).loc main_arg0)) (m ((c : Thread nD τ).loc main_arg2)) (m ((c : Thread nD τ).loc main_arg3))) := (keep1 (by decide)).trans (emb_out m ρ c)
  have hw : W3 m ρ c (Proc.devRef .tc main_arg4) = (m ((c : Thread nD τ).loc main_arg4)) := by walk
  rw [show W4 m ρ c (Proc.devRef .tc main_v16) = (dat1 (V3 m ρ) c).arrAt 3 cfg1.N from W4_arr m ρ c 3,
    Region1.final (V3 m ρ) c]
  show Cert.Gnn.K.linK (W3 m ρ c (Proc.devRef .tc main_v1)) (W3 m ρ c (Proc.devRef .tc main_v15))
    (W3 m ρ c (Proc.devRef .tc main_arg4)) = _
  rw [hh, l1_col m ρ c, hw]
  exact Cert.Gnn.linK_eq _ _ _

/-- After the edge stretch: the messages summed at their destinations. -/
theorem l1_agg : W5 m ρ c (Proc.devRef .tc main_v26)
    = Cert.Gnn.aggregate (Cert.Gnn.lin (Cert.Gnn.embed (m ((c : Thread nD τ).loc main_arg0)) (m ((c : Thread nD τ).loc main_arg2)) (m ((c : Thread nD τ).loc main_arg3))) (Cert.Gnn.invSqrt (Cert.Gnn.deg (m ((c : Thread nD τ).loc main_arg12)))) (m ((c : Thread nD τ).loc main_arg4))) (m ((c : Thread nD τ).loc main_arg12)) (m ((c : Thread nD τ).loc main_arg13)) := by
  have h12 : W4 m ρ c (Proc.devRef .tc main_arg12) = (m ((c : Thread nD τ).loc main_arg12)) := by walk
  have h13 : W4 m ρ c (Proc.devRef .tc main_arg13) = (m ((c : Thread nD τ).loc main_arg13)) := by walk
  exact (s2_v26 (W4 m ρ c)).trans (by rw [l1_mm m ρ c, h12, h13])

/-- After the edge stretch: the in-degree normalisation as a column. -/
theorem l1_col2 : W5 m ρ c (Proc.devRef .tc main_v29) = Cert.Gnn.col (Cert.Gnn.invSqrt (Cert.Gnn.deg (m ((c : Thread nD τ).loc main_arg13)))) := by
  have hd : W4 m ρ c (Proc.devRef .tc main_v12) = Cert.Gnn.deg (m ((c : Thread nD τ).loc main_arg13)) :=
    (W4_of_ne m ρ c main_v12 (by decide)).trans (l1_din m ρ c)
  exact (s2_v29 (W4 m ρ c)).trans (by rw [hd])

/-- After the edge stretch: the bias as a one-row matrix. -/
theorem l1_brow : W5 m ρ c (Proc.devRef .tc main_v30) = shapeCast S1x146 (m ((c : Thread nD τ).loc main_arg5)) shapeCasts_S146_S1x146 := by
  have hb : W4 m ρ c (Proc.devRef .tc main_arg5) = (m ((c : Thread nD τ).loc main_arg5)) := by walk
  exact (s2_v30 (W4 m ρ c)).trans (by rw [hb])

/-- After the pre-normalisation launch: the activations before normalisation. -/
theorem l1_pre : W6 m ρ c (Proc.devRef .tc main_v31) = (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) := by
  have h1 : W5 m ρ c (Proc.devRef .tc main_arg1) = (m ((c : Thread nD τ).loc main_arg1)) := by walk
  rw [show W6 m ρ c (Proc.devRef .tc main_v31) = (dat2 (V5 m ρ) c).arrAt 4 cfg2.N from W6_arr m ρ c 4,
    Region2.final (V5 m ρ) c]
  show Cert.Gnn.K.preK (W5 m ρ c (Proc.devRef .tc main_v26)) (W5 m ρ c (Proc.devRef .tc main_v29))
    (W5 m ρ c (Proc.devRef .tc main_v30)) (W5 m ρ c (Proc.devRef .tc main_arg1)) = _
  rw [l1_agg m ρ c, l1_col2 m ρ c, l1_brow m ρ c, h1]
  exact Cert.Gnn.preK_eq _ _ _ _ _

/-- After the statistics stretch: the column means. -/
theorem l1_mean : W7 m ρ c (Proc.devRef .tc main_v34) = Cert.Gnn.mean (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) :=
  (s3_v34 (W6 m ρ c)).trans (by rw [l1_pre m ρ c])

/-- After the statistics stretch: the variance's degrees-of-freedom argument is zero. -/
theorem l1_cz : W7 m ρ c (Proc.devRef .tc main_c_10) = constantI S_ 32 0#32 := s3_c10 (W6 m ρ c)

/-- After the outlined variance: the column variances. -/
theorem l1_var : W8 m ρ c (Proc.devRef .tc main_v35) = Cert.Gnn.variance (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) := by
  have hp : W7 m ρ c (Proc.devRef .tc main_v31) = (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) := (keep3 (by decide)).trans (l1_pre m ρ c)
  exact (s3_1_v35 (W7 m ρ c) (l1_cz m ρ c)).trans (by rw [hp])

/-- After the casts: the means as a one-row matrix. -/
theorem l1_mu2 : W9 m ρ c (Proc.devRef .tc main_v36) = shapeCast S1x146 (Cert.Gnn.mean (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)))) shapeCasts_S146_S1x146 := by
  have h : W8 m ρ c (Proc.devRef .tc main_v34) = Cert.Gnn.mean (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) := (keep3_1 (by decide)).trans (l1_mean m ρ c)
  exact (s3_2_v36 (W8 m ρ c)).trans (by rw [h])

/-- After the casts: the variances as a one-row matrix. -/
theorem l1_var2 : W9 m ρ c (Proc.devRef .tc main_v37) = shapeCast S1x146 (Cert.Gnn.variance (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)))) shapeCasts_S146_S1x146 :=
  (s3_2_v37 (W8 m ρ c)).trans (by rw [l1_var m ρ c])

/-- After the casts: the scale as a one-row matrix. -/
theorem l1_g2 : W9 m ρ c (Proc.devRef .tc main_v38) = shapeCast S1x146 (m ((c : Thread nD τ).loc main_arg6)) shapeCasts_S146_S1x146 := by
  have h : W8 m ρ c (Proc.devRef .tc main_arg6) = (m ((c : Thread nD τ).loc main_arg6)) := by walk
  exact (s3_2_v38 (W8 m ρ c)).trans (by rw [h])

/-- After the casts: the shift as a one-row matrix. -/
theorem l1_be2 : W9 m ρ c (Proc.devRef .tc main_v39) = shapeCast S1x146 (m ((c : Thread nD τ).loc main_arg7)) shapeCasts_S146_S1x146 := by
  have h : W8 m ρ c (Proc.devRef .tc main_arg7) = (m ((c : Thread nD τ).loc main_arg7)) := by walk
  exact (s3_2_v39 (W8 m ρ c)).trans (by rw [h])

/-- After the normalisation launch: the layer's output. -/
theorem l1_out : W10 m ρ c (Proc.devRef .tc main_v40) = (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) := by
  have hp : W9 m ρ c (Proc.devRef .tc main_v31) = (Cert.Gnn.preAct (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5))) :=
    (keep3_2 (by decide)).trans ((keep3_1 (by decide)).trans ((keep3 (by decide)).trans (l1_pre m ρ c)))
  have hh : W9 m ρ c (Proc.devRef .tc main_v1) = (Cert.Gnn.embed (m ((c : Thread nD τ).loc main_arg0)) (m ((c : Thread nD τ).loc main_arg2)) (m ((c : Thread nD τ).loc main_arg3))) :=
    (keep3_2 (by decide)).trans ((keep3_1 (by decide)).trans ((keep3 (by decide)).trans
      ((W6_of_ne m ρ c main_v1 (by decide)).trans ((keep2 (by decide)).trans
        (((W4_arr m ρ c 0).trans (((dat1 (V3 m ρ) c).arrAt_in 0 rfl _).trans (A_eq1 (V3 m ρ) c 0))).trans
          ((keep1 (by decide)).trans (emb_out m ρ c)))))))
  rw [show W10 m ρ c (Proc.devRef .tc main_v40) = (dat3 (V9 m ρ) c).arrAt 6 cfg3.N from W10_arr m ρ c 6,
    Region3.final (V9 m ρ) c]
  show Cert.Gnn.K.bnK (W9 m ρ c (Proc.devRef .tc main_v31)) (W9 m ρ c (Proc.devRef .tc main_v36))
    (W9 m ρ c (Proc.devRef .tc main_v37)) (W9 m ρ c (Proc.devRef .tc main_v38)) (W9 m ρ c (Proc.devRef .tc main_v39))
    (W9 m ρ c (Proc.devRef .tc main_v1)) = _
  rw [hp, l1_mu2 m ρ c, l1_var2 m ρ c, l1_g2 m ρ c, l1_be2 m ρ c, hh]
  exact Cert.Gnn.bnK_eq _ _ _ _ _ _ _

/-! ## Layer 2: from the features of the first layer -/

/-- After the degree stretch: the out-degree normalisation as a column. -/
theorem l2_col : W11 m ρ c (Proc.devRef .tc main_v54) = Cert.Gnn.col (Cert.Gnn.invSqrt (Cert.Gnn.deg (m ((c : Thread nD τ).loc main_arg12)))) := by
  have h12 : W10 m ρ c (Proc.devRef .tc main_arg12) = (m ((c : Thread nD τ).loc main_arg12)) := by walk
  exact (s4_v54 (W10 m ρ c)).trans (by rw [h12])

/-- After the degree stretch: the clamped in-degrees. -/
theorem l2_din : W11 m ρ c (Proc.devRef .tc main_v51) = Cert.Gnn.deg (m ((c : Thread nD τ).loc main_arg13)) := by
  have h13 : W10 m ρ c (Proc.devRef .tc main_arg13) = (m ((c : Thread nD τ).loc main_arg13)) := by walk
  exact (s4_v51 (W10 m ρ c)).trans (by rw [h13])

/-- After the projection launch: the scaled features times the weights. -/
theorem l2_mm : W12 m ρ c (Proc.devRef .tc main_v55)
    = Cert.Gnn.lin (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (Cert.Gnn.invSqrt (Cert.Gnn.deg (m ((c : Thread nD τ).loc main_arg12)))) (m ((c : Thread nD τ).loc main_arg8)) := by
  have hh : W11 m ρ c (Proc.devRef .tc main_v40) = (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) := (keep4 (by decide)).trans (l1_out m ρ c)
  have hw : W11 m ρ c (Proc.devRef .tc main_arg8) = (m ((c : Thread nD τ).loc main_arg8)) := by walk
  rw [show W12 m ρ c (Proc.devRef .tc main_v55) = (dat4 (V11 m ρ) c).arrAt 3 cfg4.N from W12_arr m ρ c 3,
    Region4.final (V11 m ρ) c]
  show Cert.Gnn.K.linK (W11 m ρ c (Proc.devRef .tc main_v40)) (W11 m ρ c (Proc.devRef .tc main_v54))
    (W11 m ρ c (Proc.devRef .tc main_arg8)) = _
  rw [hh, l2_col m ρ c, hw]
  exact Cert.Gnn.linK_eq _ _ _

/-- After the edge stretch: the messages summed at their destinations. -/
theorem l2_agg : W13 m ρ c (Proc.devRef .tc main_v65)
    = Cert.Gnn.aggregate (Cert.Gnn.lin (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (Cert.Gnn.invSqrt (Cert.Gnn.deg (m ((c : Thread nD τ).loc main_arg12)))) (m ((c : Thread nD τ).loc main_arg8))) (m ((c : Thread nD τ).loc main_arg12)) (m ((c : Thread nD τ).loc main_arg13)) := by
  have h12 : W12 m ρ c (Proc.devRef .tc main_arg12) = (m ((c : Thread nD τ).loc main_arg12)) := by walk
  have h13 : W12 m ρ c (Proc.devRef .tc main_arg13) = (m ((c : Thread nD τ).loc main_arg13)) := by walk
  exact (s5_v65 (W12 m ρ c)).trans (by rw [l2_mm m ρ c, h12, h13])

/-- After the edge stretch: the in-degree normalisation as a column. -/
theorem l2_col2 : W13 m ρ c (Proc.devRef .tc main_v68) = Cert.Gnn.col (Cert.Gnn.invSqrt (Cert.Gnn.deg (m ((c : Thread nD τ).loc main_arg13)))) := by
  have hd : W12 m ρ c (Proc.devRef .tc main_v51) = Cert.Gnn.deg (m ((c : Thread nD τ).loc main_arg13)) :=
    (W12_of_ne m ρ c main_v51 (by decide)).trans (l2_din m ρ c)
  exact (s5_v68 (W12 m ρ c)).trans (by rw [hd])

/-- After the edge stretch: the bias as a one-row matrix. -/
theorem l2_brow : W13 m ρ c (Proc.devRef .tc main_v69) = shapeCast S1x146 (m ((c : Thread nD τ).loc main_arg9)) shapeCasts_S146_S1x146 := by
  have hb : W12 m ρ c (Proc.devRef .tc main_arg9) = (m ((c : Thread nD τ).loc main_arg9)) := by walk
  exact (s5_v69 (W12 m ρ c)).trans (by rw [hb])

/-- After the pre-normalisation launch: the activations before normalisation. -/
theorem l2_pre : W14 m ρ c (Proc.devRef .tc main_v70) = (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) := by
  have h1 : W13 m ρ c (Proc.devRef .tc main_arg1) = (m ((c : Thread nD τ).loc main_arg1)) := by walk
  rw [show W14 m ρ c (Proc.devRef .tc main_v70) = (dat5 (V13 m ρ) c).arrAt 4 cfg5.N from W14_arr m ρ c 4,
    Region5.final (V13 m ρ) c]
  show Cert.Gnn.K.preK (W13 m ρ c (Proc.devRef .tc main_v65)) (W13 m ρ c (Proc.devRef .tc main_v68))
    (W13 m ρ c (Proc.devRef .tc main_v69)) (W13 m ρ c (Proc.devRef .tc main_arg1)) = _
  rw [l2_agg m ρ c, l2_col2 m ρ c, l2_brow m ρ c, h1]
  exact Cert.Gnn.preK_eq _ _ _ _ _

/-- After the statistics stretch: the column means. -/
theorem l2_mean : W15 m ρ c (Proc.devRef .tc main_v73) = Cert.Gnn.mean (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) :=
  (s6_v73 (W14 m ρ c)).trans (by rw [l2_pre m ρ c])

/-- After the statistics stretch: the variance's degrees-of-freedom argument is zero. -/
theorem l2_cz : W15 m ρ c (Proc.devRef .tc main_c_23) = constantI S_ 32 0#32 := s6_c23 (W14 m ρ c)

/-- After the outlined variance: the column variances. -/
theorem l2_var : W16 m ρ c (Proc.devRef .tc main_v74) = Cert.Gnn.variance (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) := by
  have hp : W15 m ρ c (Proc.devRef .tc main_v70) = (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) := (keep6 (by decide)).trans (l2_pre m ρ c)
  exact (s6_1_v74 (W15 m ρ c) (l2_cz m ρ c)).trans (by rw [hp])

/-- After the casts: the means as a one-row matrix. -/
theorem l2_mu2 : W17 m ρ c (Proc.devRef .tc main_v75) = shapeCast S1x146 (Cert.Gnn.mean (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9)))) shapeCasts_S146_S1x146 := by
  have h : W16 m ρ c (Proc.devRef .tc main_v73) = Cert.Gnn.mean (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) := (keep6_1 (by decide)).trans (l2_mean m ρ c)
  exact (s6_2_v75 (W16 m ρ c)).trans (by rw [h])

/-- After the casts: the variances as a one-row matrix. -/
theorem l2_var2 : W17 m ρ c (Proc.devRef .tc main_v76) = shapeCast S1x146 (Cert.Gnn.variance (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9)))) shapeCasts_S146_S1x146 :=
  (s6_2_v76 (W16 m ρ c)).trans (by rw [l2_var m ρ c])

/-- After the casts: the scale as a one-row matrix. -/
theorem l2_g2 : W17 m ρ c (Proc.devRef .tc main_v77) = shapeCast S1x146 (m ((c : Thread nD τ).loc main_arg10)) shapeCasts_S146_S1x146 := by
  have h : W16 m ρ c (Proc.devRef .tc main_arg10) = (m ((c : Thread nD τ).loc main_arg10)) := by walk
  exact (s6_2_v77 (W16 m ρ c)).trans (by rw [h])

/-- After the casts: the shift as a one-row matrix. -/
theorem l2_be2 : W17 m ρ c (Proc.devRef .tc main_v78) = shapeCast S1x146 (m ((c : Thread nD τ).loc main_arg11)) shapeCasts_S146_S1x146 := by
  have h : W16 m ρ c (Proc.devRef .tc main_arg11) = (m ((c : Thread nD τ).loc main_arg11)) := by walk
  exact (s6_2_v78 (W16 m ρ c)).trans (by rw [h])

/-- After the normalisation launch: the layer's output. -/
theorem l2_out : W18 m ρ c (Proc.devRef .tc main_v79) = (Cert.Gnn.layer (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9)) (m ((c : Thread nD τ).loc main_arg10)) (m ((c : Thread nD τ).loc main_arg11))) := by
  have hp : W17 m ρ c (Proc.devRef .tc main_v70) = (Cert.Gnn.preAct (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg1)) (m ((c : Thread nD τ).loc main_arg8)) (m ((c : Thread nD τ).loc main_arg9))) :=
    (keep6_2 (by decide)).trans ((keep6_1 (by decide)).trans ((keep6 (by decide)).trans (l2_pre m ρ c)))
  have hh : W17 m ρ c (Proc.devRef .tc main_v40) = (Cert.Gnn.layer (Cert.Gnn.embed (m ((c : Thread nD τ).loc main_arg0)) (m ((c : Thread nD τ).loc main_arg2)) (m ((c : Thread nD τ).loc main_arg3))) (m ((c : Thread nD τ).loc main_arg12)) (m ((c : Thread nD τ).loc main_arg13)) (m ((c : Thread nD τ).loc main_arg1)) (m ((c : Thread nD τ).loc main_arg4)) (m ((c : Thread nD τ).loc main_arg5)) (m ((c : Thread nD τ).loc main_arg6)) (m ((c : Thread nD τ).loc main_arg7))) :=
    (keep6_2 (by decide)).trans ((keep6_1 (by decide)).trans ((keep6 (by decide)).trans
      ((W14_of_ne m ρ c main_v40 (by decide)).trans ((keep5 (by decide)).trans
        (((W12_arr m ρ c 0).trans (((dat4 (V11 m ρ) c).arrAt_in 0 rfl _).trans (A_eq4 (V11 m ρ) c 0))).trans
          ((keep4 (by decide)).trans (l1_out m ρ c)))))))
  rw [show W18 m ρ c (Proc.devRef .tc main_v79) = (dat6 (V17 m ρ) c).arrAt 6 cfg6.N from W18_arr m ρ c 6,
    Region6.final (V17 m ρ) c]
  show Cert.Gnn.K.bnK (W17 m ρ c (Proc.devRef .tc main_v70)) (W17 m ρ c (Proc.devRef .tc main_v75))
    (W17 m ρ c (Proc.devRef .tc main_v76)) (W17 m ρ c (Proc.devRef .tc main_v77)) (W17 m ρ c (Proc.devRef .tc main_v78))
    (W17 m ρ c (Proc.devRef .tc main_v40)) = _
  rw [hp, l2_mu2 m ρ c, l2_var2 m ρ c, l2_g2 m ρ c, l2_be2 m ρ c, hh]
  exact Cert.Gnn.bnK_eq _ _ _ _ _ _ _

/-! ## The pooling, and the run -/

/-- At the return the result buffer holds the specification's function of the arguments. -/
theorem result_eq : W19 m ρ c (Proc.devRef .tc main_v91)
    = Cert.Gnn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h14 : W18 m ρ c (Proc.devRef .tc main_arg14) = (m ((c : Thread nD τ).loc main_arg14)) := by walk
  exact (s7_v91 (W18 m ρ c)).trans (by rw [l2_out m ρ c, h14]; rfl)

/-- Every weakly fair execution of the idealized kernel program terminates without a fault, its result the
    specification's function of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v91)
        = Cert.Gnn.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (defs (F := Ideal)) _ _).mono (fun r h c => ⟨(h c).1.trans (result_eq m ρ c), (h c).2⟩)
    (Cert.KernelIdeal.Run.run_named (F := Ideal) m ρ)

end Cert.KernelIdeal.Chain

end
-- ==== Proof.RefRun.lean ====
/-
  The reference function's run. Its body is a straight line of whole-array operations: two hundred and ten of them once the
  three helper functions it calls (the column variance, the choice inside it, and the clamp at zero) are written out at
  the places they are called, each over the buffers of that call. The line is listed in four consecutive pieces — the
  embedding, the two layers, the pooling — and the body is shown equal to running the four pieces one after another.
  Every operation touches TensorCore buffers only and the signature scopes no buffer and no semaphore, so every weakly
  fair execution terminates, and every buffer then holds what folding the operations' results over the launch contents
  gives.
-/
import proofs.«124989_j83073257439657_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The embedding: the product of the node features with the first weight matrix, and the bias row added to every node. -/
abbrev opsA : List (HloOp τ sig (Elt F)) :=
  [ binary main_arg0 main_arg2 main_v0 ((fun l r => Host.dotGeneral dot_S100000x128_S128x146_S100000x146_1_0_0_1_n_n none l r) : (⟨S100000x128, .f32⟩ : BufTy).Contents (Elt F) → (⟨S128x146, .f32⟩ : BufTy).Contents (Elt F) → (⟨S100000x146, .f32⟩ : BufTy).Contents (Elt F)),
    unary main_arg3 main_v1 (broadcastInDim S1x146 ![1] bcast_S146_S1x146_1 : (⟨S146, .f32⟩ : BufTy).Contents (Elt F) → (⟨S1x146, .f32⟩ : BufTy).Contents (Elt F)),
    unary main_v1 main_v2 (broadcastInDim S100000x146 ![0, 1] bcast_S1x146_S100000x146_0_1 : (⟨S1x146, .f32⟩ : BufTy).Contents (Elt F) → (⟨S100000x146, .f32⟩ : BufTy).Contents (Elt F)),
    binary main_v0 main_v2 main_v3 (addf : (⟨S100000x146, .f32⟩ : BufTy).Contents (Elt F) → (⟨S100000x146, .f32⟩ : BufTy).Contents (Elt F) → (⟨S100000x146, .f32⟩ : BufTy).Contents (Elt F)) ]

/-- The first layer. Out- and in-degrees by adding ones over the edges' sources and targets, clamped below at one and raised
    to the power -1/2; the features scaled per node and multiplied by the layer's weights; each edge's source row added into its
    target's row (a negative source index read from the end); the sum scaled per node, the bias added, the node's own scale applied;
    the column means and the column variances (mean of squared deviations, divided by the count less zero, not-a-number were
    that divisor not positive); the normalisation with the reciprocal square root of the variance plus a small constant, the gain and
    the shift; the clamp below at zero; the layer's input added. -/
abbrev opsB : List (HloOp τ sig (Elt F)) :=
  [ nullary main_cst (constant S_ .f32 0x3F800000#32),
    unary main_cst main_v4 (broadcastInDim S500000 ![] bcast_S_S500000 : (⟨S_, .f32⟩ : BufTy).Contents (Elt F) → (⟨S500000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_arg12 main_v6 (broadcastInDim S500000x1 ![0] bcast_S500000_S500000x1_0 : (⟨S500000, .i32⟩ : BufTy).Contents (Elt F) → (⟨S500000x1, .i32⟩ : BufTy).Contents (Elt F)),
    ternary main_v5 main_v6 main_v4 main_v7 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    unary main_arg13 main_v11 (broadcastInDim S500000x1 ![0] bcast_S500000_S500000x1_0 : (⟨S500000, .i32⟩ : BufTy).Contents (Elt F) → (⟨S500000x1, .i32⟩ : BufTy).Contents (Elt F)),
    ternary main_v10 main_v11 main_v4 main_v12 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    nullary main_cst_4 (constant S_ .f32 0xBF000000#32),
    unary main_cst_4 main_v15 (broadcastInDim S100000 ![] bcast_S_S100000 : (⟨S_, .f32⟩ : BufTy).Contents (Elt F) → (⟨S100000, .f32⟩ : BufTy).Contents (Elt F)),
    binary main_v9 main_v15 main_v16 (Host.powf : (⟨S100000, .f32⟩ : BufTy).Contents (Elt F) → (⟨S100000, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)),
    unary main_v17 main_v18 (broadcastInDim S100000x146 ![0, 1] bcast_S100000x1_S100000x146_0_1 : (⟨S100000x1, .f32⟩ : BufTy).Contents (Elt F) → (⟨S100000x146, .f32⟩ : BufTy).Contents (Elt F)),
    binary main_v3 main_v18 main_v19 (mulf : (⟨S100000x146, .f32⟩ : BufTy).Contents (Elt F) → (⟨S100000x146, .f32⟩ : BufTy).Contents (Elt F) → (⟨S100000x146, .f32⟩ : BufTy).Contents (Elt F)),
    binary main_v19 main_arg4 main_v20 ((fun l r => Host.dotGeneral dot_S100000x146_S146x146_S100000x146_1_0_0_1_n_n none l r) : (⟨S100000x146, .f32⟩ : BufTy).Contents (Elt F) → (⟨S146x146, .f32⟩ : BufTy).Contents (Elt F) → (⟨S100000x146, .f32⟩ : BufTy).Contents (Elt F)),
    nullary main_c (constantI S_ 32 0#32),
    unary main_c main_v21 (broadcastInDim S500000 ![] bcast_S_S500000 : (⟨S_, .i32⟩ : BufTy).Contents (Elt F) → (⟨S500000, .i32⟩ : BufTy).Contents (Elt F)),
    binary main_arg12 main_v21 main_v22 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v23 (broadcastInDim S500000 ![] bcast_S_S500000 : (⟨S_, .i32⟩ : BufTy).Contents (Elt F) → (⟨S500000, .i32⟩ : BufTy).Contents (Elt F)),
    binary main_arg12 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_arg12 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_v20 main_v26 main_v27 ((fun x i => Host.gather gather_S100000x146_S500000x1_S500000x146_1_0_n_n_0_1_1146 x i) : (⟨S100000x146, .f32⟩ : BufTy).Contents (Elt F) → (⟨S500000x1, .i32⟩ : BufTy).Contents (Elt F) → (⟨S500000x146, .f32⟩ : BufTy).Contents (Elt F)),
    nullary main_cst_6 (constant S_ .f32 0x00000000#32),
    unary main_cst_6 main_v28 (broadcastInDim S100000x146 ![] bcast_S_S100000x146 : (⟨S_, .f32⟩ : BufTy).Contents (Elt F) → (⟨S100000x146, .f32⟩ : BufTy).Contents (Elt F)),
    unary main_arg13 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S100000x146_S500000x1_S500000x146_1_0_0_1 x i u) : (⟨S100000x146, .f32⟩ : BufTy).Contents (Elt F) → (⟨S500000x1, .i32⟩ : BufTy).Contents (Elt F) → (⟨S500000x146, .f32⟩ : BufTy).Contents (Elt F) → (⟨S100000x146, .f32⟩ : BufTy).Contents (Elt F)),
    nullary main_cst_7 (constant S_ .f32 0xBF000000#32),
    unary main_cst_7 main_v31 (broadcastInDim S100000 ![] bcast_S_S100000 : (⟨S_, .f32⟩ : BufTy).Contents (Elt F) → (⟨S100000, .f32⟩ : BufTy).Contents (Elt F)),
    binary main_v14 main_v31 main_v32 (Host.powf : (⟨S100000, .f32⟩ : BufTy).Contents (Elt F) → (⟨S100000, .f32⟩ : BufTy).Contents (Elt F) → (⟨S100000, .f32⟩ : BufTy).Contents (Elt F)),
    unary main_v32 main_v33 (broadcastInDim S100000x1 ![0] bcast_S100000_S100000x1_0 : (⟨S100000, .f32⟩ : BufTy).Contents (Elt F) → (⟨S100000x1, .f32⟩ : BufTy).Contents (Elt F)),
    unary main_v33 main_v34 (broadcastInDim S100000x146 ![0, 1] bcast_S100000x1_S100000x146_0_1 : (⟨S100000x1, .f32⟩ : BufTy).Contents (Elt F) → (⟨S100000x146, .f32⟩ : BufTy).Contents (Elt F)),
    binary main_v30 main_v34 main_v35 (mulf : (⟨S100000x146, .f32⟩ : BufTy).Contents (Elt F) → (⟨S100000x146, .f32⟩ : BufTy).Contents (Elt F) → (⟨S100000x146, .f32⟩ : BufTy).Contents (Elt F)),
    unary main_arg5 main_v36 (broadcastInDim S1x146 ![1] bcast_S146_S1x146_1 : (⟨S146, .f32⟩ : BufTy).Contents (Elt F) → (⟨S1x146, .f32⟩ : BufTy).Contents (Elt F)),
    unary main_v36 main_v37 (broadcastInDim S100000x146 ![0, 1] bcast_S1x146_S100000x146_0_1 : (⟨S1x146, .f32⟩ : BufTy).Contents (Elt F) → (⟨S100000x146, .f32⟩ : BufTy).Contents (Elt F)),
    binary main_v35 main_v37 main_v38 (addf : (⟨S100000x146, .f32⟩ : BufTy).Contents (Elt F) → (⟨S100000x146, .f32⟩ : BufTy).Contents (Elt F) → (⟨S100000x146, .f32⟩ : BufTy).Contents (Elt F)),
    unary main_arg1 main_v39 (broadcastInDim S100000x146 ![0, 1] bcast_S100000x1_S100000x146_0_1 : (⟨S100000x1, .f32⟩ : BufTy).Contents (Elt F) → (⟨S100000x146, .f32⟩ : BufTy).Contents (Elt F)),
    binary main_v38 main_v39 main_v40 (mulf : (⟨S100000x146, .f32⟩ : BufTy).Contents (Elt F) → (⟨S100000x146, .f32⟩ : BufTy).Contents (Elt F) → (⟨S100000x146, .f32⟩ : BufTy).Contents (Elt F)),
    nullary main_cst_8 (constant S_ .f32 0x00000000#32),
    binary main_v40 main_cst_8 main_v41 ((fun x v => Host.reduceAdd x v reducesTo_S100000x146_S146_d0 h_S_) : (⟨S100000x146, .f32⟩ : BufTy).Contents (Elt F) → (⟨S_, .f32⟩ : BufTy).Contents (Elt F) → (⟨S146, .f32⟩ : BufTy).Contents (Elt F)),
    nullary main_cst_9 (constant S_ .f32 0x47C35000#32),
    unary main_cst_9 main_v42 (broadcastInDim S146 ![] bcast_S_S146 : (⟨S_, .f32⟩ : BufTy).Contents (Elt F) → (⟨S146, .f32⟩ : BufTy).Contents (Elt F)),
    binary main_v41 main_v42 main_v43 (Host.divf : (⟨S146, .f32⟩ : BufTy).Contents (Elt F) → (⟨S146, .f32⟩ : BufTy).Contents (Elt F) → (⟨S146, .f32⟩ : BufTy).Contents (Elt F)),
    nullary main_c_10 (constantI S_ 32 0#32),
    TRef.nullary main_call0.cst (constant S_ .f32 0x00000000#32),
    TRef.binary (.of main_v40) main_call0.cst main_call0.v0 (fun x v => Host.reduceAdd x v reducesTo_S100000x146_S146_d0 h_S_),
    TRef.unary main_call0.v0 main_call0.v1 (broadcastInDim S1x146 ![1] bcast_S146_S1x146_1),
    TRef.nullary main_call0.cst_0 (constant S_ .f32 0x47C35000#32),
    TRef.unary main_call0.cst_0 main_call0.v2 (broadcastInDim S1x146 ![] bcast_S_S1x146),
    TRef.binary main_call0.v1 main_call0.v2 main_call0.v3 Host.divf,
    TRef.unary main_call0.v3 main_call0.v4 (broadcastInDim S100000x146 ![0, 1] bcast_S1x146_S100000x146_0_1),
    TRef.binary (.of main_v40) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x146_S146_d0 h_S_),
    TRef.unary main_call0.v8 main_call0.v10 (broadcastInDim S146 ![] bcast_S_S146),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S146 ![] bcast_S_S146),
    TRef.ternary main_call0.v12 main_call0.v11 main_call0.call0.v1 main_call0.call0.v2 (fun p a b => select (broadcastInDim S146 ![] bcast_S_S146 p) a b),
    unary main_v43 main_v45 (broadcastInDim S1x146 ![1] bcast_S146_S1x146_1 : (⟨S146, .f32⟩ : BufTy).Contents (Elt F) → (⟨S1x146, .f32⟩ : BufTy).Contents (Elt F)),
    unary main_v45 main_v46 (broadcastInDim S100000x146 ![0, 1] bcast_S1x146_S100000x146_0_1 : (⟨S1x146, .f32⟩ : BufTy).Contents (Elt F) → (⟨S100000x146, .f32⟩ : BufTy).Contents (Elt F)),
    binary main_v40 main_v46 main_v47 (subf : (⟨S100000x146, .f32⟩ : BufTy).Contents (Elt F) → (⟨S100000x146, .f32⟩ : BufTy).Contents (Elt F) → (⟨S100000x146, .f32⟩ : BufTy).Contents (Elt F)),
    nullary main_cst_11 (constant S_ .f32 0x3727C5AC#32),
    unary main_cst_11 main_v48 (broadcastInDim S146 ![] bcast_S_S146 : (⟨S_, .f32⟩ : BufTy).Contents (Elt F) → (⟨S146, .f32⟩ : BufTy).Contents (Elt F)),
    binary main_v44 main_v48 main_v49 (addf : (⟨S146, .f32⟩ : BufTy).Contents (Elt F) → (⟨S146, .f32⟩ : BufTy).Contents (Elt F) → (⟨S146, .f32⟩ : BufTy).Contents (Elt F)),
    unary main_v49 main_v50 (Host.rsqrt : (⟨S146, .f32⟩ : BufTy).Contents (Elt F) → (⟨S146, .f32⟩ : BufTy).Contents (Elt F)),
    unary main_v50 main_v51 (broadcastInDim S1x146 ![1] bcast_S146_S1x146_1 : (⟨S146, .f32⟩ : BufTy).Contents (Elt F) → (⟨S1x146, .f32⟩ : BufTy).Contents (Elt F)),
    unary main_v51 main_v52 (broadcastInDim S100000x146 ![0, 1] bcast_S1x146_S100000x146_0_1 : (⟨S1x146, .f32⟩ : BufTy).Contents (Elt F) → (⟨S100000x146, .f32⟩ : BufTy).Contents (Elt F)),
    binary main_v47 main_v52 main_v53 (mulf : (⟨S100000x146, .f32⟩ : BufTy).Contents (Elt F) → (⟨S100000x146, .f32⟩ : BufTy).Contents (Elt F) → (⟨S100000x146, .f32⟩ : BufTy).Contents (Elt F)),
    unary main_arg6 main_v54 (broadcastInDim S1x146 ![1] bcast_S146_S1x146_1 : (⟨S146, .f32⟩ : BufTy).Contents (Elt F) → (⟨S1x146, .f32⟩ : BufTy).Contents (Elt F)),
    unary main_v54 main_v55 (broadcastInDim S100000x146 ![0, 1] bcast_S1x146_S100000x146_0_1 : (⟨S1x146, .f32⟩ : BufTy).Contents (Elt F) → (⟨S100000x146, .f32⟩ : BufTy).Contents (Elt F)),
    binary main_v53 main_v55 main_v56 (mulf : (⟨S100000x146, .f32⟩ : BufTy).Contents (Elt F) → (⟨S100000x146, .f32⟩ : BufTy).Contents (Elt F) → (⟨S100000x146, .f32⟩ : BufTy).Contents (Elt F)),
    unary main_arg7 main_v57 (broadcastInDim S1x146 ![1] bcast_S146_S1x146_1 : (⟨S146, .f32⟩ : BufTy).Contents (Elt F) → (⟨S1x146, .f32⟩ : BufTy).Contents (Elt F)),
    unary main_v57 main_v58 (broadcastInDim S100000x146 ![0, 1] bcast_S1x146_S100000x146_0_1 : (⟨S1x146, .f32⟩ : BufTy).Contents (Elt F) → (⟨S100000x146, .f32⟩ : BufTy).Contents (Elt F)),
    binary main_v56 main_v58 main_v59 (addf : (⟨S100000x146, .f32⟩ : BufTy).Contents (Elt F) → (⟨S100000x146, .f32⟩ : BufTy).Contents (Elt F) → (⟨S100000x146, .f32⟩ : BufTy).Contents (Elt F)),
    TRef.nullary main_call1.cst (constant S_ .f32 0x00000000#32),
    TRef.unary main_call1.cst main_call1.v0 (broadcastInDim S100000x146 ![] bcast_S_S100000x146),
    TRef.binary (.of main_v59) main_call1.v0 main_call1.v1 maximumf,
    binary main_v3 main_v60 main_v61 (addf : (⟨S100000x146, .f32⟩ : BufTy).Contents (Elt F) → (⟨S100000x146, .f32⟩ : BufTy).Contents (Elt F) → (⟨S100000x146, .f32⟩ : BufTy).Contents (Elt F)) ]

/-- The second layer: the same operations over the first layer's result, with the second layer's weights, bias, gain and shift. -/
abbrev opsC : List (HloOp τ sig (Elt F)) :=
  [ nullary main_cst_12 (constant S_ .f32 0x3F800000#32),
    unary main_cst_12 main_v62 (broadcastInDim S500000 ![] bcast_S_S500000 : (⟨S_, .f32⟩ : BufTy).Contents (Elt F) → (⟨S500000, .f32⟩ : BufTy).Contents (Elt F)),
    nullary main_cst_13 (constant S_ .f32 0x00000000#32),
    unary main_cst_13 main_v63 (broadcastInDim S100000 ![] bcast_S_S100000 : (⟨S_, .f32⟩ : BufTy).Contents (Elt F) → (⟨S100000, .f32⟩ : BufTy).Contents (Elt F)),
    unary main_arg12 main_v64 (broadcastInDim S500000x1 ![0] bcast_S500000_S500000x1_0 : (⟨S500000, .i32⟩ : BufTy).Contents (Elt F) → (⟨S500000x1, .i32⟩ : BufTy).Contents (Elt F)),
    ternary main_v63 main_v64 main_v62 main_v65 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_14 (constant S_ .f32 0x3F800000#32),
    unary main_cst_14 main_v66 (broadcastInDim S100000 ![] bcast_S_S100000 : (⟨S_, .f32⟩ : BufTy).Contents (Elt F) → (⟨S100000, .f32⟩ : BufTy).Contents (Elt F)),
    binary main_v65 main_v66 main_v67 (maximumf : (⟨S100000, .f32⟩ : BufTy).Contents (Elt F) → (⟨S100000, .f32⟩ : BufTy).Contents (Elt F) → (⟨S100000, .f32⟩ : BufTy).Contents (Elt F)),
    nullary main_cst_15 (constant S_ .f32 0x00000000#32),
    unary main_cst_15 main_v68 (broadcastInDim S100000 ![] bcast_S_S100000 : (⟨S_, .f32⟩ : BufTy).Contents (Elt F) → (⟨S100000, .f32⟩ : BufTy).Contents (Elt F)),
    unary main_arg13 main_v69 (broadcastInDim S500000x1 ![0] bcast_S500000_S500000x1_0 : (⟨S500000, .i32⟩ : BufTy).Contents (Elt F) → (⟨S500000x1, .i32⟩ : BufTy).Contents (Elt F)),
    ternary main_v68 main_v69 main_v62 main_v70 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_16 (constant S_ .f32 0x3F800000#32),
    unary main_cst_16 main_v71 (broadcastInDim S100000 ![] bcast_S_S100000 : (⟨S_, .f32⟩ : BufTy).Contents (Elt F) → (⟨S100000, .f32⟩ : BufTy).Contents (Elt F)),
    binary main_v70 main_v71 main_v72 (maximumf : (⟨S100000, .f32⟩ : BufTy).Contents (Elt F) → (⟨S100000, .f32⟩ : BufTy).Contents (Elt F) → (⟨S100000, .f32⟩ : BufTy).Contents (Elt F)),
    nullary main_cst_17 (constant S_ .f32 0xBF000000#32),
    unary main_cst_17 main_v73 (broadcastInDim S100000 ![] bcast_S_S100000 : (⟨S_, .f32⟩ : BufTy).Contents (Elt F) → (⟨S100000, .f32⟩ : BufTy).Contents (Elt F)),
    binary main_v67 main_v73 main_v74 (Host.powf : (⟨S100000, .f32⟩ : BufTy).Contents (Elt F) → (⟨S100000, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    unary main_v75 main_v76 (broadcastInDim S100000x146 ![0, 1] bcast_S100000x1_S100000x146_0_1 : (⟨S100000x1, .f32⟩ : BufTy).Contents (Elt F) → (⟨S100000x146, .f32⟩ : BufTy).Contents (Elt F)),
    binary main_v61 main_v76 main_v77 (mulf : (⟨S100000x146, .f32⟩ : BufTy).Contents (Elt F) → (⟨S100000x146, .f32⟩ : BufTy).Contents (Elt F) → (⟨S100000x146, .f32⟩ : BufTy).Contents (Elt F)),
    binary main_v77 main_arg8 main_v78 ((fun l r => Host.dotGeneral dot_S100000x146_S146x146_S100000x146_1_0_0_1_n_n none l r) : (⟨S100000x146, .f32⟩ : BufTy).Contents (Elt F) → (⟨S146x146, .f32⟩ : BufTy).Contents (Elt F) → (⟨S100000x146, .f32⟩ : BufTy).Contents (Elt F)),
    nullary main_c_18 (constantI S_ 32 0#32),
    unary main_c_18 main_v79 (broadcastInDim S500000 ![] bcast_S_S500000 : (⟨S_, .i32⟩ : BufTy).Contents (Elt F) → (⟨S500000, .i32⟩ : BufTy).Contents (Elt F)),
    binary main_arg12 main_v79 main_v80 (cmpi .slt : (⟨S500000, .i32⟩ : BufTy).Contents (Elt F) → (⟨S500000, .i32⟩ : BufTy).Contents (Elt F) → (⟨S500000, .i1⟩ : BufTy).Contents (Elt F)),
    nullary main_c_19 (constantI S_ 32 100000#32),
    unary main_c_19 main_v81 (broadcastInDim S500000 ![] bcast_S_S500000 : (⟨S_, .i32⟩ : BufTy).Contents (Elt F) → (⟨S500000, .i32⟩ : BufTy).Contents (Elt F)),
    binary main_arg12 main_v81 main_v82 (addi : (⟨S500000, .i32⟩ : BufTy).Contents (Elt F) → (⟨S500000, .i32⟩ : BufTy).Contents (Elt F) → (⟨S500000, .i32⟩ : BufTy).Contents (Elt F)),
    ternary main_v80 main_v82 main_arg12 main_v83 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v83 main_v84 (broadcastInDim S500000x1 ![0] bcast_S500000_S500000x1_0 : (⟨S500000, .i32⟩ : BufTy).Contents (Elt F) → (⟨S500000x1, .i32⟩ : BufTy).Contents (Elt F)),
    binary main_v78 main_v84 main_v85 ((fun x i => Host.gather gather_S100000x146_S500000x1_S500000x146_1_0_n_n_0_1_1146 x i) : (⟨S100000x146, .f32⟩ : BufTy).Contents (Elt F) → (⟨S500000x1, .i32⟩ : BufTy).Contents (Elt F) → (⟨S500000x146, .f32⟩ : BufTy).Contents (Elt F)),
    nullary main_cst_20 (constant S_ .f32 0x00000000#32),
    unary main_cst_20 main_v86 (broadcastInDim S100000x146 ![] bcast_S_S100000x146 : (⟨S_, .f32⟩ : BufTy).Contents (Elt F) → (⟨S100000x146, .f32⟩ : BufTy).Contents (Elt F)),
    unary main_arg13 main_v87 (broadcastInDim S500000x1 ![0] bcast_S500000_S500000x1_0 : (⟨S500000, .i32⟩ : BufTy).Contents (Elt F) → (⟨S500000x1, .i32⟩ : BufTy).Contents (Elt F)),
    ternary main_v86 main_v87 main_v85 main_v88 ((fun x i u => Host.scatterAdd scatter_S100000x146_S500000x1_S500000x146_1_0_0_1 x i u) : (⟨S100000x146, .f32⟩ : BufTy).Contents (Elt F) → (⟨S500000x1, .i32⟩ : BufTy).Contents (Elt F) → (⟨S500000x146, .f32⟩ : BufTy).Contents (Elt F) → (⟨S100000x146, .f32⟩ : BufTy).Contents (Elt F)),
    nullary main_cst_21 (constant S_ .f32 0xBF000000#32),
    unary main_cst_21 main_v89 (broadcastInDim S100000 ![] bcast_S_S100000 : (⟨S_, .f32⟩ : BufTy).Contents (Elt F) → (⟨S100000, .f32⟩ : BufTy).Contents (Elt F)),
    binary main_v72 main_v89 main_v90 (Host.powf : (⟨S100000, .f32⟩ : BufTy).Contents (Elt F) → (⟨S100000, .f32⟩ : BufTy).Contents (Elt F) → (⟨S100000, .f32⟩ : BufTy).Contents (Elt F)),
    unary main_v90 main_v91 (broadcastInDim S100000x1 ![0] bcast_S100000_S100000x1_0 : (⟨S100000, .f32⟩ : BufTy).Contents (Elt F) → (⟨S100000x1, .f32⟩ : BufTy).Contents (Elt F)),
    unary main_v91 main_v92 (broadcastInDim S100000x146 ![0, 1] bcast_S100000x1_S100000x146_0_1 : (⟨S100000x1, .f32⟩ : BufTy).Contents (Elt F) → (⟨S100000x146, .f32⟩ : BufTy).Contents (Elt F)),
    binary main_v88 main_v92 main_v93 (mulf : (⟨S100000x146, .f32⟩ : BufTy).Contents (Elt F) → (⟨S100000x146, .f32⟩ : BufTy).Contents (Elt F) → (⟨S100000x146, .f32⟩ : BufTy).Contents (Elt F)),
    unary main_arg9 main_v94 (broadcastInDim S1x146 ![1] bcast_S146_S1x146_1 : (⟨S146, .f32⟩ : BufTy).Contents (Elt F) → (⟨S1x146, .f32⟩ : BufTy).Contents (Elt F)),
    unary main_v94 main_v95 (broadcastInDim S100000x146 ![0, 1] bcast_S1x146_S100000x146_0_1 : (⟨S1x146, .f32⟩ : BufTy).Contents (Elt F) → (⟨S100000x146, .f32⟩ : BufTy).Contents (Elt F)),
    binary main_v93 main_v95 main_v96 (addf : (⟨S100000x146, .f32⟩ : BufTy).Contents (Elt F) → (⟨S100000x146, .f32⟩ : BufTy).Contents (Elt F) → (⟨S100000x146, .f32⟩ : BufTy).Contents (Elt F)),
    unary main_arg1 main_v97 (broadcastInDim S100000x146 ![0, 1] bcast_S100000x1_S100000x146_0_1 : (⟨S100000x1, .f32⟩ : BufTy).Contents (Elt F) → (⟨S100000x146, .f32⟩ : BufTy).Contents (Elt F)),
    binary main_v96 main_v97 main_v98 (mulf : (⟨S100000x146, .f32⟩ : BufTy).Contents (Elt F) → (⟨S100000x146, .f32⟩ : BufTy).Contents (Elt F) → (⟨S100000x146, .f32⟩ : BufTy).Contents (Elt F)),
    nullary main_cst_22 (constant S_ .f32 0x00000000#32),
    binary main_v98 main_cst_22 main_v99 ((fun x v => Host.reduceAdd x v reducesTo_S100000x146_S146_d0 h_S_) : (⟨S100000x146, .f32⟩ : BufTy).Contents (Elt F) → (⟨S_, .f32⟩ : BufTy).Contents (Elt F) → (⟨S146, .f32⟩ : BufTy).Contents (Elt F)),
    nullary main_cst_23 (constant S_ .f32 0x47C35000#32),
    unary main_cst_23 main_v100 (broadcastInDim S146 ![] bcast_S_S146 : (⟨S_, .f32⟩ : BufTy).Contents (Elt F) → (⟨S146, .f32⟩ : BufTy).Contents (Elt F)),
    binary main_v99 main_v100 main_v101 (Host.divf : (⟨S146, .f32⟩ : BufTy).Contents (Elt F) → (⟨S146, .f32⟩ : BufTy).Contents (Elt F) → (⟨S146, .f32⟩ : BufTy).Contents (Elt F)),
    nullary main_c_24 (constantI S_ 32 0#32),
    TRef.nullary main_call2.cst (constant S_ .f32 0x00000000#32),
    TRef.binary (.of main_v98) main_call2.cst main_call2.v0 (fun x v => Host.reduceAdd x v reducesTo_S100000x146_S146_d0 h_S_),
    TRef.unary main_call2.v0 main_call2.v1 (broadcastInDim S1x146 ![1] bcast_S146_S1x146_1),
    TRef.nullary main_call2.cst_0 (constant S_ .f32 0x47C35000#32),
    TRef.unary main_call2.cst_0 main_call2.v2 (broadcastInDim S1x146 ![] bcast_S_S1x146),
    TRef.binary main_call2.v1 main_call2.v2 main_call2.v3 Host.divf,
    TRef.unary main_call2.v3 main_call2.v4 (broadcastInDim S100000x146 ![0, 1] bcast_S1x146_S100000x146_0_1),
    TRef.binary (.of main_v98) main_call2.v4 main_call2.v5 subf,
    TRef.binary main_call2.v5 main_call2.v5 main_call2.v6 mulf,
    TRef.unary (.of main_c_24) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x146_S146_d0 h_S_),
    TRef.unary main_call2.v8 main_call2.v10 (broadcastInDim S146 ![] bcast_S_S146),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S146 ![] bcast_S_S146),
    TRef.ternary main_call2.v12 main_call2.v11 main_call2.call0.v1 main_call2.call0.v2 (fun p a b => select (broadcastInDim S146 ![] bcast_S_S146 p) a b),
    unary main_v101 main_v103 (broadcastInDim S1x146 ![1] bcast_S146_S1x146_1 : (⟨S146, .f32⟩ : BufTy).Contents (Elt F) → (⟨S1x146, .f32⟩ : BufTy).Contents (Elt F)),
    unary main_v103 main_v104 (broadcastInDim S100000x146 ![0, 1] bcast_S1x146_S100000x146_0_1 : (⟨S1x146, .f32⟩ : BufTy).Contents (Elt F) → (⟨S100000x146, .f32⟩ : BufTy).Contents (Elt F)),
    binary main_v98 main_v104 main_v105 (subf : (⟨S100000x146, .f32⟩ : BufTy).Contents (Elt F) → (⟨S100000x146, .f32⟩ : BufTy).Contents (Elt F) → (⟨S100000x146, .f32⟩ : BufTy).Contents (Elt F)),
    nullary main_cst_25 (constant S_ .f32 0x3727C5AC#32),
    unary main_cst_25 main_v106 (broadcastInDim S146 ![] bcast_S_S146 : (⟨S_, .f32⟩ : BufTy).Contents (Elt F) → (⟨S146, .f32⟩ : BufTy).Contents (Elt F)),
    binary main_v102 main_v106 main_v107 (addf : (⟨S146, .f32⟩ : BufTy).Contents (Elt F) → (⟨S146, .f32⟩ : BufTy).Contents (Elt F) → (⟨S146, .f32⟩ : BufTy).Contents (Elt F)),
    unary main_v107 main_v108 (Host.rsqrt : (⟨S146, .f32⟩ : BufTy).Contents (Elt F) → (⟨S146, .f32⟩ : BufTy).Contents (Elt F)),
    unary main_v108 main_v109 (broadcastInDim S1x146 ![1] bcast_S146_S1x146_1 : (⟨S146, .f32⟩ : BufTy).Contents (Elt F) → (⟨S1x146, .f32⟩ : BufTy).Contents (Elt F)),
    unary main_v109 main_v110 (broadcastInDim S100000x146 ![0, 1] bcast_S1x146_S100000x146_0_1 : (⟨S1x146, .f32⟩ : BufTy).Contents (Elt F) → (⟨S100000x146, .f32⟩ : BufTy).Contents (Elt F)),
    binary main_v105 main_v110 main_v111 (mulf : (⟨S100000x146, .f32⟩ : BufTy).Contents (Elt F) → (⟨S100000x146, .f32⟩ : BufTy).Contents (Elt F) → (⟨S100000x146, .f32⟩ : BufTy).Contents (Elt F)),
    unary main_arg10 main_v112 (broadcastInDim S1x146 ![1] bcast_S146_S1x146_1 : (⟨S146, .f32⟩ : BufTy).Contents (Elt F) → (⟨S1x146, .f32⟩ : BufTy).Contents (Elt F)),
    unary main_v112 main_v113 (broadcastInDim S100000x146 ![0, 1] bcast_S1x146_S100000x146_0_1 : (⟨S1x146, .f32⟩ : BufTy).Contents (Elt F) → (⟨S100000x146, .f32⟩ : BufTy).Contents (Elt F)),
    binary main_v111 main_v113 main_v114 (mulf : (⟨S100000x146, .f32⟩ : BufTy).Contents (Elt F) → (⟨S100000x146, .f32⟩ : BufTy).Contents (Elt F) → (⟨S100000x146, .f32⟩ : BufTy).Contents (Elt F)),
    unary main_arg11 main_v115 (broadcastInDim S1x146 ![1] bcast_S146_S1x146_1 : (⟨S146, .f32⟩ : BufTy).Contents (Elt F) → (⟨S1x146, .f32⟩ : BufTy).Contents (Elt F)),
    unary main_v115 main_v116 (broadcastInDim S100000x146 ![0, 1] bcast_S1x146_S100000x146_0_1 : (⟨S1x146, .f32⟩ : BufTy).Contents (Elt F) → (⟨S100000x146, .f32⟩ : BufTy).Contents (Elt F)),
    binary main_v114 main_v116 main_v117 (addf : (⟨S100000x146, .f32⟩ : BufTy).Contents (Elt F) → (⟨S100000x146, .f32⟩ : BufTy).Contents (Elt F) → (⟨S100000x146, .f32⟩ : BufTy).Contents (Elt F)),
    TRef.nullary main_call3.cst (constant S_ .f32 0x00000000#32),
    TRef.unary main_call3.cst main_call3.v0 (broadcastInDim S100000x146 ![] bcast_S_S100000x146),
    TRef.binary (.of main_v117) main_call3.v0 main_call3.v1 maximumf,
    binary main_v61 main_v118 main_v119 (addf : (⟨S100000x146, .f32⟩ : BufTy).Contents (Elt F) → (⟨S100000x146, .f32⟩ : BufTy).Contents (Elt F) → (⟨S100000x146, .f32⟩ : BufTy).Contents (Elt F)) ]

/-- The pooling: per graph the number of its nodes (clamped below at one) and the sum of its nodes' rows, by adding over the
    nodes' graph indices; the quotient. -/
abbrev opsD : List (HloOp τ sig (Elt F)) :=
  [ nullary main_cst_26 (constant S_ .f32 0x3F800000#32),
    unary main_cst_26 main_v120 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v121 (broadcastInDim S1024 ![] bcast_S_S1024 : (⟨S_, .f32⟩ : BufTy).Contents (Elt F) → (⟨S1024, .f32⟩ : BufTy).Contents (Elt F)),
    unary main_arg14 main_v122 (broadcastInDim S100000x1 ![0] bcast_S100000_S100000x1_0 : (⟨S100000, .i32⟩ : BufTy).Contents (Elt F) → (⟨S100000x1, .i32⟩ : BufTy).Contents (Elt F)),
    ternary main_v121 main_v122 main_v120 main_v123 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_28 (constant S_ .f32 0x3F800000#32),
    unary main_cst_28 main_v124 (broadcastInDim S1024 ![] bcast_S_S1024 : (⟨S_, .f32⟩ : BufTy).Contents (Elt F) → (⟨S1024, .f32⟩ : BufTy).Contents (Elt F)),
    binary main_v123 main_v124 main_v125 (maximumf : (⟨S1024, .f32⟩ : BufTy).Contents (Elt F) → (⟨S1024, .f32⟩ : BufTy).Contents (Elt F) → (⟨S1024, .f32⟩ : BufTy).Contents (Elt F)),
    nullary main_cst_29 (constant S_ .f32 0x00000000#32),
    unary main_cst_29 main_v126 (broadcastInDim S1024x146 ![] bcast_S_S1024x146 : (⟨S_, .f32⟩ : BufTy).Contents (Elt F) → (⟨S1024x146, .f32⟩ : BufTy).Contents (Elt F)),
    unary main_arg14 main_v127 (broadcastInDim S100000x1 ![0] bcast_S100000_S100000x1_0 : (⟨S100000, .i32⟩ : BufTy).Contents (Elt F) → (⟨S100000x1, .i32⟩ : BufTy).Contents (Elt F)),
    ternary main_v126 main_v127 main_v119 main_v128 ((fun x i u => Host.scatterAdd scatter_S1024x146_S100000x1_S100000x146_1_0_0_1 x i u) : (⟨S1024x146, .f32⟩ : BufTy).Contents (Elt F) → (⟨S100000x1, .i32⟩ : BufTy).Contents (Elt F) → (⟨S100000x146, .f32⟩ : BufTy).Contents (Elt F) → (⟨S1024x146, .f32⟩ : BufTy).Contents (Elt F)),
    unary main_v125 main_v129 (broadcastInDim S1024x1 ![0] bcast_S1024_S1024x1_0 : (⟨S1024, .f32⟩ : BufTy).Contents (Elt F) → (⟨S1024x1, .f32⟩ : BufTy).Contents (Elt F)),
    unary main_v129 main_v130 (broadcastInDim S1024x146 ![0, 1] bcast_S1024x1_S1024x146_0_1 : (⟨S1024x1, .f32⟩ : BufTy).Contents (Elt F) → (⟨S1024x146, .f32⟩ : BufTy).Contents (Elt F)),
    binary main_v128 main_v130 main_v131 (Host.divf : (⟨S1024x146, .f32⟩ : BufTy).Contents (Elt F) → (⟨S1024x146, .f32⟩ : BufTy).Contents (Elt F) → (⟨S1024x146, .f32⟩ : BufTy).Contents (Elt F)) ]

set_option maxRecDepth 16384 in
set_option maxHeartbeats 4000000 in
/-- The body is the four pieces in order: with the helper functions' definitions unfolded at their calls and the
    sequencing reassociated, both sides are the same chain of single-operation steps. -/
theorem main_eq (c : Dev nD) : main (F := F) c = seq (opsA ++ opsB ++ opsC ++ opsD) := by
  simp only [main, main_part0, main_part1, main_part2, fn_var.body, fn_where.body, fn_relu.body, opsA, opsB, opsC, opsD,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩

theorem opsC_sub : (opsC : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩

theorem opsD_sub : (opsD : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., unary_bufs_sub .., unary_bufs_sub .., binary_bufs_sub ..⟩

/-- Every operation of the line touches TensorCore buffers only. -/
theorem ops_sub : (opsA ++ opsB ++ opsC ++ opsD : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

/-- For any float values, from any memory with zero counters: every weakly fair execution of the body on the TensorCore
    terminates, and every final state has each TensorCore buffer at the fold of the operations' results over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsA ++ opsB ++ opsC ++ opsD) (launchContents m c) (b : DevRef τ sig) :=
  run_seq scopedRefs_eq scopedSems_eq defs main (fun _ => opsA ++ opsB ++ opsC ++ opsD) main_eq (fun _ => ops_sub) m ρ

end Cert.RefRun

end
-- ==== Proof.RefValue.lean ====
/-
  What the reference function's run leaves in its buffers, as the whole-array function of the fifteen arguments.

  The line of operations is run piece by piece. Each piece's result buffer holds, after the piece, the corresponding
  whole-array function (the embedding, a layer, the pooling) of what the piece's input buffers held before it: the fold
  of the operations' results is unrolled and read off at the result buffer, and what is read is, operation for
  operation, the function's own definition. No piece writes an argument buffer or a buffer an earlier piece produced, so
  a later piece reads the arguments and the earlier results unchanged; the fold over the concatenation is the composition of
  the folds; hence the last result buffer holds the network's function of the launch contents of the arguments, and the
  arguments are unchanged.
-/
import proofs.«124989_j83073257439657_1_alg».proof.Proof.RefRun
import proofs.«124989_j83073257439657_1_alg».proof.Proof.Spec

noncomputable section

namespace Cert.RefValue

open Cert.ReferenceIdeal Cert.ReferenceIdeal.Gen Idealize.ShloMosaic Idealize.ShloMosaic.TcCoe Idealize.SL.Sem Idealize.ShloMosaic.StableHlo Cert.RefRun

/-- Folding over a concatenation is folding over the first list, then over the second. -/
theorem after_append {F : FTy → Type} [FloatOps F] : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## What each piece writes, and what it therefore leaves alone -/

/-- The buffers piece A writes, in order. -/
abbrev opsA_W : List (Ref sig .tc) := [main_v0, main_v1, main_v2, main_v3]
theorem opsA_writes {F : FTy → Type} [FloatOps F] : (opsA : List (HloOp τ sig (Elt F))).Forall fun op => op.writes ⊆ (opsA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer piece A does not write keeps its contents through it. -/
theorem keepA {F : FTy → Type} [FloatOps F] (V : Valuation τ sig (Elt F)) (r : Ref sig .tc) (h : r ∉ opsA_W) :
    after opsA V (Proc.devRef .tc r) = V (Proc.devRef .tc r) :=
  after_of_writes_sub opsA V opsA_writes h

/-- The buffers piece B writes, in order. -/
abbrev opsB_W : List (Ref sig .tc) := [main_cst, main_v4, main_cst_0, main_v5, main_v6, main_v7, main_cst_1, main_v8, main_v9, main_cst_2, main_v10, main_v11, main_v12, main_cst_3, main_v13, main_v14, main_cst_4, main_v15, main_v16, main_v17, main_v18, main_v19, main_v20, main_c, main_v21, main_v22, main_c_5, main_v23, main_v24, main_v25, main_v26, main_v27, main_cst_6, main_v28, main_v29, main_v30, main_cst_7, main_v31, main_v32, main_v33, main_v34, main_v35, main_v36, main_v37, main_v38, main_v39, main_v40, main_cst_8, main_v41, main_cst_9, main_v42, main_v43, main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v45, main_v46, main_v47, main_cst_11, main_v48, main_v49, main_v50, main_v51, main_v52, main_v53, main_v54, main_v55, main_v56, main_v57, main_v58, main_v59, main_call1.cst.ref, main_call1.v0.ref, main_call1.v1.ref, main_v61]
theorem opsB_writes {F : FTy → Type} [FloatOps F] : (opsB : List (HloOp τ sig (Elt F))).Forall fun op => op.writes ⊆ (opsB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer piece B does not write keeps its contents through it. -/
theorem keepB {F : FTy → Type} [FloatOps F] (V : Valuation τ sig (Elt F)) (r : Ref sig .tc) (h : r ∉ opsB_W) :
    after opsB V (Proc.devRef .tc r) = V (Proc.devRef .tc r) :=
  after_of_writes_sub opsB V opsB_writes h

/-- The buffers piece C writes, in order. -/
abbrev opsC_W : List (Ref sig .tc) := [main_cst_12, main_v62, main_cst_13, main_v63, main_v64, main_v65, main_cst_14, main_v66, main_v67, main_cst_15, main_v68, main_v69, main_v70, main_cst_16, main_v71, main_v72, main_cst_17, main_v73, main_v74, main_v75, main_v76, main_v77, main_v78, main_c_18, main_v79, main_v80, main_c_19, main_v81, main_v82, main_v83, main_v84, main_v85, main_cst_20, main_v86, main_v87, main_v88, main_cst_21, main_v89, main_v90, main_v91, main_v92, main_v93, main_v94, main_v95, main_v96, main_v97, main_v98, main_cst_22, main_v99, main_cst_23, main_v100, main_v101, main_c_24, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v103, main_v104, main_v105, main_cst_25, main_v106, main_v107, main_v108, main_v109, main_v110, main_v111, main_v112, main_v113, main_v114, main_v115, main_v116, main_v117, main_call3.cst.ref, main_call3.v0.ref, main_call3.v1.ref, main_v119]
theorem opsC_writes {F : FTy → Type} [FloatOps F] : (opsC : List (HloOp τ sig (Elt F))).Forall fun op => op.writes ⊆ (opsC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer piece C does not write keeps its contents through it. -/
theorem keepC {F : FTy → Type} [FloatOps F] (V : Valuation τ sig (Elt F)) (r : Ref sig .tc) (h : r ∉ opsC_W) :
    after opsC V (Proc.devRef .tc r) = V (Proc.devRef .tc r) :=
  after_of_writes_sub opsC V opsC_writes h

/-- The buffers piece D writes, in order. -/
abbrev opsD_W : List (Ref sig .tc) := [main_cst_26, main_v120, main_cst_27, main_v121, main_v122, main_v123, main_cst_28, main_v124, main_v125, main_cst_29, main_v126, main_v127, main_v128, main_v129, main_v130, main_v131]
theorem opsD_writes {F : FTy → Type} [FloatOps F] : (opsD : List (HloOp τ sig (Elt F))).Forall fun op => op.writes ⊆ (opsD_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer piece D does not write keeps its contents through it. -/
theorem keepD {F : FTy → Type} [FloatOps F] (V : Valuation τ sig (Elt F)) (r : Ref sig .tc) (h : r ∉ opsD_W) :
    after opsD V (Proc.devRef .tc r) = V (Proc.devRef .tc r) :=
  after_of_writes_sub opsD V opsD_writes h

/-! ## The helper functions' typed buffers

A helper function's operation reads and writes its buffers through the identification of the buffer's declared type with the
tensor type the function states; at each of these buffers the two are the same type and the identification is the identity. -/

theorem toBuf_main_call0_cst {F : FTy → Type} [FloatOps F] (h1 : main_call0_cst.ty = ⟨S_, .f32⟩) (h2 : main_call0_cst.space ≠ .host) (h3 : main_call0_cst.isScoped = false) (v : (⟨S_, .f32⟩ : BufTy).Contents (Elt F)) :
    (TRef.of main_call0_cst h1 h2 h3).toBuf v = v := rfl
theorem ofBuf_main_call0_cst {F : FTy → Type} [FloatOps F] (h1 : main_call0_cst.ty = ⟨S_, .f32⟩) (h2 : main_call0_cst.space ≠ .host) (h3 : main_call0_cst.isScoped = false) (v : (⟨S_, .f32⟩ : BufTy).Contents (Elt F)) :
    (TRef.of main_call0_cst h1 h2 h3).ofBuf v = v := rfl
theorem toBuf_main_call0_v0 {F : FTy → Type} [FloatOps F] (h1 : main_call0_v0.ty = ⟨S146, .f32⟩) (h2 : main_call0_v0.space ≠ .host) (h3 : main_call0_v0.isScoped = false) (v : (⟨S146, .f32⟩ : BufTy).Contents (Elt F)) :
    (TRef.of main_call0_v0 h1 h2 h3).toBuf v = v := rfl
theorem ofBuf_main_call0_v0 {F : FTy → Type} [FloatOps F] (h1 : main_call0_v0.ty = ⟨S146, .f32⟩) (h2 : main_call0_v0.space ≠ .host) (h3 : main_call0_v0.isScoped = false) (v : (⟨S146, .f32⟩ : BufTy).Contents (Elt F)) :
    (TRef.of main_call0_v0 h1 h2 h3).ofBuf v = v := rfl
theorem toBuf_main_call0_v1 {F : FTy → Type} [FloatOps F] (h1 : main_call0_v1.ty = ⟨S1x146, .f32⟩) (h2 : main_call0_v1.space ≠ .host) (h3 : main_call0_v1.isScoped = false) (v : (⟨S1x146, .f32⟩ : BufTy).Contents (Elt F)) :
    (TRef.of main_call0_v1 h1 h2 h3).toBuf v = v := rfl
theorem ofBuf_main_call0_v1 {F : FTy → Type} [FloatOps F] (h1 : main_call0_v1.ty = ⟨S1x146, .f32⟩) (h2 : main_call0_v1.space ≠ .host) (h3 : main_call0_v1.isScoped = false) (v : (⟨S1x146, .f32⟩ : BufTy).Contents (Elt F)) :
    (TRef.of main_call0_v1 h1 h2 h3).ofBuf v = v := rfl
theorem toBuf_main_call0_cst_0 {F : FTy → Type} [FloatOps F] (h1 : main_call0_cst_0.ty = ⟨S_, .f32⟩) (h2 : main_call0_cst_0.space ≠ .host) (h3 : main_call0_cst_0.isScoped = false) (v : (⟨S_, .f32⟩ : BufTy).Contents (Elt F)) :
    (TRef.of main_call0_cst_0 h1 h2 h3).toBuf v = v := rfl
theorem ofBuf_main_call0_cst_0 {F : FTy → Type} [FloatOps F] (h1 : main_call0_cst_0.ty = ⟨S_, .f32⟩) (h2 : main_call0_cst_0.space ≠ .host) (h3 : main_call0_cst_0.isScoped = false) (v : (⟨S_, .f32⟩ : BufTy).Contents (Elt F)) :
    (TRef.of main_call0_cst_0 h1 h2 h3).ofBuf v = v := rfl
theorem toBuf_main_call0_v2 {F : FTy → Type} [FloatOps F] (h1 : main_call0_v2.ty = ⟨S1x146, .f32⟩) (h2 : main_call0_v2.space ≠ .host) (h3 : main_call0_v2.isScoped = false) (v : (⟨S1x146, .f32⟩ : BufTy).Contents (Elt F)) :
    (TRef.of main_call0_v2 h1 h2 h3).toBuf v = v := rfl
theorem ofBuf_main_call0_v2 {F : FTy → Type} [FloatOps F] (h1 : main_call0_v2.ty = ⟨S1x146, .f32⟩) (h2 : main_call0_v2.space ≠ .host) (h3 : main_call0_v2.isScoped = false) (v : (⟨S1x146, .f32⟩ : BufTy).Contents (Elt F)) :
    (TRef.of main_call0_v2 h1 h2 h3).ofBuf v = v := rfl
theorem toBuf_main_call0_v3 {F : FTy → Type} [FloatOps F] (h1 : main_call0_v3.ty = ⟨S1x146, .f32⟩) (h2 : main_call0_v3.space ≠ .host) (h3 : main_call0_v3.isScoped = false) (v : (⟨S1x146, .f32⟩ : BufTy).Contents (Elt F)) :
    (TRef.of main_call0_v3 h1 h2 h3).toBuf v = v := rfl
theorem ofBuf_main_call0_v3 {F : FTy → Type} [FloatOps F] (h1 : main_call0_v3.ty = ⟨S1x146, .f32⟩) (h2 : main_call0_v3.space ≠ .host) (h3 : main_call0_v3.isScoped = false) (v : (⟨S1x146, .f32⟩ : BufTy).Contents (Elt F)) :
    (TRef.of main_call0_v3 h1 h2 h3).ofBuf v = v := rfl
theorem toBuf_main_call0_v4 {F : FTy → Type} [FloatOps F] (h1 : main_call0_v4.ty = ⟨S100000x146, .f32⟩) (h2 : main_call0_v4.space ≠ .host) (h3 : main_call0_v4.isScoped = false) (v : (⟨S100000x146, .f32⟩ : BufTy).Contents (Elt F)) :
    (TRef.of main_call0_v4 h1 h2 h3).toBuf v = v := rfl
theorem ofBuf_main_call0_v4 {F : FTy → Type} [FloatOps F] (h1 : main_call0_v4.ty = ⟨S100000x146, .f32⟩) (h2 : main_call0_v4.space ≠ .host) (h3 : main_call0_v4.isScoped = false) (v : (⟨S100000x146, .f32⟩ : BufTy).Contents (Elt F)) :
    (TRef.of main_call0_v4 h1 h2 h3).ofBuf v = v := rfl
theorem toBuf_main_call0_v5 {F : FTy → Type} [FloatOps F] (h1 : main_call0_v5.ty = ⟨S100000x146, .f32⟩) (h2 : main_call0_v5.space ≠ .host) (h3 : main_call0_v5.isScoped = false) (v : (⟨S100000x146, .f32⟩ : BufTy).Contents (Elt F)) :
    (TRef.of main_call0_v5 h1 h2 h3).toBuf v = v := rfl
theorem ofBuf_main_call0_v5 {F : FTy → Type} [FloatOps F] (h1 : main_call0_v5.ty = ⟨S100000x146, .f32⟩) (h2 : main_call0_v5.space ≠ .host) (h3 : main_call0_v5.isScoped = false) (v : (⟨S100000x146, .f32⟩ : BufTy).Contents (Elt F)) :
    (TRef.of main_call0_v5 h1 h2 h3).ofBuf v = v := rfl
theorem toBuf_main_call0_v6 {F : FTy → Type} [FloatOps F] (h1 : main_call0_v6.ty = ⟨S100000x146, .f32⟩) (h2 : main_call0_v6.space ≠ .host) (h3 : main_call0_v6.isScoped = false) (v : (⟨S100000x146, .f32⟩ : BufTy).Contents (Elt F)) :
    (TRef.of main_call0_v6 h1 h2 h3).toBuf v = v := rfl
theorem ofBuf_main_call0_v6 {F : FTy → Type} [FloatOps F] (h1 : main_call0_v6.ty = ⟨S100000x146, .f32⟩) (h2 : main_call0_v6.space ≠ .host) (h3 : main_call0_v6.isScoped = false) (v : (⟨S100000x146, .f32⟩ : BufTy).Contents (Elt F)) :
    (TRef.of main_call0_v6 h1 h2 h3).ofBuf v = v := rfl
theorem toBuf_main_call0_v7 {F : FTy → Type} [FloatOps F] (h1 : main_call0_v7.ty = ⟨S_, .f32⟩) (h2 : main_call0_v7.space ≠ .host) (h3 : main_call0_v7.isScoped = false) (v : (⟨S_, .f32⟩ : BufTy).Contents (Elt F)) :
    (TRef.of main_call0_v7 h1 h2 h3).toBuf v = v := rfl
theorem ofBuf_main_call0_v7 {F : FTy → Type} [FloatOps F] (h1 : main_call0_v7.ty = ⟨S_, .f32⟩) (h2 : main_call0_v7.space ≠ .host) (h3 : main_call0_v7.isScoped = false) (v : (⟨S_, .f32⟩ : BufTy).Contents (Elt F)) :
    (TRef.of main_call0_v7 h1 h2 h3).ofBuf v = v := rfl
theorem toBuf_main_call0_cst_1 {F : FTy → Type} [FloatOps F] (h1 : main_call0_cst_1.ty = ⟨S_, .f32⟩) (h2 : main_call0_cst_1.space ≠ .host) (h3 : main_call0_cst_1.isScoped = false) (v : (⟨S_, .f32⟩ : BufTy).Contents (Elt F)) :
    (TRef.of main_call0_cst_1 h1 h2 h3).toBuf v = v := rfl
theorem ofBuf_main_call0_cst_1 {F : FTy → Type} [FloatOps F] (h1 : main_call0_cst_1.ty = ⟨S_, .f32⟩) (h2 : main_call0_cst_1.space ≠ .host) (h3 : main_call0_cst_1.isScoped = false) (v : (⟨S_, .f32⟩ : BufTy).Contents (Elt F)) :
    (TRef.of main_call0_cst_1 h1 h2 h3).ofBuf v = v := rfl
theorem toBuf_main_call0_v8 {F : FTy → Type} [FloatOps F] (h1 : main_call0_v8.ty = ⟨S_, .f32⟩) (h2 : main_call0_v8.space ≠ .host) (h3 : main_call0_v8.isScoped = false) (v : (⟨S_, .f32⟩ : BufTy).Contents (Elt F)) :
    (TRef.of main_call0_v8 h1 h2 h3).toBuf v = v := rfl
theorem ofBuf_main_call0_v8 {F : FTy → Type} [FloatOps F] (h1 : main_call0_v8.ty = ⟨S_, .f32⟩) (h2 : main_call0_v8.space ≠ .host) (h3 : main_call0_v8.isScoped = false) (v : (⟨S_, .f32⟩ : BufTy).Contents (Elt F)) :
    (TRef.of main_call0_v8 h1 h2 h3).ofBuf v = v := rfl
theorem toBuf_main_call0_cst_2 {F : FTy → Type} [FloatOps F] (h1 : main_call0_cst_2.ty = ⟨S_, .f32⟩) (h2 : main_call0_cst_2.space ≠ .host) (h3 : main_call0_cst_2.isScoped = false) (v : (⟨S_, .f32⟩ : BufTy).Contents (Elt F)) :
    (TRef.of main_call0_cst_2 h1 h2 h3).toBuf v = v := rfl
theorem ofBuf_main_call0_cst_2 {F : FTy → Type} [FloatOps F] (h1 : main_call0_cst_2.ty = ⟨S_, .f32⟩) (h2 : main_call0_cst_2.space ≠ .host) (h3 : main_call0_cst_2.isScoped = false) (v : (⟨S_, .f32⟩ : BufTy).Contents (Elt F)) :
    (TRef.of main_call0_cst_2 h1 h2 h3).ofBuf v = v := rfl
theorem toBuf_main_call0_v9 {F : FTy → Type} [FloatOps F] (h1 : main_call0_v9.ty = ⟨S146, .f32⟩) (h2 : main_call0_v9.space ≠ .host) (h3 : main_call0_v9.isScoped = false) (v : (⟨S146, .f32⟩ : BufTy).Contents (Elt F)) :
    (TRef.of main_call0_v9 h1 h2 h3).toBuf v = v := rfl
theorem ofBuf_main_call0_v9 {F : FTy → Type} [FloatOps F] (h1 : main_call0_v9.ty = ⟨S146, .f32⟩) (h2 : main_call0_v9.space ≠ .host) (h3 : main_call0_v9.isScoped = false) (v : (⟨S146, .f32⟩ : BufTy).Contents (Elt F)) :
    (TRef.of main_call0_v9 h1 h2 h3).ofBuf v = v := rfl
theorem toBuf_main_call0_v10 {F : FTy → Type} [FloatOps F] (h1 : main_call0_v10.ty = ⟨S146, .f32⟩) (h2 : main_call0_v10.space ≠ .host) (h3 : main_call0_v10.isScoped = false) (v : (⟨S146, .f32⟩ : BufTy).Contents (Elt F)) :
    (TRef.of main_call0_v10 h1 h2 h3).toBuf v = v := rfl
theorem ofBuf_main_call0_v10 {F : FTy → Type} [FloatOps F] (h1 : main_call0_v10.ty = ⟨S146, .f32⟩) (h2 : main_call0_v10.space ≠ .host) (h3 : main_call0_v10.isScoped = false) (v : (⟨S146, .f32⟩ : BufTy).Contents (Elt F)) :
    (TRef.of main_call0_v10 h1 h2 h3).ofBuf v = v := rfl
theorem toBuf_main_call0_v11 {F : FTy → Type} [FloatOps F] (h1 : main_call0_v11.ty = ⟨S146, .f32⟩) (h2 : main_call0_v11.space ≠ .host) (h3 : main_call0_v11.isScoped = false) (v : (⟨S146, .f32⟩ : BufTy).Contents (Elt F)) :
    (TRef.of main_call0_v11 h1 h2 h3).toBuf v = v := rfl
theorem ofBuf_main_call0_v11 {F : FTy → Type} [FloatOps F] (h1 : main_call0_v11.ty = ⟨S146, .f32⟩) (h2 : main_call0_v11.space ≠ .host) (h3 : main_call0_v11.isScoped = false) (v : (⟨S146, .f32⟩ : BufTy).Contents (Elt F)) :
    (TRef.of main_call0_v11 h1 h2 h3).ofBuf v = v := rfl
theorem toBuf_main_call0_cst_3 {F : FTy → Type} [FloatOps F] (h1 : main_call0_cst_3.ty = ⟨S_, .f32⟩) (h2 : main_call0_cst_3.space ≠ .host) (h3 : main_call0_cst_3.isScoped = false) (v : (⟨S_, .f32⟩ : BufTy).Contents (Elt F)) :
    (TRef.of main_call0_cst_3 h1 h2 h3).toBuf v = v := rfl
theorem ofBuf_main_call0_cst_3 {F : FTy → Type} [FloatOps F] (h1 : main_call0_cst_3.ty = ⟨S_, .f32⟩) (h2 : main_call0_cst_3.space ≠ .host) (h3 : main_call0_cst_3.isScoped = false) (v : (⟨S_, .f32⟩ : BufTy).Contents (Elt F)) :
    (TRef.of main_call0_cst_3 h1 h2 h3).ofBuf v = v := rfl
theorem toBuf_main_call0_v12 {F : FTy → Type} [FloatOps F] (h1 : main_call0_v12.ty = ⟨S_, .i1⟩) (h2 : main_call0_v12.space ≠ .host) (h3 : main_call0_v12.isScoped = false) (v : (⟨S_, .i1⟩ : BufTy).Contents (Elt F)) :
    (TRef.of main_call0_v12 h1 h2 h3).toBuf v = v := rfl
theorem ofBuf_main_call0_v12 {F : FTy → Type} [FloatOps F] (h1 : main_call0_v12.ty = ⟨S_, .i1⟩) (h2 : main_call0_v12.space ≠ .host) (h3 : main_call0_v12.isScoped = false) (v : (⟨S_, .i1⟩ : BufTy).Contents (Elt F)) :
    (TRef.of main_call0_v12 h1 h2 h3).ofBuf v = v := rfl
theorem toBuf_main_call0_cst_4 {F : FTy → Type} [FloatOps F] (h1 : main_call0_cst_4.ty = ⟨S_, .f32⟩) (h2 : main_call0_cst_4.space ≠ .host) (h3 : main_call0_cst_4.isScoped = false) (v : (⟨S_, .f32⟩ : BufTy).Contents (Elt F)) :
    (TRef.of main_call0_cst_4 h1 h2 h3).toBuf v = v := rfl
theorem ofBuf_main_call0_cst_4 {F : FTy → Type} [FloatOps F] (h1 : main_call0_cst_4.ty = ⟨S_, .f32⟩) (h2 : main_call0_cst_4.space ≠ .host) (h3 : main_call0_cst_4.isScoped = false) (v : (⟨S_, .f32⟩ : BufTy).Contents (Elt F)) :
    (TRef.of main_call0_cst_4 h1 h2 h3).ofBuf v = v := rfl
theorem toBuf_main_call0_call0_v0 {F : FTy → Type} [FloatOps F] (h1 : main_call0_call0_v0.ty = ⟨S_, .f32⟩) (h2 : main_call0_call0_v0.space ≠ .host) (h3 : main_call0_call0_v0.isScoped = false) (v : (⟨S_, .f32⟩ : BufTy).Contents (Elt F)) :
    (TRef.of main_call0_call0_v0 h1 h2 h3).toBuf v = v := rfl
theorem ofBuf_main_call0_call0_v0 {F : FTy → Type} [FloatOps F] (h1 : main_call0_call0_v0.ty = ⟨S_, .f32⟩) (h2 : main_call0_call0_v0.space ≠ .host) (h3 : main_call0_call0_v0.isScoped = false) (v : (⟨S_, .f32⟩ : BufTy).Contents (Elt F)) :
    (TRef.of main_call0_call0_v0 h1 h2 h3).ofBuf v = v := rfl
theorem toBuf_main_call0_call0_v1 {F : FTy → Type} [FloatOps F] (h1 : main_call0_call0_v1.ty = ⟨S146, .f32⟩) (h2 : main_call0_call0_v1.space ≠ .host) (h3 : main_call0_call0_v1.isScoped = false) (v : (⟨S146, .f32⟩ : BufTy).Contents (Elt F)) :
    (TRef.of main_call0_call0_v1 h1 h2 h3).toBuf v = v := rfl
theorem ofBuf_main_call0_call0_v1 {F : FTy → Type} [FloatOps F] (h1 : main_call0_call0_v1.ty = ⟨S146, .f32⟩) (h2 : main_call0_call0_v1.space ≠ .host) (h3 : main_call0_call0_v1.isScoped = false) (v : (⟨S146, .f32⟩ : BufTy).Contents (Elt F)) :
    (TRef.of main_call0_call0_v1 h1 h2 h3).ofBuf v = v := rfl
theorem toBuf_main_v44 {F : FTy → Type} [FloatOps F] (h1 : main_v44.ty = ⟨S146, .f32⟩) (h2 : main_v44.space ≠ .host) (h3 : main_v44.isScoped = false) (v : (⟨S146, .f32⟩ : BufTy).Contents (Elt F)) :
    (TRef.of main_v44 h1 h2 h3).toBuf v = v := rfl
theorem ofBuf_main_v44 {F : FTy → Type} [FloatOps F] (h1 : main_v44.ty = ⟨S146, .f32⟩) (h2 : main_v44.space ≠ .host) (h3 : main_v44.isScoped = false) (v : (⟨S146, .f32⟩ : BufTy).Contents (Elt F)) :
    (TRef.of main_v44 h1 h2 h3).ofBuf v = v := rfl
theorem toBuf_main_call1_cst {F : FTy → Type} [FloatOps F] (h1 : main_call1_cst.ty = ⟨S_, .f32⟩) (h2 : main_call1_cst.space ≠ .host) (h3 : main_call1_cst.isScoped = false) (v : (⟨S_, .f32⟩ : BufTy).Contents (Elt F)) :
    (TRef.of main_call1_cst h1 h2 h3).toBuf v = v := rfl
theorem ofBuf_main_call1_cst {F : FTy → Type} [FloatOps F] (h1 : main_call1_cst.ty = ⟨S_, .f32⟩) (h2 : main_call1_cst.space ≠ .host) (h3 : main_call1_cst.isScoped = false) (v : (⟨S_, .f32⟩ : BufTy).Contents (Elt F)) :
    (TRef.of main_call1_cst h1 h2 h3).ofBuf v = v := rfl
theorem toBuf_main_call1_v0 {F : FTy → Type} [FloatOps F] (h1 : main_call1_v0.ty = ⟨S100000x146, .f32⟩) (h2 : main_call1_v0.space ≠ .host) (h3 : main_call1_v0.isScoped = false) (v : (⟨S100000x146, .f32⟩ : BufTy).Contents (Elt F)) :
    (TRef.of main_call1_v0 h1 h2 h3).toBuf v = v := rfl
theorem ofBuf_main_call1_v0 {F : FTy → Type} [FloatOps F] (h1 : main_call1_v0.ty = ⟨S100000x146, .f32⟩) (h2 : main_call1_v0.space ≠ .host) (h3 : main_call1_v0.isScoped = false) (v : (⟨S100000x146, .f32⟩ : BufTy).Contents (Elt F)) :
    (TRef.of main_call1_v0 h1 h2 h3).ofBuf v = v := rfl
theorem toBuf_main_v60 {F : FTy → Type} [FloatOps F] (h1 : main_v60.ty = ⟨S100000x146, .f32⟩) (h2 : main_v60.space ≠ .host) (h3 : main_v60.isScoped = false) (v : (⟨S100000x146, .f32⟩ : BufTy).Contents (Elt F)) :
    (TRef.of main_v60 h1 h2 h3).toBuf v = v := rfl
theorem ofBuf_main_v60 {F : FTy → Type} [FloatOps F] (h1 : main_v60.ty = ⟨S100000x146, .f32⟩) (h2 : main_v60.space ≠ .host) (h3 : main_v60.isScoped = false) (v : (⟨S100000x146, .f32⟩ : BufTy).Contents (Elt F)) :
    (TRef.of main_v60 h1 h2 h3).ofBuf v = v := rfl
theorem toBuf_main_v40 {F : FTy → Type} [FloatOps F] (h1 : main_v40.ty = ⟨S100000x146, .f32⟩) (h2 : main_v40.space ≠ .host) (h3 : main_v40.isScoped = false) (v : (⟨S100000x146, .f32⟩ : BufTy).Contents (Elt F)) :
    (TRef.of main_v40 h1 h2 h3).toBuf v = v := rfl
theorem ofBuf_main_v40 {F : FTy → Type} [FloatOps F] (h1 : main_v40.ty = ⟨S100000x146, .f32⟩) (h2 : main_v40.space ≠ .host) (h3 : main_v40.isScoped = false) (v : (⟨S100000x146, .f32⟩ : BufTy).Contents (Elt F)) :
    (TRef.of main_v40 h1 h2 h3).ofBuf v = v := rfl
theorem toBuf_main_c_10 {F : FTy → Type} [FloatOps F] (h1 : main_c_10.ty = ⟨S_, .i32⟩) (h2 : main_c_10.space ≠ .host) (h3 : main_c_10.isScoped = false) (v : (⟨S_, .i32⟩ : BufTy).Contents (Elt F)) :
    (TRef.of main_c_10 h1 h2 h3).toBuf v = v := rfl
theorem ofBuf_main_c_10 {F : FTy → Type} [FloatOps F] (h1 : main_c_10.ty = ⟨S_, .i32⟩) (h2 : main_c_10.space ≠ .host) (h3 : main_c_10.isScoped = false) (v : (⟨S_, .i32⟩ : BufTy).Contents (Elt F)) :
    (TRef.of main_c_10 h1 h2 h3).ofBuf v = v := rfl
theorem toBuf_main_v59 {F : FTy → Type} [FloatOps F] (h1 : main_v59.ty = ⟨S100000x146, .f32⟩) (h2 : main_v59.space ≠ .host) (h3 : main_v59.isScoped = false) (v : (⟨S100000x146, .f32⟩ : BufTy).Contents (Elt F)) :
    (TRef.of main_v59 h1 h2 h3).toBuf v = v := rfl
theorem ofBuf_main_v59 {F : FTy → Type} [FloatOps F] (h1 : main_v59.ty = ⟨S100000x146, .f32⟩) (h2 : main_v59.space ≠ .host) (h3 : main_v59.isScoped = false) (v : (⟨S100000x146, .f32⟩ : BufTy).Contents (Elt F)) :
    (TRef.of main_v59 h1 h2 h3).ofBuf v = v := rfl
theorem toBuf_main_call2_cst {F : FTy → Type} [FloatOps F] (h1 : main_call2_cst.ty = ⟨S_, .f32⟩) (h2 : main_call2_cst.space ≠ .host) (h3 : main_call2_cst.isScoped = false) (v : (⟨S_, .f32⟩ : BufTy).Contents (Elt F)) :
    (TRef.of main_call2_cst h1 h2 h3).toBuf v = v := rfl
theorem ofBuf_main_call2_cst {F : FTy → Type} [FloatOps F] (h1 : main_call2_cst.ty = ⟨S_, .f32⟩) (h2 : main_call2_cst.space ≠ .host) (h3 : main_call2_cst.isScoped = false) (v : (⟨S_, .f32⟩ : BufTy).Contents (Elt F)) :
    (TRef.of main_call2_cst h1 h2 h3).ofBuf v = v := rfl
theorem toBuf_main_call2_v0 {F : FTy → Type} [FloatOps F] (h1 : main_call2_v0.ty = ⟨S146, .f32⟩) (h2 : main_call2_v0.space ≠ .host) (h3 : main_call2_v0.isScoped = false) (v : (⟨S146, .f32⟩ : BufTy).Contents (Elt F)) :
    (TRef.of main_call2_v0 h1 h2 h3).toBuf v = v := rfl
theorem ofBuf_main_call2_v0 {F : FTy → Type} [FloatOps F] (h1 : main_call2_v0.ty = ⟨S146, .f32⟩) (h2 : main_call2_v0.space ≠ .host) (h3 : main_call2_v0.isScoped = false) (v : (⟨S146, .f32⟩ : BufTy).Contents (Elt F)) :
    (TRef.of main_call2_v0 h1 h2 h3).ofBuf v = v := rfl
theorem toBuf_main_call2_v1 {F : FTy → Type} [FloatOps F] (h1 : main_call2_v1.ty = ⟨S1x146, .f32⟩) (h2 : main_call2_v1.space ≠ .host) (h3 : main_call2_v1.isScoped = false) (v : (⟨S1x146, .f32⟩ : BufTy).Contents (Elt F)) :
    (TRef.of main_call2_v1 h1 h2 h3).toBuf v = v := rfl
theorem ofBuf_main_call2_v1 {F : FTy → Type} [FloatOps F] (h1 : main_call2_v1.ty = ⟨S1x146, .f32⟩) (h2 : main_call2_v1.space ≠ .host) (h3 : main_call2_v1.isScoped = false) (v : (⟨S1x146, .f32⟩ : BufTy).Contents (Elt F)) :
    (TRef.of main_call2_v1 h1 h2 h3).ofBuf v = v := rfl
theorem toBuf_main_call2_cst_0 {F : FTy → Type} [FloatOps F] (h1 : main_call2_cst_0.ty = ⟨S_, .f32⟩) (h2 : main_call2_cst_0.space ≠ .host) (h3 : main_call2_cst_0.isScoped = false) (v : (⟨S_, .f32⟩ : BufTy).Contents (Elt F)) :
    (TRef.of main_call2_cst_0 h1 h2 h3).toBuf v = v := rfl
theorem ofBuf_main_call2_cst_0 {F : FTy → Type} [FloatOps F] (h1 : main_call2_cst_0.ty = ⟨S_, .f32⟩) (h2 : main_call2_cst_0.space ≠ .host) (h3 : main_call2_cst_0.isScoped = false) (v : (⟨S_, .f32⟩ : BufTy).Contents (Elt F)) :
    (TRef.of main_call2_cst_0 h1 h2 h3).ofBuf v = v := rfl
theorem toBuf_main_call2_v2 {F : FTy → Type} [FloatOps F] (h1 : main_call2_v2.ty = ⟨S1x146, .f32⟩) (h2 : main_call2_v2.space ≠ .host) (h3 : main_call2_v2.isScoped = false) (v : (⟨S1x146, .f32⟩ : BufTy).Contents (Elt F)) :
    (TRef.of main_call2_v2 h1 h2 h3).toBuf v = v := rfl
theorem ofBuf_main_call2_v2 {F : FTy → Type} [FloatOps F] (h1 : main_call2_v2.ty = ⟨S1x146, .f32⟩) (h2 : main_call2_v2.space ≠ .host) (h3 : main_call2_v2.isScoped = false) (v : (⟨S1x146, .f32⟩ : BufTy).Contents (Elt F)) :
    (TRef.of main_call2_v2 h1 h2 h3).ofBuf v = v := rfl
theorem toBuf_main_call2_v3 {F : FTy → Type} [FloatOps F] (h1 : main_call2_v3.ty = ⟨S1x146, .f32⟩) (h2 : main_call2_v3.space ≠ .host) (h3 : main_call2_v3.isScoped = false) (v : (⟨S1x146, .f32⟩ : BufTy).Contents (Elt F)) :
    (TRef.of main_call2_v3 h1 h2 h3).toBuf v = v := rfl
theorem ofBuf_main_call2_v3 {F : FTy → Type} [FloatOps F] (h1 : main_call2_v3.ty = ⟨S1x146, .f32⟩) (h2 : main_call2_v3.space ≠ .host) (h3 : main_call2_v3.isScoped = false) (v : (⟨S1x146, .f32⟩ : BufTy).Contents (Elt F)) :
    (TRef.of main_call2_v3 h1 h2 h3).ofBuf v = v := rfl
theorem toBuf_main_call2_v4 {F : FTy → Type} [FloatOps F] (h1 : main_call2_v4.ty = ⟨S100000x146, .f32⟩) (h2 : main_call2_v4.space ≠ .host) (h3 : main_call2_v4.isScoped = false) (v : (⟨S100000x146, .f32⟩ : BufTy).Contents (Elt F)) :
    (TRef.of main_call2_v4 h1 h2 h3).toBuf v = v := rfl
theorem ofBuf_main_call2_v4 {F : FTy → Type} [FloatOps F] (h1 : main_call2_v4.ty = ⟨S100000x146, .f32⟩) (h2 : main_call2_v4.space ≠ .host) (h3 : main_call2_v4.isScoped = false) (v : (⟨S100000x146, .f32⟩ : BufTy).Contents (Elt F)) :
    (TRef.of main_call2_v4 h1 h2 h3).ofBuf v = v := rfl
theorem toBuf_main_call2_v5 {F : FTy → Type} [FloatOps F] (h1 : main_call2_v5.ty = ⟨S100000x146, .f32⟩) (h2 : main_call2_v5.space ≠ .host) (h3 : main_call2_v5.isScoped = false) (v : (⟨S100000x146, .f32⟩ : BufTy).Contents (Elt F)) :
    (TRef.of main_call2_v5 h1 h2 h3).toBuf v = v := rfl
theorem ofBuf_main_call2_v5 {F : FTy → Type} [FloatOps F] (h1 : main_call2_v5.ty = ⟨S100000x146, .f32⟩) (h2 : main_call2_v5.space ≠ .host) (h3 : main_call2_v5.isScoped = false) (v : (⟨S100000x146, .f32⟩ : BufTy).Contents (Elt F)) :
    (TRef.of main_call2_v5 h1 h2 h3).ofBuf v = v := rfl
theorem toBuf_main_call2_v6 {F : FTy → Type} [FloatOps F] (h1 : main_call2_v6.ty = ⟨S100000x146, .f32⟩) (h2 : main_call2_v6.space ≠ .host) (h3 : main_call2_v6.isScoped = false) (v : (⟨S100000x146, .f32⟩ : BufTy).Contents (Elt F)) :
    (TRef.of main_call2_v6 h1 h2 h3).toBuf v = v := rfl
theorem ofBuf_main_call2_v6 {F : FTy → Type} [FloatOps F] (h1 : main_call2_v6.ty = ⟨S100000x146, .f32⟩) (h2 : main_call2_v6.space ≠ .host) (h3 : main_call2_v6.isScoped = false) (v : (⟨S100000x146, .f32⟩ : BufTy).Contents (Elt F)) :
    (TRef.of main_call2_v6 h1 h2 h3).ofBuf v = v := rfl
theorem toBuf_main_call2_v7 {F : FTy → Type} [FloatOps F] (h1 : main_call2_v7.ty = ⟨S_, .f32⟩) (h2 : main_call2_v7.space ≠ .host) (h3 : main_call2_v7.isScoped = false) (v : (⟨S_, .f32⟩ : BufTy).Contents (Elt F)) :
    (TRef.of main_call2_v7 h1 h2 h3).toBuf v = v := rfl
theorem ofBuf_main_call2_v7 {F : FTy → Type} [FloatOps F] (h1 : main_call2_v7.ty = ⟨S_, .f32⟩) (h2 : main_call2_v7.space ≠ .host) (h3 : main_call2_v7.isScoped = false) (v : (⟨S_, .f32⟩ : BufTy).Contents (Elt F)) :
    (TRef.of main_call2_v7 h1 h2 h3).ofBuf v = v := rfl
theorem toBuf_main_call2_cst_1 {F : FTy → Type} [FloatOps F] (h1 : main_call2_cst_1.ty = ⟨S_, .f32⟩) (h2 : main_call2_cst_1.space ≠ .host) (h3 : main_call2_cst_1.isScoped = false) (v : (⟨S_, .f32⟩ : BufTy).Contents (Elt F)) :
    (TRef.of main_call2_cst_1 h1 h2 h3).toBuf v = v := rfl
theorem ofBuf_main_call2_cst_1 {F : FTy → Type} [FloatOps F] (h1 : main_call2_cst_1.ty = ⟨S_, .f32⟩) (h2 : main_call2_cst_1.space ≠ .host) (h3 : main_call2_cst_1.isScoped = false) (v : (⟨S_, .f32⟩ : BufTy).Contents (Elt F)) :
    (TRef.of main_call2_cst_1 h1 h2 h3).ofBuf v = v := rfl
theorem toBuf_main_call2_v8 {F : FTy → Type} [FloatOps F] (h1 : main_call2_v8.ty = ⟨S_, .f32⟩) (h2 : main_call2_v8.space ≠ .host) (h3 : main_call2_v8.isScoped = false) (v : (⟨S_, .f32⟩ : BufTy).Contents (Elt F)) :
    (TRef.of main_call2_v8 h1 h2 h3).toBuf v = v := rfl
theorem ofBuf_main_call2_v8 {F : FTy → Type} [FloatOps F] (h1 : main_call2_v8.ty = ⟨S_, .f32⟩) (h2 : main_call2_v8.space ≠ .host) (h3 : main_call2_v8.isScoped = false) (v : (⟨S_, .f32⟩ : BufTy).Contents (Elt F)) :
    (TRef.of main_call2_v8 h1 h2 h3).ofBuf v = v := rfl
theorem toBuf_main_call2_cst_2 {F : FTy → Type} [FloatOps F] (h1 : main_call2_cst_2.ty = ⟨S_, .f32⟩) (h2 : main_call2_cst_2.space ≠ .host) (h3 : main_call2_cst_2.isScoped = false) (v : (⟨S_, .f32⟩ : BufTy).Contents (Elt F)) :
    (TRef.of main_call2_cst_2 h1 h2 h3).toBuf v = v := rfl
theorem ofBuf_main_call2_cst_2 {F : FTy → Type} [FloatOps F] (h1 : main_call2_cst_2.ty = ⟨S_, .f32⟩) (h2 : main_call2_cst_2.space ≠ .host) (h3 : main_call2_cst_2.isScoped = false) (v : (⟨S_, .f32⟩ : BufTy).Contents (Elt F)) :
    (TRef.of main_call2_cst_2 h1 h2 h3).ofBuf v = v := rfl
theorem toBuf_main_call2_v9 {F : FTy → Type} [FloatOps F] (h1 : main_call2_v9.ty = ⟨S146, .f32⟩) (h2 : main_call2_v9.space ≠ .host) (h3 : main_call2_v9.isScoped = false) (v : (⟨S146, .f32⟩ : BufTy).Contents (Elt F)) :
    (TRef.of main_call2_v9 h1 h2 h3).toBuf v = v := rfl
theorem ofBuf_main_call2_v9 {F : FTy → Type} [FloatOps F] (h1 : main_call2_v9.ty = ⟨S146, .f32⟩) (h2 : main_call2_v9.space ≠ .host) (h3 : main_call2_v9.isScoped = false) (v : (⟨S146, .f32⟩ : BufTy).Contents (Elt F)) :
    (TRef.of main_call2_v9 h1 h2 h3).ofBuf v = v := rfl
theorem toBuf_main_call2_v10 {F : FTy → Type} [FloatOps F] (h1 : main_call2_v10.ty = ⟨S146, .f32⟩) (h2 : main_call2_v10.space ≠ .host) (h3 : main_call2_v10.isScoped = false) (v : (⟨S146, .f32⟩ : BufTy).Contents (Elt F)) :
    (TRef.of main_call2_v10 h1 h2 h3).toBuf v = v := rfl
theorem ofBuf_main_call2_v10 {F : FTy → Type} [FloatOps F] (h1 : main_call2_v10.ty = ⟨S146, .f32⟩) (h2 : main_call2_v10.space ≠ .host) (h3 : main_call2_v10.isScoped = false) (v : (⟨S146, .f32⟩ : BufTy).Contents (Elt F)) :
    (TRef.of main_call2_v10 h1 h2 h3).ofBuf v = v := rfl
theorem toBuf_main_call2_v11 {F : FTy → Type} [FloatOps F] (h1 : main_call2_v11.ty = ⟨S146, .f32⟩) (h2 : main_call2_v11.space ≠ .host) (h3 : main_call2_v11.isScoped = false) (v : (⟨S146, .f32⟩ : BufTy).Contents (Elt F)) :
    (TRef.of main_call2_v11 h1 h2 h3).toBuf v = v := rfl
theorem ofBuf_main_call2_v11 {F : FTy → Type} [FloatOps F] (h1 : main_call2_v11.ty = ⟨S146, .f32⟩) (h2 : main_call2_v11.space ≠ .host) (h3 : main_call2_v11.isScoped = false) (v : (⟨S146, .f32⟩ : BufTy).Contents (Elt F)) :
    (TRef.of main_call2_v11 h1 h2 h3).ofBuf v = v := rfl
theorem toBuf_main_call2_cst_3 {F : FTy → Type} [FloatOps F] (h1 : main_call2_cst_3.ty = ⟨S_, .f32⟩) (h2 : main_call2_cst_3.space ≠ .host) (h3 : main_call2_cst_3.isScoped = false) (v : (⟨S_, .f32⟩ : BufTy).Contents (Elt F)) :
    (TRef.of main_call2_cst_3 h1 h2 h3).toBuf v = v := rfl
theorem ofBuf_main_call2_cst_3 {F : FTy → Type} [FloatOps F] (h1 : main_call2_cst_3.ty = ⟨S_, .f32⟩) (h2 : main_call2_cst_3.space ≠ .host) (h3 : main_call2_cst_3.isScoped = false) (v : (⟨S_, .f32⟩ : BufTy).Contents (Elt F)) :
    (TRef.of main_call2_cst_3 h1 h2 h3).ofBuf v = v := rfl
theorem toBuf_main_call2_v12 {F : FTy → Type} [FloatOps F] (h1 : main_call2_v12.ty = ⟨S_, .i1⟩) (h2 : main_call2_v12.space ≠ .host) (h3 : main_call2_v12.isScoped = false) (v : (⟨S_, .i1⟩ : BufTy).Contents (Elt F)) :
    (TRef.of main_call2_v12 h1 h2 h3).toBuf v = v := rfl
theorem ofBuf_main_call2_v12 {F : FTy → Type} [FloatOps F] (h1 : main_call2_v12.ty = ⟨S_, .i1⟩) (h2 : main_call2_v12.space ≠ .host) (h3 : main_call2_v12.isScoped = false) (v : (⟨S_, .i1⟩ : BufTy).Contents (Elt F)) :
    (TRef.of main_call2_v12 h1 h2 h3).ofBuf v = v := rfl
theorem toBuf_main_call2_cst_4 {F : FTy → Type} [FloatOps F] (h1 : main_call2_cst_4.ty = ⟨S_, .f32⟩) (h2 : main_call2_cst_4.space ≠ .host) (h3 : main_call2_cst_4.isScoped = false) (v : (⟨S_, .f32⟩ : BufTy).Contents (Elt F)) :
    (TRef.of main_call2_cst_4 h1 h2 h3).toBuf v = v := rfl
theorem ofBuf_main_call2_cst_4 {F : FTy → Type} [FloatOps F] (h1 : main_call2_cst_4.ty = ⟨S_, .f32⟩) (h2 : main_call2_cst_4.space ≠ .host) (h3 : main_call2_cst_4.isScoped = false) (v : (⟨S_, .f32⟩ : BufTy).Contents (Elt F)) :
    (TRef.of main_call2_cst_4 h1 h2 h3).ofBuf v = v := rfl
theorem toBuf_main_call2_call0_v0 {F : FTy → Type} [FloatOps F] (h1 : main_call2_call0_v0.ty = ⟨S_, .f32⟩) (h2 : main_call2_call0_v0.space ≠ .host) (h3 : main_call2_call0_v0.isScoped = false) (v : (⟨S_, .f32⟩ : BufTy).Contents (Elt F)) :
    (TRef.of main_call2_call0_v0 h1 h2 h3).toBuf v = v := rfl
theorem ofBuf_main_call2_call0_v0 {F : FTy → Type} [FloatOps F] (h1 : main_call2_call0_v0.ty = ⟨S_, .f32⟩) (h2 : main_call2_call0_v0.space ≠ .host) (h3 : main_call2_call0_v0.isScoped = false) (v : (⟨S_, .f32⟩ : BufTy).Contents (Elt F)) :
    (TRef.of main_call2_call0_v0 h1 h2 h3).ofBuf v = v := rfl
theorem toBuf_main_call2_call0_v1 {F : FTy → Type} [FloatOps F] (h1 : main_call2_call0_v1.ty = ⟨S146, .f32⟩) (h2 : main_call2_call0_v1.space ≠ .host) (h3 : main_call2_call0_v1.isScoped = false) (v : (⟨S146, .f32⟩ : BufTy).Contents (Elt F)) :
    (TRef.of main_call2_call0_v1 h1 h2 h3).toBuf v = v := rfl
theorem ofBuf_main_call2_call0_v1 {F : FTy → Type} [FloatOps F] (h1 : main_call2_call0_v1.ty = ⟨S146, .f32⟩) (h2 : main_call2_call0_v1.space ≠ .host) (h3 : main_call2_call0_v1.isScoped = false) (v : (⟨S146, .f32⟩ : BufTy).Contents (Elt F)) :
    (TRef.of main_call2_call0_v1 h1 h2 h3).ofBuf v = v := rfl
theorem toBuf_main_v102 {F : FTy → Type} [FloatOps F] (h1 : main_v102.ty = ⟨S146, .f32⟩) (h2 : main_v102.space ≠ .host) (h3 : main_v102.isScoped = false) (v : (⟨S146, .f32⟩ : BufTy).Contents (Elt F)) :
    (TRef.of main_v102 h1 h2 h3).toBuf v = v := rfl
theorem ofBuf_main_v102 {F : FTy → Type} [FloatOps F] (h1 : main_v102.ty = ⟨S146, .f32⟩) (h2 : main_v102.space ≠ .host) (h3 : main_v102.isScoped = false) (v : (⟨S146, .f32⟩ : BufTy).Contents (Elt F)) :
    (TRef.of main_v102 h1 h2 h3).ofBuf v = v := rfl
theorem toBuf_main_call3_cst {F : FTy → Type} [FloatOps F] (h1 : main_call3_cst.ty = ⟨S_, .f32⟩) (h2 : main_call3_cst.space ≠ .host) (h3 : main_call3_cst.isScoped = false) (v : (⟨S_, .f32⟩ : BufTy).Contents (Elt F)) :
    (TRef.of main_call3_cst h1 h2 h3).toBuf v = v := rfl
theorem ofBuf_main_call3_cst {F : FTy → Type} [FloatOps F] (h1 : main_call3_cst.ty = ⟨S_, .f32⟩) (h2 : main_call3_cst.space ≠ .host) (h3 : main_call3_cst.isScoped = false) (v : (⟨S_, .f32⟩ : BufTy).Contents (Elt F)) :
    (TRef.of main_call3_cst h1 h2 h3).ofBuf v = v := rfl
theorem toBuf_main_call3_v0 {F : FTy → Type} [FloatOps F] (h1 : main_call3_v0.ty = ⟨S100000x146, .f32⟩) (h2 : main_call3_v0.space ≠ .host) (h3 : main_call3_v0.isScoped = false) (v : (⟨S100000x146, .f32⟩ : BufTy).Contents (Elt F)) :
    (TRef.of main_call3_v0 h1 h2 h3).toBuf v = v := rfl
theorem ofBuf_main_call3_v0 {F : FTy → Type} [FloatOps F] (h1 : main_call3_v0.ty = ⟨S100000x146, .f32⟩) (h2 : main_call3_v0.space ≠ .host) (h3 : main_call3_v0.isScoped = false) (v : (⟨S100000x146, .f32⟩ : BufTy).Contents (Elt F)) :
    (TRef.of main_call3_v0 h1 h2 h3).ofBuf v = v := rfl
theorem toBuf_main_v118 {F : FTy → Type} [FloatOps F] (h1 : main_v118.ty = ⟨S100000x146, .f32⟩) (h2 : main_v118.space ≠ .host) (h3 : main_v118.isScoped = false) (v : (⟨S100000x146, .f32⟩ : BufTy).Contents (Elt F)) :
    (TRef.of main_v118 h1 h2 h3).toBuf v = v := rfl
theorem ofBuf_main_v118 {F : FTy → Type} [FloatOps F] (h1 : main_v118.ty = ⟨S100000x146, .f32⟩) (h2 : main_v118.space ≠ .host) (h3 : main_v118.isScoped = false) (v : (⟨S100000x146, .f32⟩ : BufTy).Contents (Elt F)) :
    (TRef.of main_v118 h1 h2 h3).ofBuf v = v := rfl
theorem toBuf_main_v98 {F : FTy → Type} [FloatOps F] (h1 : main_v98.ty = ⟨S100000x146, .f32⟩) (h2 : main_v98.space ≠ .host) (h3 : main_v98.isScoped = false) (v : (⟨S100000x146, .f32⟩ : BufTy).Contents (Elt F)) :
    (TRef.of main_v98 h1 h2 h3).toBuf v = v := rfl
theorem ofBuf_main_v98 {F : FTy → Type} [FloatOps F] (h1 : main_v98.ty = ⟨S100000x146, .f32⟩) (h2 : main_v98.space ≠ .host) (h3 : main_v98.isScoped = false) (v : (⟨S100000x146, .f32⟩ : BufTy).Contents (Elt F)) :
    (TRef.of main_v98 h1 h2 h3).ofBuf v = v := rfl
theorem toBuf_main_c_24 {F : FTy → Type} [FloatOps F] (h1 : main_c_24.ty = ⟨S_, .i32⟩) (h2 : main_c_24.space ≠ .host) (h3 : main_c_24.isScoped = false) (v : (⟨S_, .i32⟩ : BufTy).Contents (Elt F)) :
    (TRef.of main_c_24 h1 h2 h3).toBuf v = v := rfl
theorem ofBuf_main_c_24 {F : FTy → Type} [FloatOps F] (h1 : main_c_24.ty = ⟨S_, .i32⟩) (h2 : main_c_24.space ≠ .host) (h3 : main_c_24.isScoped = false) (v : (⟨S_, .i32⟩ : BufTy).Contents (Elt F)) :
    (TRef.of main_c_24 h1 h2 h3).ofBuf v = v := rfl
theorem toBuf_main_v117 {F : FTy → Type} [FloatOps F] (h1 : main_v117.ty = ⟨S100000x146, .f32⟩) (h2 : main_v117.space ≠ .host) (h3 : main_v117.isScoped = false) (v : (⟨S100000x146, .f32⟩ : BufTy).Contents (Elt F)) :
    (TRef.of main_v117 h1 h2 h3).toBuf v = v := rfl
theorem ofBuf_main_v117 {F : FTy → Type} [FloatOps F] (h1 : main_v117.ty = ⟨S100000x146, .f32⟩) (h2 : main_v117.space ≠ .host) (h3 : main_v117.isScoped = false) (v : (⟨S100000x146, .f32⟩ : BufTy).Contents (Elt F)) :
    (TRef.of main_v117 h1 h2 h3).ofBuf v = v := rfl

/-! ## Each piece's result -/

attribute [local irreducible] Host.scatterAdd Host.gather Host.reduceAdd Host.powf Host.rsqrt Host.divf Ideal.matmul in
/-- After the first piece the embedding's buffer holds the embedding of the three arguments it reads. -/
theorem stageA (V : Valuation τ sig (Elt Ideal)) :
    after opsA V (main_v3 : DevRef τ sig) = Cert.Gnn.embed (V (main_arg0 : DevRef τ sig)) (V (main_arg2 : DevRef τ sig)) (V (main_arg3 : DevRef τ sig)) := by
  after_results_simp
  rfl

/-! ### The first layer, in four steps -/

/-- The first layer's degrees, their powers -1/2, and the projection of the scaled features. -/
def opsB1 {F : FTy → Type} [FloatOps F] : List (HloOp τ sig (Elt F)) :=
  [ nullary main_cst (constant S_ .f32 0x3F800000#32),
    unary main_cst main_v4 (broadcastInDim S500000 ![] bcast_S_S500000 : (⟨S_, .f32⟩ : BufTy).Contents (Elt F) → (⟨S500000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_arg12 main_v6 (broadcastInDim S500000x1 ![0] bcast_S500000_S500000x1_0 : (⟨S500000, .i32⟩ : BufTy).Contents (Elt F) → (⟨S500000x1, .i32⟩ : BufTy).Contents (Elt F)),
    ternary main_v5 main_v6 main_v4 main_v7 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    unary main_arg13 main_v11 (broadcastInDim S500000x1 ![0] bcast_S500000_S500000x1_0 : (⟨S500000, .i32⟩ : BufTy).Contents (Elt F) → (⟨S500000x1, .i32⟩ : BufTy).Contents (Elt F)),
    ternary main_v10 main_v11 main_v4 main_v12 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    nullary main_cst_4 (constant S_ .f32 0xBF000000#32),
    unary main_cst_4 main_v15 (broadcastInDim S100000 ![] bcast_S_S100000 : (⟨S_, .f32⟩ : BufTy).Contents (Elt F) → (⟨S100000, .f32⟩ : BufTy).Contents (Elt F)),
    binary main_v9 main_v15 main_v16 (Host.powf : (⟨S100000, .f32⟩ : BufTy).Contents (Elt F) → (⟨S100000, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)),
    unary main_v17 main_v18 (broadcastInDim S100000x146 ![0, 1] bcast_S100000x1_S100000x146_0_1 : (⟨S100000x1, .f32⟩ : BufTy).Contents (Elt F) → (⟨S100000x146, .f32⟩ : BufTy).Contents (Elt F)),
    binary main_v3 main_v18 main_v19 (mulf : (⟨S100000x146, .f32⟩ : BufTy).Contents (Elt F) → (⟨S100000x146, .f32⟩ : BufTy).Contents (Elt F) → (⟨S100000x146, .f32⟩ : BufTy).Contents (Elt F)),
    binary main_v19 main_arg4 main_v20 ((fun l r => Host.dotGeneral dot_S100000x146_S146x146_S100000x146_1_0_0_1_n_n none l r) : (⟨S100000x146, .f32⟩ : BufTy).Contents (Elt F) → (⟨S146x146, .f32⟩ : BufTy).Contents (Elt F) → (⟨S100000x146, .f32⟩ : BufTy).Contents (Elt F)) ]
/-- The buffers it writes, in order. -/
abbrev opsB1_W : List (Ref sig .tc) := [main_cst, main_v4, main_cst_0, main_v5, main_v6, main_v7, main_cst_1, main_v8, main_v9, main_cst_2, main_v10, main_v11, main_v12, main_cst_3, main_v13, main_v14, main_cst_4, main_v15, main_v16, main_v17, main_v18, main_v19, main_v20]
theorem opsB1_writes {F : FTy → Type} [FloatOps F] : (opsB1 : List (HloOp τ sig (Elt F))).Forall fun op => op.writes ⊆ (opsB1_W.map (Proc.devRef (τ := τ) .tc)).toFinset := by
  unfold opsB1
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsB1 {F : FTy → Type} [FloatOps F] (V : Valuation τ sig (Elt F)) (r : Ref sig .tc) (h : r ∉ opsB1_W) :
    after opsB1 V (Proc.devRef .tc r) = V (Proc.devRef .tc r) :=
  after_of_writes_sub opsB1 V opsB1_writes h

/-- The first layer's sum over the edges into each node, its scaling, the bias and the per-node factor. -/
def opsB2 {F : FTy → Type} [FloatOps F] : List (HloOp τ sig (Elt F)) :=
  [ nullary main_c (constantI S_ 32 0#32),
    unary main_c main_v21 (broadcastInDim S500000 ![] bcast_S_S500000 : (⟨S_, .i32⟩ : BufTy).Contents (Elt F) → (⟨S500000, .i32⟩ : BufTy).Contents (Elt F)),
    binary main_arg12 main_v21 main_v22 (cmpi .slt : (⟨S500000, .i32⟩ : BufTy).Contents (Elt F) → (⟨S500000, .i32⟩ : BufTy).Contents (Elt F) → (⟨S500000, .i1⟩ : BufTy).Contents (Elt F)),
    nullary main_c_5 (constantI S_ 32 100000#32),
    unary main_c_5 main_v23 (broadcastInDim S500000 ![] bcast_S_S500000 : (⟨S_, .i32⟩ : BufTy).Contents (Elt F) → (⟨S500000, .i32⟩ : BufTy).Contents (Elt F)),
    binary main_arg12 main_v23 main_v24 (addi : (⟨S500000, .i32⟩ : BufTy).Contents (Elt F) → (⟨S500000, .i32⟩ : BufTy).Contents (Elt F) → (⟨S500000, .i32⟩ : BufTy).Contents (Elt F)),
    ternary main_v22 main_v24 main_arg12 main_v25 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v25 main_v26 (broadcastInDim S500000x1 ![0] bcast_S500000_S500000x1_0 : (⟨S500000, .i32⟩ : BufTy).Contents (Elt F) → (⟨S500000x1, .i32⟩ : BufTy).Contents (Elt F)),
    binary main_v20 main_v26 main_v27 ((fun x i => Host.gather gather_S100000x146_S500000x1_S500000x146_1_0_n_n_0_1_1146 x i) : (⟨S100000x146, .f32⟩ : BufTy).Contents (Elt F) → (⟨S500000x1, .i32⟩ : BufTy).Contents (Elt F) → (⟨S500000x146, .f32⟩ : BufTy).Contents (Elt F)),
    nullary main_cst_6 (constant S_ .f32 0x00000000#32),
    unary main_cst_6 main_v28 (broadcastInDim S100000x146 ![] bcast_S_S100000x146 : (⟨S_, .f32⟩ : BufTy).Contents (Elt F) → (⟨S100000x146, .f32⟩ : BufTy).Contents (Elt F)),
    unary main_arg13 main_v29 (broadcastInDim S500000x1 ![0] bcast_S500000_S500000x1_0 : (⟨S500000, .i32⟩ : BufTy).Contents (Elt F) → (⟨S500000x1, .i32⟩ : BufTy).Contents (Elt F)),
    ternary main_v28 main_v29 main_v27 main_v30 ((fun x i u => Host.scatterAdd scatter_S100000x146_S500000x1_S500000x146_1_0_0_1 x i u) : (⟨S100000x146, .f32⟩ : BufTy).Contents (Elt F) → (⟨S500000x1, .i32⟩ : BufTy).Contents (Elt F) → (⟨S500000x146, .f32⟩ : BufTy).Contents (Elt F) → (⟨S100000x146, .f32⟩ : BufTy).Contents (Elt F)),
    nullary main_cst_7 (constant S_ .f32 0xBF000000#32),
    unary main_cst_7 main_v31 (broadcastInDim S100000 ![] bcast_S_S100000 : (⟨S_, .f32⟩ : BufTy).Contents (Elt F) → (⟨S100000, .f32⟩ : BufTy).Contents (Elt F)),
    binary main_v14 main_v31 main_v32 (Host.powf : (⟨S100000, .f32⟩ : BufTy).Contents (Elt F) → (⟨S100000, .f32⟩ : BufTy).Contents (Elt F) → (⟨S100000, .f32⟩ : BufTy).Contents (Elt F)),
    unary main_v32 main_v33 (broadcastInDim S100000x1 ![0] bcast_S100000_S100000x1_0 : (⟨S100000, .f32⟩ : BufTy).Contents (Elt F) → (⟨S100000x1, .f32⟩ : BufTy).Contents (Elt F)),
    unary main_v33 main_v34 (broadcastInDim S100000x146 ![0, 1] bcast_S100000x1_S100000x146_0_1 : (⟨S100000x1, .f32⟩ : BufTy).Contents (Elt F) → (⟨S100000x146, .f32⟩ : BufTy).Contents (Elt F)),
    binary main_v30 main_v34 main_v35 (mulf : (⟨S100000x146, .f32⟩ : BufTy).Contents (Elt F) → (⟨S100000x146, .f32⟩ : BufTy).Contents (Elt F) → (⟨S100000x146, .f32⟩ : BufTy).Contents (Elt F)),
    unary main_arg5 main_v36 (broadcastInDim S1x146 ![1] bcast_S146_S1x146_1 : (⟨S146, .f32⟩ : BufTy).Contents (Elt F) → (⟨S1x146, .f32⟩ : BufTy).Contents (Elt F)),
    unary main_v36 main_v37 (broadcastInDim S100000x146 ![0, 1] bcast_S1x146_S100000x146_0_1 : (⟨S1x146, .f32⟩ : BufTy).Contents (Elt F) → (⟨S100000x146, .f32⟩ : BufTy).Contents (Elt F)),
    binary main_v35 main_v37 main_v38 (addf : (⟨S100000x146, .f32⟩ : BufTy).Contents (Elt F) → (⟨S100000x146, .f32⟩ : BufTy).Contents (Elt F) → (⟨S100000x146, .f32⟩ : BufTy).Contents (Elt F)),
    unary main_arg1 main_v39 (broadcastInDim S100000x146 ![0, 1] bcast_S100000x1_S100000x146_0_1 : (⟨S100000x1, .f32⟩ : BufTy).Contents (Elt F) → (⟨S100000x146, .f32⟩ : BufTy).Contents (Elt F)),
    binary main_v38 main_v39 main_v40 (mulf : (⟨S100000x146, .f32⟩ : BufTy).Contents (Elt F) → (⟨S100000x146, .f32⟩ : BufTy).Contents (Elt F) → (⟨S100000x146, .f32⟩ : BufTy).Contents (Elt F)) ]
/-- The buffers it writes, in order. -/
abbrev opsB2_W : List (Ref sig .tc) := [main_c, main_v21, main_v22, main_c_5, main_v23, main_v24, main_v25, main_v26, main_v27, main_cst_6, main_v28, main_v29, main_v30, main_cst_7, main_v31, main_v32, main_v33, main_v34, main_v35, main_v36, main_v37, main_v38, main_v39, main_v40]
theorem opsB2_writes {F : FTy → Type} [FloatOps F] : (opsB2 : List (HloOp τ sig (Elt F))).Forall fun op => op.writes ⊆ (opsB2_W.map (Proc.devRef (τ := τ) .tc)).toFinset := by
  unfold opsB2
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsB2 {F : FTy → Type} [FloatOps F] (V : Valuation τ sig (Elt F)) (r : Ref sig .tc) (h : r ∉ opsB2_W) :
    after opsB2 V (Proc.devRef .tc r) = V (Proc.devRef .tc r) :=
  after_of_writes_sub opsB2 V opsB2_writes h

/-- The first layer's column means and column variances. -/
def opsB3 {F : FTy → Type} [FloatOps F] : List (HloOp τ sig (Elt F)) :=
  [ nullary main_cst_8 (constant S_ .f32 0x00000000#32),
    binary main_v40 main_cst_8 main_v41 ((fun x v => Host.reduceAdd x v reducesTo_S100000x146_S146_d0 h_S_) : (⟨S100000x146, .f32⟩ : BufTy).Contents (Elt F) → (⟨S_, .f32⟩ : BufTy).Contents (Elt F) → (⟨S146, .f32⟩ : BufTy).Contents (Elt F)),
    nullary main_cst_9 (constant S_ .f32 0x47C35000#32),
    unary main_cst_9 main_v42 (broadcastInDim S146 ![] bcast_S_S146 : (⟨S_, .f32⟩ : BufTy).Contents (Elt F) → (⟨S146, .f32⟩ : BufTy).Contents (Elt F)),
    binary main_v41 main_v42 main_v43 (Host.divf : (⟨S146, .f32⟩ : BufTy).Contents (Elt F) → (⟨S146, .f32⟩ : BufTy).Contents (Elt F) → (⟨S146, .f32⟩ : BufTy).Contents (Elt F)),
    nullary main_c_10 (constantI S_ 32 0#32),
    TRef.nullary main_call0.cst (constant S_ .f32 0x00000000#32),
    TRef.binary (.of main_v40) main_call0.cst main_call0.v0 (fun x v => Host.reduceAdd x v reducesTo_S100000x146_S146_d0 h_S_),
    TRef.unary main_call0.v0 main_call0.v1 (broadcastInDim S1x146 ![1] bcast_S146_S1x146_1),
    TRef.nullary main_call0.cst_0 (constant S_ .f32 0x47C35000#32),
    TRef.unary main_call0.cst_0 main_call0.v2 (broadcastInDim S1x146 ![] bcast_S_S1x146),
    TRef.binary main_call0.v1 main_call0.v2 main_call0.v3 Host.divf,
    TRef.unary main_call0.v3 main_call0.v4 (broadcastInDim S100000x146 ![0, 1] bcast_S1x146_S100000x146_0_1),
    TRef.binary (.of main_v40) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x146_S146_d0 h_S_),
    TRef.unary main_call0.v8 main_call0.v10 (broadcastInDim S146 ![] bcast_S_S146),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S146 ![] bcast_S_S146),
    TRef.ternary main_call0.v12 main_call0.v11 main_call0.call0.v1 main_call0.call0.v2 (fun p a b => select (broadcastInDim S146 ![] bcast_S_S146 p) a b) ]
/-- The buffers it writes, in order. -/
abbrev opsB3_W : List (Ref sig .tc) := [main_cst_8, main_v41, main_cst_9, main_v42, main_v43, main_c_10, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]
theorem opsB3_writes {F : FTy → Type} [FloatOps F] : (opsB3 : List (HloOp τ sig (Elt F))).Forall fun op => op.writes ⊆ (opsB3_W.map (Proc.devRef (τ := τ) .tc)).toFinset := by
  unfold opsB3
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsB3 {F : FTy → Type} [FloatOps F] (V : Valuation τ sig (Elt F)) (r : Ref sig .tc) (h : r ∉ opsB3_W) :
    after opsB3 V (Proc.devRef .tc r) = V (Proc.devRef .tc r) :=
  after_of_writes_sub opsB3 V opsB3_writes h

/-- The first layer's normalisation, gain and shift, the clamp at zero and the added input. -/
def opsB4 {F : FTy → Type} [FloatOps F] : List (HloOp τ sig (Elt F)) :=
  [ unary main_v43 main_v45 (broadcastInDim S1x146 ![1] bcast_S146_S1x146_1 : (⟨S146, .f32⟩ : BufTy).Contents (Elt F) → (⟨S1x146, .f32⟩ : BufTy).Contents (Elt F)),
    unary main_v45 main_v46 (broadcastInDim S100000x146 ![0, 1] bcast_S1x146_S100000x146_0_1 : (⟨S1x146, .f32⟩ : BufTy).Contents (Elt F) → (⟨S100000x146, .f32⟩ : BufTy).Contents (Elt F)),
    binary main_v40 main_v46 main_v47 (subf : (⟨S100000x146, .f32⟩ : BufTy).Contents (Elt F) → (⟨S100000x146, .f32⟩ : BufTy).Contents (Elt F) → (⟨S100000x146, .f32⟩ : BufTy).Contents (Elt F)),
    nullary main_cst_11 (constant S_ .f32 0x3727C5AC#32),
    unary main_cst_11 main_v48 (broadcastInDim S146 ![] bcast_S_S146 : (⟨S_, .f32⟩ : BufTy).Contents (Elt F) → (⟨S146, .f32⟩ : BufTy).Contents (Elt F)),
    binary main_v44 main_v48 main_v49 (addf : (⟨S146, .f32⟩ : BufTy).Contents (Elt F) → (⟨S146, .f32⟩ : BufTy).Contents (Elt F) → (⟨S146, .f32⟩ : BufTy).Contents (Elt F)),
    unary main_v49 main_v50 (Host.rsqrt : (⟨S146, .f32⟩ : BufTy).Contents (Elt F) → (⟨S146, .f32⟩ : BufTy).Contents (Elt F)),
    unary main_v50 main_v51 (broadcastInDim S1x146 ![1] bcast_S146_S1x146_1 : (⟨S146, .f32⟩ : BufTy).Contents (Elt F) → (⟨S1x146, .f32⟩ : BufTy).Contents (Elt F)),
    unary main_v51 main_v52 (broadcastInDim S100000x146 ![0, 1] bcast_S1x146_S100000x146_0_1 : (⟨S1x146, .f32⟩ : BufTy).Contents (Elt F) → (⟨S100000x146, .f32⟩ : BufTy).Contents (Elt F)),
    binary main_v47 main_v52 main_v53 (mulf : (⟨S100000x146, .f32⟩ : BufTy).Contents (Elt F) → (⟨S100000x146, .f32⟩ : BufTy).Contents (Elt F) → (⟨S100000x146, .f32⟩ : BufTy).Contents (Elt F)),
    unary main_arg6 main_v54 (broadcastInDim S1x146 ![1] bcast_S146_S1x146_1 : (⟨S146, .f32⟩ : BufTy).Contents (Elt F) → (⟨S1x146, .f32⟩ : BufTy).Contents (Elt F)),
    unary main_v54 main_v55 (broadcastInDim S100000x146 ![0, 1] bcast_S1x146_S100000x146_0_1 : (⟨S1x146, .f32⟩ : BufTy).Contents (Elt F) → (⟨S100000x146, .f32⟩ : BufTy).Contents (Elt F)),
    binary main_v53 main_v55 main_v56 (mulf : (⟨S100000x146, .f32⟩ : BufTy).Contents (Elt F) → (⟨S100000x146, .f32⟩ : BufTy).Contents (Elt F) → (⟨S100000x146, .f32⟩ : BufTy).Contents (Elt F)),
    unary main_arg7 main_v57 (broadcastInDim S1x146 ![1] bcast_S146_S1x146_1 : (⟨S146, .f32⟩ : BufTy).Contents (Elt F) → (⟨S1x146, .f32⟩ : BufTy).Contents (Elt F)),
    unary main_v57 main_v58 (broadcastInDim S100000x146 ![0, 1] bcast_S1x146_S100000x146_0_1 : (⟨S1x146, .f32⟩ : BufTy).Contents (Elt F) → (⟨S100000x146, .f32⟩ : BufTy).Contents (Elt F)),
    binary main_v56 main_v58 main_v59 (addf : (⟨S100000x146, .f32⟩ : BufTy).Contents (Elt F) → (⟨S100000x146, .f32⟩ : BufTy).Contents (Elt F) → (⟨S100000x146, .f32⟩ : BufTy).Contents (Elt F)),
    TRef.nullary main_call1.cst (constant S_ .f32 0x00000000#32),
    TRef.unary main_call1.cst main_call1.v0 (broadcastInDim S100000x146 ![] bcast_S_S100000x146),
    TRef.binary (.of main_v59) main_call1.v0 main_call1.v1 maximumf,
    binary main_v3 main_v60 main_v61 (addf : (⟨S100000x146, .f32⟩ : BufTy).Contents (Elt F) → (⟨S100000x146, .f32⟩ : BufTy).Contents (Elt F) → (⟨S100000x146, .f32⟩ : BufTy).Contents (Elt F)) ]
/-- The buffers it writes, in order. -/
abbrev opsB4_W : List (Ref sig .tc) := [main_v45, main_v46, main_v47, main_cst_11, main_v48, main_v49, main_v50, main_v51, main_v52, main_v53, main_v54, main_v55, main_v56, main_v57, main_v58, main_v59, main_call1.cst.ref, main_call1.v0.ref, main_call1.v1.ref, main_v61]
theorem opsB4_writes {F : FTy → Type} [FloatOps F] : (opsB4 : List (HloOp τ sig (Elt F))).Forall fun op => op.writes ⊆ (opsB4_W.map (Proc.devRef (τ := τ) .tc)).toFinset := by
  unfold opsB4
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsB4 {F : FTy → Type} [FloatOps F] (V : Valuation τ sig (Elt F)) (r : Ref sig .tc) (h : r ∉ opsB4_W) :
    after opsB4 V (Proc.devRef .tc r) = V (Proc.devRef .tc r) :=
  after_of_writes_sub opsB4 V opsB4_writes h

/-- The piece is its four steps in order. -/
theorem opsB_split {F : FTy → Type} [FloatOps F] : (opsB : List (HloOp τ sig (Elt F))) = opsB1 ++ opsB2 ++ opsB3 ++ opsB4 := rfl

set_option maxRecDepth 16384 in
set_option maxHeartbeats 2000000 in
attribute [local irreducible] Host.scatterAdd Host.gather Host.reduceAdd Host.powf Host.rsqrt Host.divf Ideal.matmul in
theorem stB1_lin (V : Valuation τ sig (Elt Ideal)) :
    after opsB1 V (main_v20 : DevRef τ sig) = Cert.Gnn.lin (V (main_v3 : DevRef τ sig)) (Cert.Gnn.invSqrt (Cert.Gnn.deg (V (main_arg12 : DevRef τ sig)))) (V (main_arg4 : DevRef τ sig)) := by
  unfold opsB1
  after_results_simp
  rfl

set_option maxRecDepth 16384 in
set_option maxHeartbeats 2000000 in
attribute [local irreducible] Host.scatterAdd Host.gather Host.reduceAdd Host.powf Host.rsqrt Host.divf Ideal.matmul in
theorem stB1_deg (V : Valuation τ sig (Elt Ideal)) :
    after opsB1 V (main_v14 : DevRef τ sig) = Cert.Gnn.deg (V (main_arg13 : DevRef τ sig)) := by
  unfold opsB1
  after_results_simp
  rfl

set_option maxRecDepth 16384 in
set_option maxHeartbeats 2000000 in
attribute [local irreducible] Host.scatterAdd Host.gather Host.reduceAdd Host.powf Host.rsqrt Host.divf Ideal.matmul in
theorem stB2 (V : Valuation τ sig (Elt Ideal)) :
    after opsB2 V (main_v40 : DevRef τ sig) = Cert.Gnn.pre (Cert.Gnn.aggregate (V (main_v20 : DevRef τ sig)) (V (main_arg12 : DevRef τ sig)) (V (main_arg13 : DevRef τ sig))) (Cert.Gnn.invSqrt (V (main_v14 : DevRef τ sig))) (V (main_arg5 : DevRef τ sig)) (V (main_arg1 : DevRef τ sig)) := by
  unfold opsB2
  after_results_simp
  rfl

set_option maxRecDepth 16384 in
set_option maxHeartbeats 2000000 in
attribute [local irreducible] Host.scatterAdd Host.gather Host.reduceAdd Host.powf Host.rsqrt Host.divf Ideal.matmul in
theorem stB3_mean (V : Valuation τ sig (Elt Ideal)) :
    after opsB3 V (main_v43 : DevRef τ sig) = Cert.Gnn.mean (V (main_v40 : DevRef τ sig)) := by
  unfold opsB3
  after_results_simp
  rfl

set_option maxRecDepth 16384 in
set_option maxHeartbeats 2000000 in
attribute [local irreducible] Host.scatterAdd Host.gather Host.reduceAdd Host.powf Host.rsqrt Host.divf Ideal.matmul in
theorem stB3_var (V : Valuation τ sig (Elt Ideal)) :
    after opsB3 V (main_v44 : DevRef τ sig) = Cert.Gnn.variance (V (main_v40 : DevRef τ sig)) := by
  unfold opsB3
  after_results_simp
  simp only [toBuf_main_call0_cst, ofBuf_main_call0_cst, toBuf_main_call0_v0, ofBuf_main_call0_v0, toBuf_main_call0_v1, ofBuf_main_call0_v1, toBuf_main_call0_cst_0, ofBuf_main_call0_cst_0, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_v7, ofBuf_main_call0_v7, toBuf_main_call0_cst_1, ofBuf_main_call0_cst_1, toBuf_main_call0_v8, ofBuf_main_call0_v8, toBuf_main_call0_cst_2, ofBuf_main_call0_cst_2, toBuf_main_call0_v9, ofBuf_main_call0_v9, toBuf_main_call0_v10, ofBuf_main_call0_v10, toBuf_main_call0_v11, ofBuf_main_call0_v11, toBuf_main_call0_cst_3, ofBuf_main_call0_cst_3, toBuf_main_call0_v12, ofBuf_main_call0_v12, toBuf_main_call0_cst_4, ofBuf_main_call0_cst_4, toBuf_main_call0_call0_v0, ofBuf_main_call0_call0_v0, toBuf_main_call0_call0_v1, ofBuf_main_call0_call0_v1, toBuf_main_v44, ofBuf_main_v44, toBuf_main_call1_cst, ofBuf_main_call1_cst, toBuf_main_call1_v0, ofBuf_main_call1_v0, toBuf_main_v60, ofBuf_main_v60, toBuf_main_v40, ofBuf_main_v40, toBuf_main_c_10, ofBuf_main_c_10, toBuf_main_v59, ofBuf_main_v59]
  rfl

set_option maxRecDepth 16384 in
set_option maxHeartbeats 2000000 in
attribute [local irreducible] Host.scatterAdd Host.gather Host.reduceAdd Host.powf Host.rsqrt Host.divf Ideal.matmul in
theorem stB4 (V : Valuation τ sig (Elt Ideal)) :
    after opsB4 V (main_v61 : DevRef τ sig) = Cert.Gnn.bn (V (main_v40 : DevRef τ sig)) (V (main_v43 : DevRef τ sig)) (V (main_v44 : DevRef τ sig)) (V (main_arg6 : DevRef τ sig)) (V (main_arg7 : DevRef τ sig)) (V (main_v3 : DevRef τ sig)) := by
  unfold opsB4
  after_results_simp
  simp only [toBuf_main_call0_cst, ofBuf_main_call0_cst, toBuf_main_call0_v0, ofBuf_main_call0_v0, toBuf_main_call0_v1, ofBuf_main_call0_v1, toBuf_main_call0_cst_0, ofBuf_main_call0_cst_0, toBuf_main_call0_v2, ofBuf_main_call0_v2, toBuf_main_call0_v3, ofBuf_main_call0_v3, toBuf_main_call0_v4, ofBuf_main_call0_v4, toBuf_main_call0_v5, ofBuf_main_call0_v5, toBuf_main_call0_v6, ofBuf_main_call0_v6, toBuf_main_call0_v7, ofBuf_main_call0_v7, toBuf_main_call0_cst_1, ofBuf_main_call0_cst_1, toBuf_main_call0_v8, ofBuf_main_call0_v8, toBuf_main_call0_cst_2, ofBuf_main_call0_cst_2, toBuf_main_call0_v9, ofBuf_main_call0_v9, toBuf_main_call0_v10, ofBuf_main_call0_v10, toBuf_main_call0_v11, ofBuf_main_call0_v11, toBuf_main_call0_cst_3, ofBuf_main_call0_cst_3, toBuf_main_call0_v12, ofBuf_main_call0_v12, toBuf_main_call0_cst_4, ofBuf_main_call0_cst_4, toBuf_main_call0_call0_v0, ofBuf_main_call0_call0_v0, toBuf_main_call0_call0_v1, ofBuf_main_call0_call0_v1, toBuf_main_v44, ofBuf_main_v44, toBuf_main_call1_cst, ofBuf_main_call1_cst, toBuf_main_call1_v0, ofBuf_main_call1_v0, toBuf_main_v60, ofBuf_main_v60, toBuf_main_v40, ofBuf_main_v40, toBuf_main_c_10, ofBuf_main_c_10, toBuf_main_v59, ofBuf_main_v59]
  rfl

/-- After the first layer's piece its result buffer holds the layer's function of the piece's inputs: the four steps composed,
    each later step reading what the earlier ones left. -/
theorem stageB (V : Valuation τ sig (Elt Ideal)) :
    after opsB V (main_v61 : DevRef τ sig) = Cert.Gnn.layer (V (main_v3 : DevRef τ sig)) (V (main_arg12 : DevRef τ sig)) (V (main_arg13 : DevRef τ sig)) (V (main_arg1 : DevRef τ sig)) (V (main_arg4 : DevRef τ sig)) (V (main_arg5 : DevRef τ sig)) (V (main_arg6 : DevRef τ sig)) (V (main_arg7 : DevRef τ sig)) := by
  rw [opsB_split, after_append, after_append, after_append, stB4, stB3_mean, stB3_var,
    keep_opsB3 _ main_v40 (by decide), keep_opsB3 _ main_arg6 (by decide), keep_opsB3 _ main_arg7 (by decide), keep_opsB3 _ main_v3 (by decide),
    stB2,
    keep_opsB2 _ main_arg6 (by decide), keep_opsB2 _ main_arg7 (by decide), keep_opsB2 _ main_v3 (by decide),
    stB1_lin, stB1_deg,
    keep_opsB1 _ main_arg12 (by decide), keep_opsB1 _ main_arg13 (by decide), keep_opsB1 _ main_arg5 (by decide), keep_opsB1 _ main_arg1 (by decide), keep_opsB1 _ main_arg6 (by decide), keep_opsB1 _ main_arg7 (by decide), keep_opsB1 _ main_v3 (by decide)]
  rfl

/-! ### The second layer, in four steps -/

/-- The second layer's degrees, their powers -1/2, and the projection of the scaled features. -/
def opsC1 {F : FTy → Type} [FloatOps F] : List (HloOp τ sig (Elt F)) :=
  [ nullary main_cst_12 (constant S_ .f32 0x3F800000#32),
    unary main_cst_12 main_v62 (broadcastInDim S500000 ![] bcast_S_S500000 : (⟨S_, .f32⟩ : BufTy).Contents (Elt F) → (⟨S500000, .f32⟩ : BufTy).Contents (Elt F)),
    nullary main_cst_13 (constant S_ .f32 0x00000000#32),
    unary main_cst_13 main_v63 (broadcastInDim S100000 ![] bcast_S_S100000 : (⟨S_, .f32⟩ : BufTy).Contents (Elt F) → (⟨S100000, .f32⟩ : BufTy).Contents (Elt F)),
    unary main_arg12 main_v64 (broadcastInDim S500000x1 ![0] bcast_S500000_S500000x1_0 : (⟨S500000, .i32⟩ : BufTy).Contents (Elt F) → (⟨S500000x1, .i32⟩ : BufTy).Contents (Elt F)),
    ternary main_v63 main_v64 main_v62 main_v65 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_14 (constant S_ .f32 0x3F800000#32),
    unary main_cst_14 main_v66 (broadcastInDim S100000 ![] bcast_S_S100000 : (⟨S_, .f32⟩ : BufTy).Contents (Elt F) → (⟨S100000, .f32⟩ : BufTy).Contents (Elt F)),
    binary main_v65 main_v66 main_v67 (maximumf : (⟨S100000, .f32⟩ : BufTy).Contents (Elt F) → (⟨S100000, .f32⟩ : BufTy).Contents (Elt F) → (⟨S100000, .f32⟩ : BufTy).Contents (Elt F)),
    nullary main_cst_15 (constant S_ .f32 0x00000000#32),
    unary main_cst_15 main_v68 (broadcastInDim S100000 ![] bcast_S_S100000 : (⟨S_, .f32⟩ : BufTy).Contents (Elt F) → (⟨S100000, .f32⟩ : BufTy).Contents (Elt F)),
    unary main_arg13 main_v69 (broadcastInDim S500000x1 ![0] bcast_S500000_S500000x1_0 : (⟨S500000, .i32⟩ : BufTy).Contents (Elt F) → (⟨S500000x1, .i32⟩ : BufTy).Contents (Elt F)),
    ternary main_v68 main_v69 main_v62 main_v70 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    nullary main_cst_16 (constant S_ .f32 0x3F800000#32),
    unary main_cst_16 main_v71 (broadcastInDim S100000 ![] bcast_S_S100000 : (⟨S_, .f32⟩ : BufTy).Contents (Elt F) → (⟨S100000, .f32⟩ : BufTy).Contents (Elt F)),
    binary main_v70 main_v71 main_v72 (maximumf : (⟨S100000, .f32⟩ : BufTy).Contents (Elt F) → (⟨S100000, .f32⟩ : BufTy).Contents (Elt F) → (⟨S100000, .f32⟩ : BufTy).Contents (Elt F)),
    nullary main_cst_17 (constant S_ .f32 0xBF000000#32),
    unary main_cst_17 main_v73 (broadcastInDim S100000 ![] bcast_S_S100000 : (⟨S_, .f32⟩ : BufTy).Contents (Elt F) → (⟨S100000, .f32⟩ : BufTy).Contents (Elt F)),
    binary main_v67 main_v73 main_v74 (Host.powf : (⟨S100000, .f32⟩ : BufTy).Contents (Elt F) → (⟨S100000, .f32⟩ : BufTy).Contents (Elt F) → (⟨S100000, .f32⟩ : BufTy).Contents (Elt F)),
    unary main_v74 main_v75 (broadcastInDim S100000x1 ![0] bcast_S100000_S100000x1_0 : (⟨S100000, .f32⟩ : BufTy).Contents (Elt F) → (⟨S100000x1, .f32⟩ : BufTy).Contents (Elt F)),
    unary main_v75 main_v76 (broadcastInDim S100000x146 ![0, 1] bcast_S100000x1_S100000x146_0_1 : (⟨S100000x1, .f32⟩ : BufTy).Contents (Elt F) → (⟨S100000x146, .f32⟩ : BufTy).Contents (Elt F)),
    binary main_v61 main_v76 main_v77 (mulf : (⟨S100000x146, .f32⟩ : BufTy).Contents (Elt F) → (⟨S100000x146, .f32⟩ : BufTy).Contents (Elt F) → (⟨S100000x146, .f32⟩ : BufTy).Contents (Elt F)),
    binary main_v77 main_arg8 main_v78 ((fun l r => Host.dotGeneral dot_S100000x146_S146x146_S100000x146_1_0_0_1_n_n none l r) : (⟨S100000x146, .f32⟩ : BufTy).Contents (Elt F) → (⟨S146x146, .f32⟩ : BufTy).Contents (Elt F) → (⟨S100000x146, .f32⟩ : BufTy).Contents (Elt F)) ]
/-- The buffers it writes, in order. -/
abbrev opsC1_W : List (Ref sig .tc) := [main_cst_12, main_v62, main_cst_13, main_v63, main_v64, main_v65, main_cst_14, main_v66, main_v67, main_cst_15, main_v68, main_v69, main_v70, main_cst_16, main_v71, main_v72, main_cst_17, main_v73, main_v74, main_v75, main_v76, main_v77, main_v78]
theorem opsC1_writes {F : FTy → Type} [FloatOps F] : (opsC1 : List (HloOp τ sig (Elt F))).Forall fun op => op.writes ⊆ (opsC1_W.map (Proc.devRef (τ := τ) .tc)).toFinset := by
  unfold opsC1
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsC1 {F : FTy → Type} [FloatOps F] (V : Valuation τ sig (Elt F)) (r : Ref sig .tc) (h : r ∉ opsC1_W) :
    after opsC1 V (Proc.devRef .tc r) = V (Proc.devRef .tc r) :=
  after_of_writes_sub opsC1 V opsC1_writes h

/-- The second layer's sum over the edges into each node, its scaling, the bias and the per-node factor. -/
def opsC2 {F : FTy → Type} [FloatOps F] : List (HloOp τ sig (Elt F)) :=
  [ nullary main_c_18 (constantI S_ 32 0#32),
    unary main_c_18 main_v79 (broadcastInDim S500000 ![] bcast_S_S500000 : (⟨S_, .i32⟩ : BufTy).Contents (Elt F) → (⟨S500000, .i32⟩ : BufTy).Contents (Elt F)),
    binary main_arg12 main_v79 main_v80 (cmpi .slt : (⟨S500000, .i32⟩ : BufTy).Contents (Elt F) → (⟨S500000, .i32⟩ : BufTy).Contents (Elt F) → (⟨S500000, .i1⟩ : BufTy).Contents (Elt F)),
    nullary main_c_19 (constantI S_ 32 100000#32),
    unary main_c_19 main_v81 (broadcastInDim S500000 ![] bcast_S_S500000 : (⟨S_, .i32⟩ : BufTy).Contents (Elt F) → (⟨S500000, .i32⟩ : BufTy).Contents (Elt F)),
    binary main_arg12 main_v81 main_v82 (addi : (⟨S500000, .i32⟩ : BufTy).Contents (Elt F) → (⟨S500000, .i32⟩ : BufTy).Contents (Elt F) → (⟨S500000, .i32⟩ : BufTy).Contents (Elt F)),
    ternary main_v80 main_v82 main_arg12 main_v83 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v83 main_v84 (broadcastInDim S500000x1 ![0] bcast_S500000_S500000x1_0 : (⟨S500000, .i32⟩ : BufTy).Contents (Elt F) → (⟨S500000x1, .i32⟩ : BufTy).Contents (Elt F)),
    binary main_v78 main_v84 main_v85 ((fun x i => Host.gather gather_S100000x146_S500000x1_S500000x146_1_0_n_n_0_1_1146 x i) : (⟨S100000x146, .f32⟩ : BufTy).Contents (Elt F) → (⟨S500000x1, .i32⟩ : BufTy).Contents (Elt F) → (⟨S500000x146, .f32⟩ : BufTy).Contents (Elt F)),
    nullary main_cst_20 (constant S_ .f32 0x00000000#32),
    unary main_cst_20 main_v86 (broadcastInDim S100000x146 ![] bcast_S_S100000x146 : (⟨S_, .f32⟩ : BufTy).Contents (Elt F) → (⟨S100000x146, .f32⟩ : BufTy).Contents (Elt F)),
    unary main_arg13 main_v87 (broadcastInDim S500000x1 ![0] bcast_S500000_S500000x1_0 : (⟨S500000, .i32⟩ : BufTy).Contents (Elt F) → (⟨S500000x1, .i32⟩ : BufTy).Contents (Elt F)),
    ternary main_v86 main_v87 main_v85 main_v88 ((fun x i u => Host.scatterAdd scatter_S100000x146_S500000x1_S500000x146_1_0_0_1 x i u) : (⟨S100000x146, .f32⟩ : BufTy).Contents (Elt F) → (⟨S500000x1, .i32⟩ : BufTy).Contents (Elt F) → (⟨S500000x146, .f32⟩ : BufTy).Contents (Elt F) → (⟨S100000x146, .f32⟩ : BufTy).Contents (Elt F)),
    nullary main_cst_21 (constant S_ .f32 0xBF000000#32),
    unary main_cst_21 main_v89 (broadcastInDim S100000 ![] bcast_S_S100000 : (⟨S_, .f32⟩ : BufTy).Contents (Elt F) → (⟨S100000, .f32⟩ : BufTy).Contents (Elt F)),
    binary main_v72 main_v89 main_v90 (Host.powf : (⟨S100000, .f32⟩ : BufTy).Contents (Elt F) → (⟨S100000, .f32⟩ : BufTy).Contents (Elt F) → (⟨S100000, .f32⟩ : BufTy).Contents (Elt F)),
    unary main_v90 main_v91 (broadcastInDim S100000x1 ![0] bcast_S100000_S100000x1_0 : (⟨S100000, .f32⟩ : BufTy).Contents (Elt F) → (⟨S100000x1, .f32⟩ : BufTy).Contents (Elt F)),
    unary main_v91 main_v92 (broadcastInDim S100000x146 ![0, 1] bcast_S100000x1_S100000x146_0_1 : (⟨S100000x1, .f32⟩ : BufTy).Contents (Elt F) → (⟨S100000x146, .f32⟩ : BufTy).Contents (Elt F)),
    binary main_v88 main_v92 main_v93 (mulf : (⟨S100000x146, .f32⟩ : BufTy).Contents (Elt F) → (⟨S100000x146, .f32⟩ : BufTy).Contents (Elt F) → (⟨S100000x146, .f32⟩ : BufTy).Contents (Elt F)),
    unary main_arg9 main_v94 (broadcastInDim S1x146 ![1] bcast_S146_S1x146_1 : (⟨S146, .f32⟩ : BufTy).Contents (Elt F) → (⟨S1x146, .f32⟩ : BufTy).Contents (Elt F)),
    unary main_v94 main_v95 (broadcastInDim S100000x146 ![0, 1] bcast_S1x146_S100000x146_0_1 : (⟨S1x146, .f32⟩ : BufTy).Contents (Elt F) → (⟨S100000x146, .f32⟩ : BufTy).Contents (Elt F)),
    binary main_v93 main_v95 main_v96 (addf : (⟨S100000x146, .f32⟩ : BufTy).Contents (Elt F) → (⟨S100000x146, .f32⟩ : BufTy).Contents (Elt F) → (⟨S100000x146, .f32⟩ : BufTy).Contents (Elt F)),
    unary main_arg1 main_v97 (broadcastInDim S100000x146 ![0, 1] bcast_S100000x1_S100000x146_0_1 : (⟨S100000x1, .f32⟩ : BufTy).Contents (Elt F) → (⟨S100000x146, .f32⟩ : BufTy).Contents (Elt F)),
    binary main_v96 main_v97 main_v98 (mulf : (⟨S100000x146, .f32⟩ : BufTy).Contents (Elt F) → (⟨S100000x146, .f32⟩ : BufTy).Contents (Elt F) → (⟨S100000x146, .f32⟩ : BufTy).Contents (Elt F)) ]
/-- The buffers it writes, in order. -/
abbrev opsC2_W : List (Ref sig .tc) := [main_c_18, main_v79, main_v80, main_c_19, main_v81, main_v82, main_v83, main_v84, main_v85, main_cst_20, main_v86, main_v87, main_v88, main_cst_21, main_v89, main_v90, main_v91, main_v92, main_v93, main_v94, main_v95, main_v96, main_v97, main_v98]
theorem opsC2_writes {F : FTy → Type} [FloatOps F] : (opsC2 : List (HloOp τ sig (Elt F))).Forall fun op => op.writes ⊆ (opsC2_W.map (Proc.devRef (τ := τ) .tc)).toFinset := by
  unfold opsC2
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsC2 {F : FTy → Type} [FloatOps F] (V : Valuation τ sig (Elt F)) (r : Ref sig .tc) (h : r ∉ opsC2_W) :
    after opsC2 V (Proc.devRef .tc r) = V (Proc.devRef .tc r) :=
  after_of_writes_sub opsC2 V opsC2_writes h

/-- The second layer's column means and column variances. -/
def opsC3 {F : FTy → Type} [FloatOps F] : List (HloOp τ sig (Elt F)) :=
  [ nullary main_cst_22 (constant S_ .f32 0x00000000#32),
    binary main_v98 main_cst_22 main_v99 ((fun x v => Host.reduceAdd x v reducesTo_S100000x146_S146_d0 h_S_) : (⟨S100000x146, .f32⟩ : BufTy).Contents (Elt F) → (⟨S_, .f32⟩ : BufTy).Contents (Elt F) → (⟨S146, .f32⟩ : BufTy).Contents (Elt F)),
    nullary main_cst_23 (constant S_ .f32 0x47C35000#32),
    unary main_cst_23 main_v100 (broadcastInDim S146 ![] bcast_S_S146 : (⟨S_, .f32⟩ : BufTy).Contents (Elt F) → (⟨S146, .f32⟩ : BufTy).Contents (Elt F)),
    binary main_v99 main_v100 main_v101 (Host.divf : (⟨S146, .f32⟩ : BufTy).Contents (Elt F) → (⟨S146, .f32⟩ : BufTy).Contents (Elt F) → (⟨S146, .f32⟩ : BufTy).Contents (Elt F)),
    nullary main_c_24 (constantI S_ 32 0#32),
    TRef.nullary main_call2.cst (constant S_ .f32 0x00000000#32),
    TRef.binary (.of main_v98) main_call2.cst main_call2.v0 (fun x v => Host.reduceAdd x v reducesTo_S100000x146_S146_d0 h_S_),
    TRef.unary main_call2.v0 main_call2.v1 (broadcastInDim S1x146 ![1] bcast_S146_S1x146_1),
    TRef.nullary main_call2.cst_0 (constant S_ .f32 0x47C35000#32),
    TRef.unary main_call2.cst_0 main_call2.v2 (broadcastInDim S1x146 ![] bcast_S_S1x146),
    TRef.binary main_call2.v1 main_call2.v2 main_call2.v3 Host.divf,
    TRef.unary main_call2.v3 main_call2.v4 (broadcastInDim S100000x146 ![0, 1] bcast_S1x146_S100000x146_0_1),
    TRef.binary (.of main_v98) main_call2.v4 main_call2.v5 subf,
    TRef.binary main_call2.v5 main_call2.v5 main_call2.v6 mulf,
    TRef.unary (.of main_c_24) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x146_S146_d0 h_S_),
    TRef.unary main_call2.v8 main_call2.v10 (broadcastInDim S146 ![] bcast_S_S146),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S146 ![] bcast_S_S146),
    TRef.ternary main_call2.v12 main_call2.v11 main_call2.call0.v1 main_call2.call0.v2 (fun p a b => select (broadcastInDim S146 ![] bcast_S_S146 p) a b) ]
/-- The buffers it writes, in order. -/
abbrev opsC3_W : List (Ref sig .tc) := [main_cst_22, main_v99, main_cst_23, main_v100, main_v101, main_c_24, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]
theorem opsC3_writes {F : FTy → Type} [FloatOps F] : (opsC3 : List (HloOp τ sig (Elt F))).Forall fun op => op.writes ⊆ (opsC3_W.map (Proc.devRef (τ := τ) .tc)).toFinset := by
  unfold opsC3
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsC3 {F : FTy → Type} [FloatOps F] (V : Valuation τ sig (Elt F)) (r : Ref sig .tc) (h : r ∉ opsC3_W) :
    after opsC3 V (Proc.devRef .tc r) = V (Proc.devRef .tc r) :=
  after_of_writes_sub opsC3 V opsC3_writes h

/-- The second layer's normalisation, gain and shift, the clamp at zero and the added input. -/
def opsC4 {F : FTy → Type} [FloatOps F] : List (HloOp τ sig (Elt F)) :=
  [ unary main_v101 main_v103 (broadcastInDim S1x146 ![1] bcast_S146_S1x146_1 : (⟨S146, .f32⟩ : BufTy).Contents (Elt F) → (⟨S1x146, .f32⟩ : BufTy).Contents (Elt F)),
    unary main_v103 main_v104 (broadcastInDim S100000x146 ![0, 1] bcast_S1x146_S100000x146_0_1 : (⟨S1x146, .f32⟩ : BufTy).Contents (Elt F) → (⟨S100000x146, .f32⟩ : BufTy).Contents (Elt F)),
    binary main_v98 main_v104 main_v105 (subf : (⟨S100000x146, .f32⟩ : BufTy).Contents (Elt F) → (⟨S100000x146, .f32⟩ : BufTy).Contents (Elt F) → (⟨S100000x146, .f32⟩ : BufTy).Contents (Elt F)),
    nullary main_cst_25 (constant S_ .f32 0x3727C5AC#32),
    unary main_cst_25 main_v106 (broadcastInDim S146 ![] bcast_S_S146 : (⟨S_, .f32⟩ : BufTy).Contents (Elt F) → (⟨S146, .f32⟩ : BufTy).Contents (Elt F)),
    binary main_v102 main_v106 main_v107 (addf : (⟨S146, .f32⟩ : BufTy).Contents (Elt F) → (⟨S146, .f32⟩ : BufTy).Contents (Elt F) → (⟨S146, .f32⟩ : BufTy).Contents (Elt F)),
    unary main_v107 main_v108 (Host.rsqrt : (⟨S146, .f32⟩ : BufTy).Contents (Elt F) → (⟨S146, .f32⟩ : BufTy).Contents (Elt F)),
    unary main_v108 main_v109 (broadcastInDim S1x146 ![1] bcast_S146_S1x146_1 : (⟨S146, .f32⟩ : BufTy).Contents (Elt F) → (⟨S1x146, .f32⟩ : BufTy).Contents (Elt F)),
    unary main_v109 main_v110 (broadcastInDim S100000x146 ![0, 1] bcast_S1x146_S100000x146_0_1 : (⟨S1x146, .f32⟩ : BufTy).Contents (Elt F) → (⟨S100000x146, .f32⟩ : BufTy).Contents (Elt F)),
    binary main_v105 main_v110 main_v111 (mulf : (⟨S100000x146, .f32⟩ : BufTy).Contents (Elt F) → (⟨S100000x146, .f32⟩ : BufTy).Contents (Elt F) → (⟨S100000x146, .f32⟩ : BufTy).Contents (Elt F)),
    unary main_arg10 main_v112 (broadcastInDim S1x146 ![1] bcast_S146_S1x146_1 : (⟨S146, .f32⟩ : BufTy).Contents (Elt F) → (⟨S1x146, .f32⟩ : BufTy).Contents (Elt F)),
    unary main_v112 main_v113 (broadcastInDim S100000x146 ![0, 1] bcast_S1x146_S100000x146_0_1 : (⟨S1x146, .f32⟩ : BufTy).Contents (Elt F) → (⟨S100000x146, .f32⟩ : BufTy).Contents (Elt F)),
    binary main_v111 main_v113 main_v114 (mulf : (⟨S100000x146, .f32⟩ : BufTy).Contents (Elt F) → (⟨S100000x146, .f32⟩ : BufTy).Contents (Elt F) → (⟨S100000x146, .f32⟩ : BufTy).Contents (Elt F)),
    unary main_arg11 main_v115 (broadcastInDim S1x146 ![1] bcast_S146_S1x146_1 : (⟨S146, .f32⟩ : BufTy).Contents (Elt F) → (⟨S1x146, .f32⟩ : BufTy).Contents (Elt F)),
    unary main_v115 main_v116 (broadcastInDim S100000x146 ![0, 1] bcast_S1x146_S100000x146_0_1 : (⟨S1x146, .f32⟩ : BufTy).Contents (Elt F) → (⟨S100000x146, .f32⟩ : BufTy).Contents (Elt F)),
    binary main_v114 main_v116 main_v117 (addf : (⟨S100000x146, .f32⟩ : BufTy).Contents (Elt F) → (⟨S100000x146, .f32⟩ : BufTy).Contents (Elt F) → (⟨S100000x146, .f32⟩ : BufTy).Contents (Elt F)),
    TRef.nullary main_call3.cst (constant S_ .f32 0x00000000#32),
    TRef.unary main_call3.cst main_call3.v0 (broadcastInDim S100000x146 ![] bcast_S_S100000x146),
    TRef.binary (.of main_v117) main_call3.v0 main_call3.v1 maximumf,
    binary main_v61 main_v118 main_v119 (addf : (⟨S100000x146, .f32⟩ : BufTy).Contents (Elt F) → (⟨S100000x146, .f32⟩ : BufTy).Contents (Elt F) → (⟨S100000x146, .f32⟩ : BufTy).Contents (Elt F)) ]
/-- The buffers it writes, in order. -/
abbrev opsC4_W : List (Ref sig .tc) := [main_v103, main_v104, main_v105, main_cst_25, main_v106, main_v107, main_v108, main_v109, main_v110, main_v111, main_v112, main_v113, main_v114, main_v115, main_v116, main_v117, main_call3.cst.ref, main_call3.v0.ref, main_call3.v1.ref, main_v119]
theorem opsC4_writes {F : FTy → Type} [FloatOps F] : (opsC4 : List (HloOp τ sig (Elt F))).Forall fun op => op.writes ⊆ (opsC4_W.map (Proc.devRef (τ := τ) .tc)).toFinset := by
  unfold opsC4
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer it does not write keeps its contents through it. -/
theorem keep_opsC4 {F : FTy → Type} [FloatOps F] (V : Valuation τ sig (Elt F)) (r : Ref sig .tc) (h : r ∉ opsC4_W) :
    after opsC4 V (Proc.devRef .tc r) = V (Proc.devRef .tc r) :=
  after_of_writes_sub opsC4 V opsC4_writes h

/-- The piece is its four steps in order. -/
theorem opsC_split {F : FTy → Type} [FloatOps F] : (opsC : List (HloOp τ sig (Elt F))) = opsC1 ++ opsC2 ++ opsC3 ++ opsC4 := rfl

set_option maxRecDepth 16384 in
set_option maxHeartbeats 2000000 in
attribute [local irreducible] Host.scatterAdd Host.gather Host.reduceAdd Host.powf Host.rsqrt Host.divf Ideal.matmul in
theorem stC1_lin (V : Valuation τ sig (Elt Ideal)) :
    after opsC1 V (main_v78 : DevRef τ sig) = Cert.Gnn.lin (V (main_v61 : DevRef τ sig)) (Cert.Gnn.invSqrt (Cert.Gnn.deg (V (main_arg12 : DevRef τ sig)))) (V (main_arg8 : DevRef τ sig)) := by
  unfold opsC1
  after_results_simp
  rfl

set_option maxRecDepth 16384 in
set_option maxHeartbeats 2000000 in
attribute [local irreducible] Host.scatterAdd Host.gather Host.reduceAdd Host.powf Host.rsqrt Host.divf Ideal.matmul in
theorem stC1_deg (V : Valuation τ sig (Elt Ideal)) :
    after opsC1 V (main_v72 : DevRef τ sig) = Cert.Gnn.deg (V (main_arg13 : DevRef τ sig)) := by
  unfold opsC1
  after_results_simp
  rfl

set_option maxRecDepth 16384 in
set_option maxHeartbeats 2000000 in
attribute [local irreducible] Host.scatterAdd Host.gather Host.reduceAdd Host.powf Host.rsqrt Host.divf Ideal.matmul in
theorem stC2 (V : Valuation τ sig (Elt Ideal)) :
    after opsC2 V (main_v98 : DevRef τ sig) = Cert.Gnn.pre (Cert.Gnn.aggregate (V (main_v78 : DevRef τ sig)) (V (main_arg12 : DevRef τ sig)) (V (main_arg13 : DevRef τ sig))) (Cert.Gnn.invSqrt (V (main_v72 : DevRef τ sig))) (V (main_arg9 : DevRef τ sig)) (V (main_arg1 : DevRef τ sig)) := by
  unfold opsC2
  after_results_simp
  rfl

set_option maxRecDepth 16384 in
set_option maxHeartbeats 2000000 in
attribute [local irreducible] Host.scatterAdd Host.gather Host.reduceAdd Host.powf Host.rsqrt Host.divf Ideal.matmul in
theorem stC3_mean (V : Valuation τ sig (Elt Ideal)) :
    after opsC3 V (main_v101 : DevRef τ sig) = Cert.Gnn.mean (V (main_v98 : DevRef τ sig)) := by
  unfold opsC3
  after_results_simp
  rfl

set_option maxRecDepth 16384 in
set_option maxHeartbeats 2000000 in
attribute [local irreducible] Host.scatterAdd Host.gather Host.reduceAdd Host.powf Host.rsqrt Host.divf Ideal.matmul in
theorem stC3_var (V : Valuation τ sig (Elt Ideal)) :
    after opsC3 V (main_v102 : DevRef τ sig) = Cert.Gnn.variance (V (main_v98 : DevRef τ sig)) := by
  unfold opsC3
  after_results_simp
  simp only [toBuf_main_call2_cst, ofBuf_main_call2_cst, toBuf_main_call2_v0, ofBuf_main_call2_v0, toBuf_main_call2_v1, ofBuf_main_call2_v1, toBuf_main_call2_cst_0, ofBuf_main_call2_cst_0, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_v7, ofBuf_main_call2_v7, toBuf_main_call2_cst_1, ofBuf_main_call2_cst_1, toBuf_main_call2_v8, ofBuf_main_call2_v8, toBuf_main_call2_cst_2, ofBuf_main_call2_cst_2, toBuf_main_call2_v9, ofBuf_main_call2_v9, toBuf_main_call2_v10, ofBuf_main_call2_v10, toBuf_main_call2_v11, ofBuf_main_call2_v11, toBuf_main_call2_cst_3, ofBuf_main_call2_cst_3, toBuf_main_call2_v12, ofBuf_main_call2_v12, toBuf_main_call2_cst_4, ofBuf_main_call2_cst_4, toBuf_main_call2_call0_v0, ofBuf_main_call2_call0_v0, toBuf_main_call2_call0_v1, ofBuf_main_call2_call0_v1, toBuf_main_v102, ofBuf_main_v102, toBuf_main_call3_cst, ofBuf_main_call3_cst, toBuf_main_call3_v0, ofBuf_main_call3_v0, toBuf_main_v118, ofBuf_main_v118, toBuf_main_v98, ofBuf_main_v98, toBuf_main_c_24, ofBuf_main_c_24, toBuf_main_v117, ofBuf_main_v117]
  rfl

set_option maxRecDepth 16384 in
set_option maxHeartbeats 2000000 in
attribute [local irreducible] Host.scatterAdd Host.gather Host.reduceAdd Host.powf Host.rsqrt Host.divf Ideal.matmul in
theorem stC4 (V : Valuation τ sig (Elt Ideal)) :
    after opsC4 V (main_v119 : DevRef τ sig) = Cert.Gnn.bn (V (main_v98 : DevRef τ sig)) (V (main_v101 : DevRef τ sig)) (V (main_v102 : DevRef τ sig)) (V (main_arg10 : DevRef τ sig)) (V (main_arg11 : DevRef τ sig)) (V (main_v61 : DevRef τ sig)) := by
  unfold opsC4
  after_results_simp
  simp only [toBuf_main_call2_cst, ofBuf_main_call2_cst, toBuf_main_call2_v0, ofBuf_main_call2_v0, toBuf_main_call2_v1, ofBuf_main_call2_v1, toBuf_main_call2_cst_0, ofBuf_main_call2_cst_0, toBuf_main_call2_v2, ofBuf_main_call2_v2, toBuf_main_call2_v3, ofBuf_main_call2_v3, toBuf_main_call2_v4, ofBuf_main_call2_v4, toBuf_main_call2_v5, ofBuf_main_call2_v5, toBuf_main_call2_v6, ofBuf_main_call2_v6, toBuf_main_call2_v7, ofBuf_main_call2_v7, toBuf_main_call2_cst_1, ofBuf_main_call2_cst_1, toBuf_main_call2_v8, ofBuf_main_call2_v8, toBuf_main_call2_cst_2, ofBuf_main_call2_cst_2, toBuf_main_call2_v9, ofBuf_main_call2_v9, toBuf_main_call2_v10, ofBuf_main_call2_v10, toBuf_main_call2_v11, ofBuf_main_call2_v11, toBuf_main_call2_cst_3, ofBuf_main_call2_cst_3, toBuf_main_call2_v12, ofBuf_main_call2_v12, toBuf_main_call2_cst_4, ofBuf_main_call2_cst_4, toBuf_main_call2_call0_v0, ofBuf_main_call2_call0_v0, toBuf_main_call2_call0_v1, ofBuf_main_call2_call0_v1, toBuf_main_v102, ofBuf_main_v102, toBuf_main_call3_cst, ofBuf_main_call3_cst, toBuf_main_call3_v0, ofBuf_main_call3_v0, toBuf_main_v118, ofBuf_main_v118, toBuf_main_v98, ofBuf_main_v98, toBuf_main_c_24, ofBuf_main_c_24, toBuf_main_v117, ofBuf_main_v117]
  rfl

/-- After the second layer's piece its result buffer holds the layer's function of the piece's inputs: the four steps composed,
    each later step reading what the earlier ones left. -/
theorem stageC (V : Valuation τ sig (Elt Ideal)) :
    after opsC V (main_v119 : DevRef τ sig) = Cert.Gnn.layer (V (main_v61 : DevRef τ sig)) (V (main_arg12 : DevRef τ sig)) (V (main_arg13 : DevRef τ sig)) (V (main_arg1 : DevRef τ sig)) (V (main_arg8 : DevRef τ sig)) (V (main_arg9 : DevRef τ sig)) (V (main_arg10 : DevRef τ sig)) (V (main_arg11 : DevRef τ sig)) := by
  rw [opsC_split, after_append, after_append, after_append, stC4, stC3_mean, stC3_var,
    keep_opsC3 _ main_v98 (by decide), keep_opsC3 _ main_arg10 (by decide), keep_opsC3 _ main_arg11 (by decide), keep_opsC3 _ main_v61 (by decide),
    stC2,
    keep_opsC2 _ main_arg10 (by decide), keep_opsC2 _ main_arg11 (by decide), keep_opsC2 _ main_v61 (by decide),
    stC1_lin, stC1_deg,
    keep_opsC1 _ main_arg12 (by decide), keep_opsC1 _ main_arg13 (by decide), keep_opsC1 _ main_arg9 (by decide), keep_opsC1 _ main_arg1 (by decide), keep_opsC1 _ main_arg10 (by decide), keep_opsC1 _ main_arg11 (by decide), keep_opsC1 _ main_v61 (by decide)]
  rfl

attribute [local irreducible] Host.scatterAdd Host.gather Host.reduceAdd Host.powf Host.rsqrt Host.divf Ideal.matmul in
/-- After the last piece the result buffer holds the pooling of the second layer's result. -/
theorem stageD (V : Valuation τ sig (Elt Ideal)) :
    after opsD V (main_v131 : DevRef τ sig) = Cert.Gnn.pool (V (main_v119 : DevRef τ sig)) (V (main_arg14 : DevRef τ sig)) := by
  after_results_simp
  rfl

/-! ## The whole line -/

/-- The last result buffer after the whole line: the network's function of the arguments' contents before it. -/
theorem out_eq (V : Valuation τ sig (Elt Ideal)) :
    after (opsA ++ opsB ++ opsC ++ opsD) V (main_v131 : DevRef τ sig)
      = Cert.Gnn.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_append, after_append, after_append, stageD, stageC, stageB, stageA]
  simp only [keepC _ main_arg14 (by decide),
    keepB _ main_arg14 (by decide), keepB _ main_arg12 (by decide), keepB _ main_arg13 (by decide), keepB _ main_arg1 (by decide), keepB _ main_arg8 (by decide), keepB _ main_arg9 (by decide), keepB _ main_arg10 (by decide), keepB _ main_arg11 (by decide),
    keepA _ main_arg14 (by decide), keepA _ main_arg12 (by decide), keepA _ main_arg13 (by decide), keepA _ main_arg1 (by decide), keepA _ main_arg4 (by decide), keepA _ main_arg5 (by decide), keepA _ main_arg6 (by decide), keepA _ main_arg7 (by decide), keepA _ main_arg8 (by decide), keepA _ main_arg9 (by decide), keepA _ main_arg10 (by decide), keepA _ main_arg11 (by decide)]
  rfl

/-- A buffer none of the four pieces writes keeps its contents through the whole line. -/
theorem keep_all {F : FTy → Type} [FloatOps F] (V : Valuation τ sig (Elt F)) (r : Ref sig .tc)
    (hA : r ∉ opsA_W) (hB : r ∉ opsB_W) (hC : r ∉ opsC_W) (hD : r ∉ opsD_W) :
    after (opsA ++ opsB ++ opsC ++ opsD) V (Proc.devRef .tc r) = V (Proc.devRef .tc r) := by
  rw [after_append, after_append, after_append, keepD _ r hD, keepC _ r hC, keepB _ r hB, keepA _ r hA]

theorem arg_eq_0 (V : Valuation τ sig (Elt Ideal)) :
    after (opsA ++ opsB ++ opsC ++ opsD) V (main_arg0 : DevRef τ sig) = V (main_arg0 : DevRef τ sig) :=
  keep_all V main_arg0 (by decide) (by decide) (by decide) (by decide)
theorem arg_eq_1 (V : Valuation τ sig (Elt Ideal)) :
    after (opsA ++ opsB ++ opsC ++ opsD) V (main_arg1 : DevRef τ sig) = V (main_arg1 : DevRef τ sig) :=
  keep_all V main_arg1 (by decide) (by decide) (by decide) (by decide)
theorem arg_eq_2 (V : Valuation τ sig (Elt Ideal)) :
    after (opsA ++ opsB ++ opsC ++ opsD) V (main_arg2 : DevRef τ sig) = V (main_arg2 : DevRef τ sig) :=
  keep_all V main_arg2 (by decide) (by decide) (by decide) (by decide)
theorem arg_eq_3 (V : Valuation τ sig (Elt Ideal)) :
    after (opsA ++ opsB ++ opsC ++ opsD) V (main_arg3 : DevRef τ sig) = V (main_arg3 : DevRef τ sig) :=
  keep_all V main_arg3 (by decide) (by decide) (by decide) (by decide)
theorem arg_eq_4 (V : Valuation τ sig (Elt Ideal)) :
    after (opsA ++ opsB ++ opsC ++ opsD) V (main_arg4 : DevRef τ sig) = V (main_arg4 : DevRef τ sig) :=
  keep_all V main_arg4 (by decide) (by decide) (by decide) (by decide)
theorem arg_eq_5 (V : Valuation τ sig (Elt Ideal)) :
    after (opsA ++ opsB ++ opsC ++ opsD) V (main_arg5 : DevRef τ sig) = V (main_arg5 : DevRef τ sig) :=
  keep_all V main_arg5 (by decide) (by decide) (by decide) (by decide)
theorem arg_eq_6 (V : Valuation τ sig (Elt Ideal)) :
    after (opsA ++ opsB ++ opsC ++ opsD) V (main_arg6 : DevRef τ sig) = V (main_arg6 : DevRef τ sig) :=
  keep_all V main_arg6 (by decide) (by decide) (by decide) (by decide)
theorem arg_eq_7 (V : Valuation τ sig (Elt Ideal)) :
    after (opsA ++ opsB ++ opsC ++ opsD) V (main_arg7 : DevRef τ sig) = V (main_arg7 : DevRef τ sig) :=
  keep_all V main_arg7 (by decide) (by decide) (by decide) (by decide)
theorem arg_eq_8 (V : Valuation τ sig (Elt Ideal)) :
    after (opsA ++ opsB ++ opsC ++ opsD) V (main_arg8 : DevRef τ sig) = V (main_arg8 : DevRef τ sig) :=
  keep_all V main_arg8 (by decide) (by decide) (by decide) (by decide)
theorem arg_eq_9 (V : Valuation τ sig (Elt Ideal)) :
    after (opsA ++ opsB ++ opsC ++ opsD) V (main_arg9 : DevRef τ sig) = V (main_arg9 : DevRef τ sig) :=
  keep_all V main_arg9 (by decide) (by decide) (by decide) (by decide)
theorem arg_eq_10 (V : Valuation τ sig (Elt Ideal)) :
    after (opsA ++ opsB ++ opsC ++ opsD) V (main_arg10 : DevRef τ sig) = V (main_arg10 : DevRef τ sig) :=
  keep_all V main_arg10 (by decide) (by decide) (by decide) (by decide)
theorem arg_eq_11 (V : Valuation τ sig (Elt Ideal)) :
    after (opsA ++ opsB ++ opsC ++ opsD) V (main_arg11 : DevRef τ sig) = V (main_arg11 : DevRef τ sig) :=
  keep_all V main_arg11 (by decide) (by decide) (by decide) (by decide)
theorem arg_eq_12 (V : Valuation τ sig (Elt Ideal)) :
    after (opsA ++ opsB ++ opsC ++ opsD) V (main_arg12 : DevRef τ sig) = V (main_arg12 : DevRef τ sig) :=
  keep_all V main_arg12 (by decide) (by decide) (by decide) (by decide)
theorem arg_eq_13 (V : Valuation τ sig (Elt Ideal)) :
    after (opsA ++ opsB ++ opsC ++ opsD) V (main_arg13 : DevRef τ sig) = V (main_arg13 : DevRef τ sig) :=
  keep_all V main_arg13 (by decide) (by decide) (by decide) (by decide)
theorem arg_eq_14 (V : Valuation τ sig (Elt Ideal)) :
    after (opsA ++ opsB ++ opsC ++ opsD) V (main_arg14 : DevRef τ sig) = V (main_arg14 : DevRef τ sig) :=
  keep_all V main_arg14 (by decide) (by decide) (by decide) (by decide)

/-- From any memory with zero counters, every weakly fair execution of the reference function terminates; the result
    buffer then holds the network's function of the arguments' launch contents, and every argument buffer its launch
    contents. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v131)
        = Cert.Gnn.result (m' ((c.tc : Thread nD τ).loc main_arg0))
            (m' ((c.tc : Thread nD τ).loc main_arg1))
            (m' ((c.tc : Thread nD τ).loc main_arg2))
            (m' ((c.tc : Thread nD τ).loc main_arg3))
            (m' ((c.tc : Thread nD τ).loc main_arg4))
            (m' ((c.tc : Thread nD τ).loc main_arg5))
            (m' ((c.tc : Thread nD τ).loc main_arg6))
            (m' ((c.tc : Thread nD τ).loc main_arg7))
            (m' ((c.tc : Thread nD τ).loc main_arg8))
            (m' ((c.tc : Thread nD τ).loc main_arg9))
            (m' ((c.tc : Thread nD τ).loc main_arg10))
            (m' ((c.tc : Thread nD τ).loc main_arg11))
            (m' ((c.tc : Thread nD τ).loc main_arg12))
            (m' ((c.tc : Thread nD τ).loc main_arg13))
            (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14) :=
  (θ_run defs _ _).mono (fun _ h c => ⟨(h c main_v131).trans (out_eq _),
      (h c main_arg0).trans (arg_eq_0 _),
      (h c main_arg1).trans (arg_eq_1 _),
      (h c main_arg2).trans (arg_eq_2 _),
      (h c main_arg3).trans (arg_eq_3 _),
      (h c main_arg4).trans (arg_eq_4 _),
      (h c main_arg5).trans (arg_eq_5 _),
      (h c main_arg6).trans (arg_eq_6 _),
      (h c main_arg7).trans (arg_eq_7 _),
      (h c main_arg8).trans (arg_eq_8 _),
      (h c main_arg9).trans (arg_eq_9 _),
      (h c main_arg10).trans (arg_eq_10 _),
      (h c main_arg11).trans (arg_eq_11 _),
      (h c main_arg12).trans (arg_eq_12 _),
      (h c main_arg13).trans (arg_eq_13 _),
      (h c main_arg14).trans (arg_eq_14 _)⟩)
    (run_main m' ρ')

end Cert.RefValue

end
-- ==== Proof.lean ====
/-
  The certificate of a two-layer graph convolution network over 100000 nodes, 500000 edges and 1024 graphs: the
  kernel program (seven kernel launches for the dense steps — the embedding, and per layer the scaled projection,
  the scaling with bias, the normalisation with clamp and residual — among host operations for the irregular ones —
  degree counts, the gather and accumulating scatter over the edges, the batch statistics, the pooling) against the
  plain reference.

  At the exact values the two programs are the same function of their fifteen arguments, step by step: a change of
  float format on the way into a matrix product is the identity; a kernel's matrix product accumulated into zero and
  the host's product are the same sums; a vector handed to a kernel as a one-row matrix or a column and broadcast
  there reads the same entries as the host's broadcasts; the reciprocal square root is one function on both sides;
  every host operation outside the launches is literally the reference's.  No law that could fail at an infinite
  value is used, so the precondition (finite inputs) is not opened.

  The three frames: the two kernel programs' are the launch-by-launch frame certificates; the reference's is its run
  with the result forgotten.  The idealization rewrote nothing, so that conjunct is trivial.
-/
import proofs.«124989_j83073257439657_1_alg».proof.Defs
import proofs.«124989_j83073257439657_1_alg».proof.Proof.Gen.Kernel
import proofs.«124989_j83073257439657_1_alg».proof.Proof.Gen.Kernel.Frame
import proofs.«124989_j83073257439657_1_alg».proof.Proof.Gen.KernelIdeal
import proofs.«124989_j83073257439657_1_alg».proof.Proof.Gen.KernelIdeal.Frame
import proofs.«124989_j83073257439657_1_alg».proof.Proof.Gen.ReferenceIdeal
import proofs.«124989_j83073257439657_1_alg».proof.Proof.Gen.Pre_finite_inputs
import proofs.«124989_j83073257439657_1_alg».proof.Proof.KernelValue
import proofs.«124989_j83073257439657_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.RefValue.run m ρ)

/-- The idealization rewrote no operation. -/
theorem preserves : Cert.preserves_Kernel_KernelIdeal := trivial

/-- From memories agreeing on the arguments both idealized programs end with the specification's function of the
    arguments in their result buffers. -/
theorem algebraic : Cert.algebraic_KernelIdeal_ReferenceIdeal := by
  intro m ρ m' ρ' _ hagree
  refine ⟨fun c => Cert.Gnn.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)),
    Cert.KernelIdeal.Chain.run m ρ, ?_⟩
  refine (θ_run Cert.ReferenceIdeal.defs _ _).mono (fun r h c => ⟨(h c).1.trans ?_, (h c).2⟩) (Cert.RefValue.run m' ρ')
  obtain ⟨e0, e1, e2, e3, e4, e5, e6, e7, e8, e9, e10, e11, e12, e13, e14⟩ := hagree c
  rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
